-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x26 : S_.BroadcastsInDim S4096x26 (![] : Fin 0 → Fin S4096x26.rank)
  reducesTo_S4096x26_S_d0_1 : S4096x26.ReducesTo [0, 1] S_

variable [Facts]

def fn {F : FTy → Type} [FloatOps F] (main_arg0 : IVec S4096x26 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x26 32 := broadcastInDim S4096x26 ![] bcast_S_S4096x26 main_c_0
  let main_v5 : IVec S4096x26 1 := cmpi .sge main_arg0 main_v4
  let main_c_1 : IVec S_ 32 := constantI S_ 32 99999#32
  let main_v6 : IVec S4096x26 32 := broadcastInDim S4096x26 ![] bcast_S_S4096x26 main_c_1
  let main_v7 : IVec S4096x26 1 := cmpi .sle main_arg0 main_v6
  let main_v8 : IVec S4096x26 1 := andi main_v5 main_v7
  let main_c_2 : IVec S_ 1 := constantI S_ 1 1#1
  let main_v9 : IVec S_ 1 := (fun x v => Host.reduce IntOp.andi x v reducesTo_S4096x26_S_d0_1 h_S_) main_v8 main_c_2
  let main_v10 : IVec S_ 1 := andi main_v3 main_v9
  main_v10
-- ==== Kernel.lean ====
abbrev S4096x26 : Shape := ⟨2, ![4096, 26]⟩
abbrev S100000x128 : Shape := ⟨2, ![100000, 128]⟩
abbrev S26x4096 : Shape := ⟨2, ![26, 4096]⟩
abbrev S106496 : Shape := ⟨1, ![106496]⟩
abbrev S32x26x128 : Shape := ⟨3, ![32, 26, 128]⟩
abbrev S106496x128 : Shape := ⟨2, ![106496, 128]⟩
abbrev S26x128 : Shape := ⟨2, ![26, 128]⟩
abbrev S128x128 : Shape := ⟨2, ![128, 128]⟩
abbrev S_ : Shape := ⟨0, ![]⟩
abbrev S1x26x128 : Shape := ⟨3, ![1, 26, 128]⟩
abbrev S1x128 : Shape := ⟨2, ![1, 128]⟩
abbrev S128 : Shape := ⟨1, ![128]⟩
abbrev S26x4096x128 : Shape := ⟨3, ![26, 4096, 128]⟩
abbrev S4096x26x128 : Shape := ⟨3, ![4096, 26, 128]⟩

abbrev nBuf : Table → Nat
  | .hbm => 8
  | .local .scVector .vmem => 5
  | _ => 0

abbrev bufTy : (tb : Table) → Fin (nBuf tb) → BufTy
  | .hbm, ⟨0, _⟩ => ⟨S4096x26, .i32⟩
  | .hbm, ⟨1, _⟩ => ⟨S100000x128, .f32⟩
  | .hbm, ⟨2, _⟩ => ⟨S26x4096, .i32⟩
  | .hbm, ⟨3, _⟩ => ⟨S106496, .i32⟩
  | .hbm, ⟨4, _⟩ => ⟨S32x26x128, .i32⟩
  | .hbm, ⟨5, _⟩ => ⟨S106496x128, .f32⟩
  | .hbm, ⟨6, _⟩ => ⟨S26x4096x128, .f32⟩
  | .hbm, ⟨7, _⟩ => ⟨S4096x26x128, .f32⟩
  | .local .scVector .vmem, ⟨0, _⟩ => ⟨S26x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg1_scv : Ref sig .scVector := ⟨.hbm, 1, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_314_r0 : BitVec 32 := 0#32
  let c0_i32_315_r0 : BitVec 32 := 0#32
  ![v1.toNat, 0, 0]
def k0_off2 (i : grid0.Coords) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let v18 : BitVec 32 := Scalar.addi v2 c0_i32_17
  let c0_i32_18 : BitVec 32 := 0#32
  ![v18.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x26_S26x4096_1_0 : S4096x26.Transposes [1, 0] S26x4096
  shapeCasts_S26x4096_S106496 : S26x4096.ShapeCasts S106496
  shapeCasts_S106496_S32x26x128 : S106496.ShapeCasts S32x26x128
  squeezes_S1x26x128_S26x128 : S1x26x128.Squeezes S26x128
  inb_S26x128_S1x128_0_0 : ∀ a, (![0, 0] : Fin 2 → Nat) a + S1x128.size a ≤ S26x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S26x128_S1x128_1_0 : ∀ a, (![1, 0] : Fin 2 → Nat) a + S1x128.size a ≤ S26x128.size a
  inb_S26x128_S1x128_2_0 : ∀ a, (![2, 0] : Fin 2 → Nat) a + S1x128.size a ≤ S26x128.size a
  inb_S26x128_S1x128_3_0 : ∀ a, (![3, 0] : Fin 2 → Nat) a + S1x128.size a ≤ S26x128.size a
  inb_S26x128_S1x128_4_0 : ∀ a, (![4, 0] : Fin 2 → Nat) a + S1x128.size a ≤ S26x128.size a
  inb_S26x128_S1x128_5_0 : ∀ a, (![5, 0] : Fin 2 → Nat) a + S1x128.size a ≤ S26x128.size a
  inb_S26x128_S1x128_6_0 : ∀ a, (![6, 0] : Fin 2 → Nat) a + S1x128.size a ≤ S26x128.size a
  inb_S26x128_S1x128_7_0 : ∀ a, (![7, 0] : Fin 2 → Nat) a + S1x128.size a ≤ S26x128.size a
  inb_S26x128_S1x128_8_0 : ∀ a, (![8, 0] : Fin 2 → Nat) a + S1x128.size a ≤ S26x128.size a
  inb_S26x128_S1x128_9_0 : ∀ a, (![9, 0] : Fin 2 → Nat) a + S1x128.size a ≤ S26x128.size a
  inb_S26x128_S1x128_10_0 : ∀ a, (![10, 0] : Fin 2 → Nat) a + S1x128.size a ≤ S26x128.size a
  inb_S26x128_S1x128_11_0 : ∀ a, (![11, 0] : Fin 2 → Nat) a + S1x128.size a ≤ S26x128.size a
  inb_S26x128_S1x128_12_0 : ∀ a, (![12, 0] : Fin 2 → Nat) a + S1x128.size a ≤ S26x128.size a
  inb_S26x128_S1x128_13_0 : ∀ a, (![13, 0] : Fin 2 → Nat) a + S1x128.size a ≤ S26x128.size a
  inb_S26x128_S1x128_14_0 : ∀ a, (![14, 0] : Fin 2 → Nat) a + S1x128.size a ≤ S26x128.size a
  inb_S26x128_S1x128_15_0 : ∀ a, (![15, 0] : Fin 2 → Nat) a + S1x128.size a ≤ S26x128.size a
  inb_S26x128_S1x128_16_0 : ∀ a, (![16, 0] : Fin 2 → Nat) a + S1x128.size a ≤ S26x128.size a
  inb_S26x128_S1x128_17_0 : ∀ a, (![17, 0] : Fin 2 → Nat) a + S1x128.size a ≤ S26x128.size a
  inb_S26x128_S1x128_18_0 : ∀ a, (![18, 0] : Fin 2 → Nat) a + S1x128.size a ≤ S26x128.size a
  inb_S26x128_S1x128_19_0 : ∀ a, (![19, 0] : Fin 2 → Nat) a + S1x128.size a ≤ S26x128.size a
  inb_S26x128_S1x128_20_0 : ∀ a, (![20, 0] : Fin 2 → Nat) a + S1x128.size a ≤ S26x128.size a
  inb_S26x128_S1x128_21_0 : ∀ a, (![21, 0] : Fin 2 → Nat) a + S1x128.size a ≤ S26x128.size a
  inb_S26x128_S1x128_22_0 : ∀ a, (![22, 0] : Fin 2 → Nat) a + S1x128.size a ≤ S26x128.size a
  inb_S26x128_S1x128_23_0 : ∀ a, (![23, 0] : Fin 2 → Nat) a + S1x128.size a ≤ S26x128.size a
  inb_S26x128_S1x128_24_0 : ∀ a, (![24, 0] : Fin 2 → Nat) a + S1x128.size a ≤ S26x128.size a
  inb_S26x128_S1x128_25_0 : ∀ a, (![25, 0] : Fin 2 → Nat) a + S1x128.size a ≤ S26x128.size a
  shapeCasts_S106496x128_S26x4096x128 : S106496x128.ShapeCasts S26x4096x128
  transposes_S26x4096x128_S4096x26x128_1_0_2 : S26x4096x128.Transposes [1, 0, 2] S4096x26x128
  hcc0_scratch5 : 0 + S_.numel ≤ 9
  hcc0_scratch6 : 1 + S_.numel ≤ 9
  hcc0_scratch7 : 2 + S_.numel ≤ 9
  hcc0_scratch8 : 3 + S_.numel ≤ 9
  hcc0_scratch9 : 4 + S_.numel ≤ 9
  hcc0_scratch10 : 5 + S_.numel ≤ 9
  hcc0_scratch11 : 6 + S_.numel ≤ 9
  hcc0_scratch12 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x26x128.size a ≤ S32x26x128.size a
  k0_off2_inb : ∀ i : grid0.Coords, ∀ (r : Fin 26), ∀ a, (k0_off2 i (BitVec.ofNat 32 (128 * r.val))) a + S128x128.size a ≤ S106496x128.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scratch11 : DmaSems sig S_ := SemArray.consecutive 6 S_ hcc0_scratch11
abbrev cc0_scratch12 : DmaSems sig S_ := SemArray.consecutive 7 S_ hcc0_scratch12
abbrev cc0_scoped0 : DmaSems sig S_ := SemArray.consecutive 8 S_ hcc0_scoped0

class Facts : Prop extends Facts₀ where

variable [Facts]
-- ==== ReferenceIdeal.lean ====
abbrev S4096x26 : Shape := ⟨2, ![4096, 26]⟩
abbrev S100000x128 : Shape := ⟨2, ![100000, 128]⟩
abbrev S_ : Shape := ⟨0, ![]⟩
abbrev S4096x26x1 : Shape := ⟨3, ![4096, 26, 1]⟩
abbrev S1 : Shape := ⟨1, ![1]⟩
abbrev S1x1x1 : Shape := ⟨3, ![1, 1, 1]⟩
abbrev S4096x26x128 : Shape := ⟨3, ![4096, 26, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S100000x128, .f32⟩
  | .hbm, ⟨2, _⟩ => ⟨S_, .i32⟩
  | .hbm, ⟨3, _⟩ => ⟨S4096x26, .i32⟩
  | .hbm, ⟨4, _⟩ => ⟨S4096x26, .i1⟩
  | .hbm, ⟨5, _⟩ => ⟨S_, .i32⟩
  | .hbm, ⟨6, _⟩ => ⟨S4096x26, .i32⟩
  | .hbm, ⟨7, _⟩ => ⟨S4096x26, .i32⟩
  | .hbm, ⟨8, _⟩ => ⟨S4096x26, .i32⟩
  | .hbm, ⟨9, _⟩ => ⟨S4096x26x1, .i32⟩
  | .hbm, ⟨10, _⟩ => ⟨S1, .i32⟩
  | .hbm, ⟨11, _⟩ => ⟨S_, .i32⟩
  | .hbm, ⟨12, _⟩ => ⟨S4096x26x1, .i32⟩
  | .hbm, ⟨13, _⟩ => ⟨S4096x26x1, .i1⟩
  | .hbm, ⟨14, _⟩ => ⟨S1x1x1, .i32⟩
  | .hbm, ⟨15, _⟩ => ⟨S4096x26x1, .i32⟩
  | .hbm, ⟨16, _⟩ => ⟨S4096x26x1, .i1⟩
  | .hbm, ⟨17, _⟩ => ⟨S4096x26x1, .i1⟩
  | .hbm, ⟨18, _⟩ => ⟨S_, .i1⟩
  | .hbm, ⟨19, _⟩ => ⟨S4096x26, .i1⟩
  | .hbm, ⟨20, _⟩ => ⟨S4096x26x128, .f32⟩
  | .hbm, ⟨21, _⟩ => ⟨S4096x26x128, .i1⟩
  | .hbm, ⟨22, _⟩ => ⟨S_, .f32⟩
  | .hbm, ⟨23, _⟩ => ⟨S4096x26x128, .f32⟩
  | .hbm, ⟨24, _⟩ => ⟨S4096x26x128, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x26 : S_.BroadcastsInDim S4096x26 (![] : Fin 0 → Fin S4096x26.rank)
  bcast_S4096x26_S4096x26x1_0_1 : S4096x26.BroadcastsInDim S4096x26x1 (![0, 1] : Fin 2 → Fin S4096x26x1.rank)
  bcast_S_S4096x26x1 : S_.BroadcastsInDim S4096x26x1 (![] : Fin 0 → Fin S4096x26x1.rank)
  bcast_S1_S1x1x1_2 : S1.BroadcastsInDim S1x1x1 (![2] : Fin 1 → Fin S1x1x1.rank)
  bcast_S1x1x1_S4096x26x1_0_1_2 : S1x1x1.BroadcastsInDim S4096x26x1 (![0, 1, 2] : Fin 3 → Fin S4096x26x1.rank)
  reducesTo_S4096x26x1_S4096x26_d2 : S4096x26x1.ReducesTo [2] S4096x26
  h_S_ : 0 < S_.numel
  bcast_S4096x26_S4096x26x128_0_1 : S4096x26.BroadcastsInDim S4096x26x128 (![0, 1] : Fin 2 → Fin S4096x26x128.rank)
  bcast_S_S4096x26x128 : S_.BroadcastsInDim S4096x26x128 (![] : Fin 0 → Fin S4096x26x128.rank)
  gather_S100000x128_S4096x26x1_S4096x26x128_2_0_n_n_0_2_1128_wf : GatherDims.WF S100000x128 S4096x26x1 S4096x26x128 [2] [0] [] [0] [] 2 ![1, 128]

variable [Facts₀]

def gather_S100000x128_S4096x26x1_S4096x26x128_2_0_n_n_0_2_1128 : GatherDims S100000x128 S4096x26x1 S4096x26x128 where
  offsetDims := [2]
  collapsedSliceDims := [0]
  operandBatchingDims := []
  startIndicesBatchingDims := []
  startIndexMap := [0]
  indexVectorDim := 2
  sliceSizes := ![1, 128]
  wf := gather_S100000x128_S4096x26x1_S4096x26x128_2_0_n_n_0_2_1128_wf

class Facts : Prop extends Facts₀ where

variable [Facts]
-- ==== Proof.KiCommon.lean ====
/-
  What the parts of the lookup kernel's proof share. The program as the launch theorem sees it: one SparseCore call
  on both SparseCores' sixteen vector subcores each, thirty-two tasks. The resource algebra: the handshakes' rounds beside the
  transfers' counters (every transfer of a task is local to its tile and waited by it, so no schedule is needed).
  The arrays a task touches: the table (read by every task at once: the full share halved five times, one leaf per
  task, halved twice more for the four row buffers' gathers in flight together), the index array re-laid as
  32 × 26 × 128 (task w reads its slab w), and the gathered rows 106496 × 128 (task w writes rows
  3328·w … 3328·w + 3327, in 26 chunks of 128 rows).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206664_g71932112273502_cont_9to1_m_983_11_alg».proof.Proof.Gen.KernelIdeal
import proofs.«206664_g71932112273502_cont_9to1_m_983_11_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The index array as given, the table, the index array re-laid for the tasks, the gathered rows, and the two
    re-layouts of those that make the result: as locations of device `d`. -/
abbrev xLoc (d : Dev nD) : Loc nD τ sig := (SparseCore.T d).loc main_arg0
abbrev tLoc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3
abbrev v4Loc (d : Dev nD) : Loc nD τ sig := (SparseCore.T d).loc main_v4
abbrev rLoc (d : Dev nD) : Loc nD τ sig := (SparseCore.T d).loc main_v5

/-! ## Shares of the table: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

end Cert.Proof.KI

end
-- ==== Proof.Spec.lean ====
/-
  The specification both programs are compared against: an embedding lookup. The index array `x` is 4096 × 26
  words, the table 100000 rows of 128 entries; entry `(b, f, k)` of the result is entry `k` of the table row the word
  `x[b, f]` names. A word is read as its unsigned value reduced into the table's extent, so the function is total;
  where every word is below 100000 (`InRange`) the reduction is the identity and the row is the word's own value.
  No program is imported here: the shapes are literal.
-/
import Idealize.ShloMosaic.PureOps
import Idealize.ShloMosaic.Lib.ValueIdx

noncomputable section

namespace Cert.Spec

open Idealize.ShloMosaic Idealize.ShloMosaic.ValueIdx

/-- The index array's, the table's and the result's shapes. -/
abbrev SX : Shape := ⟨2, ![4096, 26]⟩
abbrev ST : Shape := ⟨2, ![100000, 128]⟩
abbrev SO : Shape := ⟨3, ![4096, 26, 128]⟩

/-- Every index word names a row of the table. -/
def InRange (x : IVec SX 32) : Prop := ∀ i, (x i).toNat < 100000

/-- The table row the word `x[b, f]` names: its unsigned value, reduced into the table's extent. -/
def rowAt (x : IVec SX 32) (b : Fin 4096) (f : Fin 26) : Fin 100000 :=
  ⟨(x (ix2 b f)).toNat % 100000, Nat.mod_lt _ (by decide)⟩

/-- Under `InRange` the row is the word's own value. -/
theorem rowAt_val {x : IVec SX 32} (h : InRange x) (b : Fin 4096) (f : Fin 26) : (rowAt x b f).val = (x (ix2 b f)).toNat :=
  Nat.mod_eq_of_lt (h _)

/-- The lookup: entry `(b, f, k)` is entry `k` of table row `x[b, f]`. -/
def lookup {α : Type} (x : IVec SX 32) (t : ST.Idx → α) : SO.Idx → α :=
  fun j => t (ix2 (rowAt x ⟨(j 0).val, (j 0).isLt⟩ ⟨(j 1).val, (j 1).isLt⟩) ⟨(j 2).val, (j 2).isLt⟩)

/-- The lookup at coordinates. -/
theorem lookup_ix3 {α : Type} (x : IVec SX 32) (t : ST.Idx → α) (b : Fin 4096) (f : Fin 26) (k : Fin 128) :
    lookup x t (ix3 b f k) = t (ix2 (rowAt x b f) k) := rfl

end Cert.Spec

end
-- ==== Proof.Layout.lean ====
/-
  The kernel's data movement as pure functions of the arrays. The index array is transposed, flattened and cut into
  32 slabs of 26 lists of 128 words (`idx3Of`); row ρ of the gathered-rows array holds the table row named by word ρ
  of that re-laid array (`outOf`); the result is the gathered rows cut into 26 blocks of 4096 rows with the first two
  axes exchanged (`resOf`). Composed, under `InRange`, they are the lookup of Spec.lean.
-/
import Idealize.ShloMosaic.PureOps
import Idealize.ShloMosaic.Lib.ValueIdx
import proofs.«206664_g71932112273502_cont_9to1_m_983_11_alg».proof.Proof.Spec

noncomputable section

namespace Cert.Layout

open Idealize.ShloMosaic
open Idealize.ShloMosaic.ValueIdx (ix2 ix3)
open Cert.Spec (SX ST SO)

/-- The transposed index array, its flattening, the re-laid index array, the gathered rows, the gathered rows in blocks. -/
abbrev SXT : Shape := ⟨2, ![26, 4096]⟩
abbrev SFl : Shape := ⟨1, ![106496]⟩
abbrev SI3 : Shape := ⟨3, ![32, 26, 128]⟩
abbrev SG : Shape := ⟨2, ![106496, 128]⟩
abbrev SG3 : Shape := ⟨3, ![26, 4096, 128]⟩

/-- The index array re-laid for the tasks: transposed, flattened, cut into 32 slabs of 26 lists of 128 words. -/
def idx3Of (x : IVec SX 32) : IVec SI3 32 :=
  shapeCast SI3 (shapeCast SFl (transpose SXT [1, 0] x (by decide)) (by decide)) (by decide)

/-- Row `ρ` of the gathered-rows array holds the table row named by word `ρ` of the re-laid index array (word
    `(ρ / 3328, ρ % 3328 / 128, ρ % 128)`), read as its unsigned value reduced into the table's extent. -/
def outOf {α : Type} (i3 : IVec SI3 32) (tb : ST.Idx → α) : SG.Idx → α :=
  fun j => tb (ix2
    ⟨(i3 (ix3 ⟨(j 0).val / 3328, by have h : (j 0).val < 106496 := (j 0).isLt; omega⟩
              ⟨(j 0).val % 3328 / 128, by omega⟩ ⟨(j 0).val % 128, by omega⟩)).toNat % 100000, Nat.mod_lt _ (by decide)⟩
    ⟨(j 1).val, (j 1).isLt⟩)

/-- The result from the gathered rows: cut into 26 blocks of 4096 rows, the first two axes exchanged. -/
def resOf {α : Type} (o : SG.Idx → α) : SO.Idx → α :=
  transpose SO [1, 0, 2] (shapeCast SG3 o (by decide)) (by decide)

end Cert.Layout

end
-- ==== Proof.KiTile.lean ====
/-
  One task of the lookup kernel, on vector subcore (L 0, L 1): its pieces of the arrays in the program's own spelling,
  what it leaves in the gathered-rows array as ONE whole-array function, and its own scratch and semaphores taken out
  of the subcore's scoped storage.
-/
import proofs.«206664_g71932112273502_cont_9to1_m_983_11_alg».proof.Proof.KiCommon
import Idealize.ShloMosaic.Lib.ValueIdx
import proofs.«206664_g71932112273502_cont_9to1_m_983_11_alg».proof.Proof.Layout

noncomputable section

namespace Cert.Proof.KI

open Cert.KernelIdeal Cert.KernelIdeal.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v2_scv : Memref Cert.KernelIdeal.sig Kind.scVector Space.hbm Cert.KernelIdeal.S32x26x128 EltTy.i32)
local notation "oV" => (Memref.whole Cert.KernelIdeal.main_v3_scv : Memref Cert.KernelIdeal.sig Kind.scVector Space.hbm Cert.KernelIdeal.S106496x128 EltTy.f32)
local notation "sI" => (Memref.whole Cert.KernelIdeal.cc0_scratch0 : Memref Cert.KernelIdeal.sig Kind.scVector Space.vmem Cert.KernelIdeal.S26x128 EltTy.i32)
local notation "bA" => (Memref.whole Cert.KernelIdeal.cc0_scratch1 : Memref Cert.KernelIdeal.sig Kind.scVector Space.vmem Cert.KernelIdeal.S128x128 EltTy.f32)
local notation "bB" => (Memref.whole Cert.KernelIdeal.cc0_scratch2 : Memref Cert.KernelIdeal.sig Kind.scVector Space.vmem Cert.KernelIdeal.S128x128 EltTy.f32)
local notation "bC" => (Memref.whole Cert.KernelIdeal.cc0_scratch3 : Memref Cert.KernelIdeal.sig Kind.scVector Space.vmem Cert.KernelIdeal.S128x128 EltTy.f32)
local notation "bD" => (Memref.whole Cert.KernelIdeal.cc0_scratch4 : Memref Cert.KernelIdeal.sig Kind.scVector Space.vmem Cert.KernelIdeal.S128x128 EltTy.f32)

/-! ## The task's pieces -/

abbrev cV (L : grid0.Coords) : Fin τ.nSC := (L 0).castLE hcore0
abbrev jV (L : grid0.Coords) : Fin τ.nSub := (L 1).castLE hsub0

/-- Slab `2 · L 1 + L 0` of the re-laid index array, squeezed to 26 × 128: what the task fetches into its index scratch. -/
abbrev islabK (L : grid0.Coords) : Rect S32x26x128 := Rect.unit (s := S32x26x128) (k0_off1 L) S1x26x128.size (k0_off1_inb L)
abbrev iSlabK (L : grid0.Coords) : Memref sig .scVector .hbm S26x128 .i32 := ((iV).slice (islabK L) (fun _ => rfl)).squeeze S26x128 squeezes_S1x26x128_S26x128
/-- The whole table, as each gather names it (a slice that is everything). -/
abbrev tAllK : Memref sig .scVector .hbm S100000x128 .f32 := (tV).slice (Rect.unit (s := S100000x128) ![0, 0] S100000x128.size inb_S100000x128_S100000x128_0_0) (fun _ => rfl)
/-- Chunk `r` of the task's rows of the gathered-rows array: 128 rows from `3328 · (2 · L 1 + L 0) + 128 · r`. -/
abbrev oChK (L : grid0.Coords) (r : Fin 26) : Memref sig .scVector .hbm S128x128 .f32 :=
  (oV).slice (Rect.unit (s := S106496x128) (k0_off2 L (BitVec.ofNat 32 (128 * r.val))) S128x128.size (k0_off2_inb L r)) (fun _ => rfl)
/-- Row `r` of the index scratch as a list of 128 words: the offsets of gather `r`. -/
theorem offK_inb (r : Fin 26) : ∀ a, (![r.val, 0] : Fin 2 → Nat) a + S1x128.size a ≤ S26x128.size a := by
  intro a; have := r.isLt; fin_cases a <;> simp <;> omega
abbrev offK (r : Fin 26) : Memref sig .scVector .vmem S128 .i32 :=
  ((sI).slice (Rect.unit (s := S26x128) ![r.val, 0] S1x128.size (offK_inb r)) (fun _ => rfl)).squeeze S128 squeezes_S1x128_S128

/-! ## The subcore's own semaphores and scratch -/

section Tile

variable (d : Dev nD) (L : grid0.Coords)

abbrev cellOf (d : Dev nD) (L : grid0.Coords) (s : DmaSem sig) : GSem nD τ sig := (V d (cV L) (jV L), .dma s)

theorem cellOf_ne (d : Dev nD) (L : grid0.Coords) {a b : DmaSem sig} (h : a ≠ b) : cellOf d L a ≠ cellOf d L b :=
  fun e => h (SemLoc.dma.inj (Prod.mk.inj e).2)

set_option maxRecDepth 8192 in
/-- The nine DMA semaphores the task names are among the subcore's scoped cells: they, at zero, and the rest. -/
theorem ownSems0_V :
    (ownSems0 (V d (cV L) (jV L)) : sProp 𝕄)
      = iprop(semVal (cellOf d L cc0_scratch5.sem) 0 ∗ semVal (cellOf d L cc0_scratch6.sem) 0 ∗ semVal (cellOf d L cc0_scratch7.sem) 0 ∗ semVal (cellOf d L cc0_scratch8.sem) 0 ∗ semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scoped0.sem) 0 ∗ bigSep ((((((((((ownCells (V d (cV L) (jV L))).erase (cellOf d L cc0_scratch5.sem)).erase (cellOf d L cc0_scratch6.sem)).erase (cellOf d L cc0_scratch7.sem)).erase (cellOf d L cc0_scratch8.sem)).erase (cellOf d L cc0_scratch9.sem)).erase (cellOf d L cc0_scratch10.sem)).erase (cellOf d L cc0_scratch11.sem)).erase (cellOf d L cc0_scratch12.sem)).erase (cellOf d L cc0_scoped0.sem)) fun g => semVal g 0) := by
  unfold SparseCore.Cfg.ownSems0
  rw [SparseCore.bigSep_erase' ((mem_ownCells (g := (cellOf d L cc0_scratch5.sem))).mpr ⟨rfl, by show (SemLoc.dma cc0_scratch5.sem : SemLoc sig).isScoped .scVector = true; decide⟩),
    SparseCore.bigSep_erase' (Finset.mem_erase.mpr ⟨cellOf_ne d L (by decide), (mem_ownCells (g := (cellOf d L cc0_scratch6.sem))).mpr ⟨rfl, by show (SemLoc.dma cc0_scratch6.sem : SemLoc sig).isScoped .scVector = true; decide⟩⟩),
    SparseCore.bigSep_erase' (Finset.mem_erase.mpr ⟨cellOf_ne d L (by decide), Finset.mem_erase.mpr ⟨cellOf_ne d L (by decide), (mem_ownCells (g := (cellOf d L cc0_scratch7.sem))).mpr ⟨rfl, by show (SemLoc.dma cc0_scratch7.sem : SemLoc sig).isScoped .scVector = true; decide⟩⟩⟩),
    SparseCore.bigSep_erase' (Finset.mem_erase.mpr ⟨cellOf_ne d L (by decide), Finset.mem_erase.mpr ⟨cellOf_ne d L (by decide), Finset.mem_erase.mpr ⟨cellOf_ne d L (by decide), (mem_ownCells (g := (cellOf d L cc0_scratch8.sem))).mpr ⟨rfl, by show (SemLoc.dma cc0_scratch8.sem : SemLoc sig).isScoped .scVector = true; decide⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scratch9.sem))).mpr ⟨rfl, by show (SemLoc.dma cc0_scratch9.sem : SemLoc sig).isScoped .scVector = true; decide⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scratch10.sem))).mpr ⟨rfl, by show (SemLoc.dma cc0_scratch10.sem : SemLoc sig).isScoped .scVector = true; decide⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scratch11.sem))).mpr ⟨rfl, by show (SemLoc.dma cc0_scratch11.sem : SemLoc sig).isScoped .scVector = true; decide⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scratch12.sem))).mpr ⟨rfl, by show (SemLoc.dma cc0_scratch12.sem : SemLoc sig).isScoped .scVector = true; decide⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scoped0.sem))).mpr ⟨rfl, by show (SemLoc.dma cc0_scoped0.sem : SemLoc sig).isScoped .scVector = true; decide⟩⟩⟩⟩⟩⟩⟩⟩⟩)]

set_option maxRecDepth 8192 in
/-- The five scratch buffers are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

end Tile

end Cert.Proof.KI

end
-- ==== Proof.KiChunk.lean ====
/-
  What one task leaves in one chunk of the gathered-rows array. Chunk `r` of task `L` is rows
  `off … off + 127` with `off = 6656·(L 1) + 3328·(L 0) + 128·r`; the task's one whole write puts there the gather's
  payload: row `y` of the payload is the table row named by word `(r, y)` of the task's index scratch, which holds
  slab `2·(L 1) + (L 0)` of the re-laid index array, so the word is word `(2·(L 1) + (L 0), r, y)` of that array — word
  `(ρ / 3328, ρ % 3328 / 128, ρ % 128)` for `ρ = off + y`. In range, the word's value is its own reduction mod 100000.
-/
import proofs.«206664_g71932112273502_cont_9to1_m_983_11_alg».proof.Proof.KiTile
import Idealize.ShloMosaic.Lib.Writes

noncomputable section

namespace Cert.Proof.KI

open Cert.KernelIdeal Cert.KernelIdeal.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v2_scv : Memref Cert.KernelIdeal.sig Kind.scVector Space.hbm Cert.KernelIdeal.S32x26x128 EltTy.i32)
local notation "oV" => (Memref.whole Cert.KernelIdeal.main_v3_scv : Memref Cert.KernelIdeal.sig Kind.scVector Space.hbm Cert.KernelIdeal.S106496x128 EltTy.f32)
local notation "sI" => (Memref.whole Cert.KernelIdeal.cc0_scratch0 : Memref Cert.KernelIdeal.sig Kind.scVector Space.vmem Cert.KernelIdeal.S26x128 EltTy.i32)
local notation "bA" => (Memref.whole Cert.KernelIdeal.cc0_scratch1 : Memref Cert.KernelIdeal.sig Kind.scVector Space.vmem Cert.KernelIdeal.S128x128 EltTy.f32)
local notation "bB" => (Memref.whole Cert.KernelIdeal.cc0_scratch2 : Memref Cert.KernelIdeal.sig Kind.scVector Space.vmem Cert.KernelIdeal.S128x128 EltTy.f32)
local notation "bC" => (Memref.whole Cert.KernelIdeal.cc0_scratch3 : Memref Cert.KernelIdeal.sig Kind.scVector Space.vmem Cert.KernelIdeal.S128x128 EltTy.f32)
local notation "bD" => (Memref.whole Cert.KernelIdeal.cc0_scratch4 : Memref Cert.KernelIdeal.sig Kind.scVector Space.vmem Cert.KernelIdeal.S128x128 EltTy.f32)

/-! ## Reads through the task's views -/

/-- The task's slab read at `(a, b)` is the re-laid index array at `(2·(L 1) + (L 0), a, b)`. -/
theorem read_iSlabK (d : Dev nD) (L : grid0.Coords) (I3 : Buf (Elt F) (iLoc d)) (z : S26x128.Idx) :
    (iSlabK L).view.read (Elt F) I3 z
      = I3 (ix3 (n0 := 32) (n1 := 26) (n2 := 128) ⟨2 * (L 1).val + (L 0).val, by have h0 : (L 0).val < 2 := (L 0).isLt; have h1 : (L 1).val < 16 := (L 1).isLt; omega⟩
          ⟨(z 0).val, (z 0).isLt⟩ ⟨(z 1).val, (z 1).isLt⟩) := by
  have hz : Shape.reshapeEquiv squeezes_S1x26x128_S26x128.numel_eq z
      = ix3 (n0 := 1) (n1 := 26) (n2 := 128) 0 ⟨(z 0).val, (z 0).isLt⟩ ⟨(z 1).val, (z 1).isLt⟩ :=
    Shape.reshapeEquiv_eq_of_rowMajor _ (by
      rw [Shape.rowMajor_val_three, Shape.rowMajor_val_two]
      show (0 * 26 + (z 0).val) * 128 + (z 1).val = (z 0).val * 128 + (z 1).val
      omega)
  show I3 ((islabK L).emb (Shape.reshapeEquiv squeezes_S1x26x128_S26x128.numel_eq z)) = _
  rw [hz]
  refine congrArg I3 (funext fun a => Fin.ext ?_)
  rw [Rect.emb_apply]
  show k0_off1 L a + 1 * _ = _
  rw [k0_off1_eq]
  match a with
  | ⟨0, _⟩ => show 2 * (L 1).val + (L 0).val + 1 * 0 = 2 * (L 1).val + (L 0).val; omega
  | ⟨1, _⟩ => show 0 + 1 * (z 0).val = (z 0).val; omega
  | ⟨2, _⟩ => show 0 + 1 * (z 1).val = (z 1).val; omega

/-- Row `r` of the index scratch, as the list of gather `r`'s offsets, read at `x` is the scratch at `(r, x)`. -/
theorem read_offK (d : Dev nD) (L : grid0.Coords) (r : Fin 26) (FI : Buf (Elt F) ((V d (cV L) (jV L)).loc cc0_scratch0)) (x : S128.Idx) :
    (offK r).view.read (Elt F) FI x = FI (ix2 (n0 := 26) (n1 := 128) r ⟨(x 0).val, (x 0).isLt⟩) := by
  have hx : Shape.reshapeEquiv squeezes_S1x128_S128.numel_eq x = ix2 (n0 := 1) (n1 := 128) 0 ⟨(x 0).val, (x 0).isLt⟩ :=
    Shape.reshapeEquiv_eq_of_rowMajor _ (by
      rw [Shape.rowMajor_val_two, Shape.rowMajor_val_one]
      show 0 * 128 + (x 0).val = (x 0).val
      omega)
  show FI ((Rect.unit (s := S26x128) ![r.val, 0] S1x128.size (offK_inb r)).emb (Shape.reshapeEquiv squeezes_S1x128_S128.numel_eq x)) = _
  rw [hx]
  refine congrArg FI (funext fun a => Fin.ext ?_)
  rw [Rect.emb_apply]
  match a with
  | ⟨0, _⟩ => show r.val + 1 * 0 = r.val; omega
  | ⟨1, _⟩ => show 0 + 1 * (x 0).val = (x 0).val; omega

/-- The table read through the slice that is everything is the table. -/
theorem read_tAllK (d : Dev nD) (TB : Buf (Elt F) (tLoc d)) (j : S100000x128.Idx) :
    (tAllK).view.read (Elt F) TB j = TB j := by
  show TB ((Rect.unit (s := S100000x128) ![0, 0] S100000x128.size inb_S100000x128_S100000x128_0_0).emb j) = _
  refine congrArg TB (funext fun a => Fin.ext ?_)
  rw [Rect.emb_apply]
  match a with
  | ⟨0, _⟩ => show 0 + 1 * (j 0).val = (j 0).val; omega
  | ⟨1, _⟩ => show 0 + 1 * (j 1).val = (j 1).val; omega

/-- The row the offset list names for lane `k`: the value of word `(r, k)` of the index scratch. -/
theorem rows_offK_val (d : Dev nD) (L : grid0.Coords) (r : Fin 26) (FI : Buf (Elt F) ((V d (cV L) (jV L)).loc cc0_scratch0))
    (hin : ∀ x, ((offK r).view.read (Elt F) FI x).toNat < S100000x128.size gathers_S100000x128_S128x128.axis)
    (k : Fin (S128x128.size gathers_S100000x128_S128x128.axis')) :
    (SparseCore.rows ((offK r).view.read (Elt F) FI) rfl hin k).val
      = (FI (ix2 (n0 := 26) (n1 := 128) r ⟨k.val, k.isLt⟩)).toNat := by
  unfold SparseCore.rows
  show ((offK r).view.read (Elt F) FI _).toNat = _
  rw [read_offK]
  refine congrArg (fun j => (FI j).toNat) (funext fun b => Fin.ext ?_)
  match b with
  | ⟨0, _⟩ => rfl
  | ⟨1, _⟩ =>
    refine (Shape.rowMajor_val_one _).symm.trans ?_
    rw [Equiv.apply_symm_apply]
    rfl

/-- Word `(w, c, l)` of an in-range re-laid index array, by its flat position `ρ = 3328·w + 128·c + l`: its value is its
    own reduction mod 100000. -/
theorem word_at_flat (I3 : S32x26x128.Idx → BitVec 32) (hI : ∀ j, (I3 j).toNat < 100000) (w : Fin 32) (c : Fin 26) (l : Fin 128)
    (ρ : Nat) (h : ρ = 3328 * w.val + 128 * c.val + l.val) (p0 : ρ / 3328 < 32) (p1 : ρ % 3328 / 128 < 26) (p2 : ρ % 128 < 128) :
    (I3 (ix3 w c l)).toNat = (I3 (ix3 (n0 := 32) (n1 := 26) (n2 := 128) ⟨ρ / 3328, p0⟩ ⟨ρ % 3328 / 128, p1⟩ ⟨ρ % 128, p2⟩)).toNat % 100000 := by
  rw [Nat.mod_eq_of_lt (hI _)]
  refine congrArg (fun j => (I3 j).toNat) (funext fun b => Fin.ext ?_)
  have hw := w.isLt
  have hc := c.isLt
  have hl := l.isLt
  match b with
  | ⟨0, _⟩ => show w.val = ρ / 3328; omega
  | ⟨1, _⟩ => show c.val = ρ % 3328 / 128; omega
  | ⟨2, _⟩ => show l.val = ρ % 128; omega

/-! ## The chunk -/

/-- Chunk `r` of task `L`, as a rectangle of the gathered-rows array. -/
abbrev chunkRect (L : grid0.Coords) (r : Fin 26) : Rect S106496x128 :=
  Rect.unit (s := S106496x128) (k0_off2 L (BitVec.ofNat 32 (128 * r.val))) S128x128.size (k0_off2_inb L r)

/-- The chunk as the task names it is the rectangle's elements. -/
theorem chunk_set (L : grid0.Coords) (r : Fin 26) : (oChK L r).view.set = (chunkRect L r).set := by
  show ((View.whole (main_v3_scv : Ref sig .scVector)).slice (chunkRect L r)).set = _
  rw [View.set_slice]; exact Finset.map_refl

/-- An element of the chunk is the chunk's own index `(ρ − off, k)` embedded. -/
theorem chunk_emb (L : grid0.Coords) (r : Fin 26) (i : S106496x128.Idx) (hi : i ∈ (chunkRect L r).set) :
    ∃ y : S128x128.Idx, i = (oChK L r).view.emb y
      ∧ (i 0).val = 6656 * (L 1).val + 3328 * (L 0).val + 128 * r.val + (y 0).val ∧ (y 1).val = (i 1).val := by
  have hm := Rect.mem_set_unit.mp hi
  rw [k0_off2_eq] at hm
  have h0 : 6656 * (L 1).val + 3328 * (L 0).val + 128 * r.val ≤ (i 0).val
      ∧ (i 0).val < 6656 * (L 1).val + 3328 * (L 0).val + 128 * r.val + 128 := hm 0
  have h1 : 0 ≤ (i 1).val ∧ (i 1).val < 0 + 128 := hm 1
  refine ⟨ix2 (n0 := 128) (n1 := 128) ⟨(i 0).val - (6656 * (L 1).val + 3328 * (L 0).val + 128 * r.val), by omega⟩
    ⟨(i 1).val, by omega⟩, ?_, ?_, rfl⟩
  · funext a
    refine Fin.ext ?_
    show (i a).val = ((chunkRect L r).emb _ a : Nat)
    rw [Rect.emb_apply]
    show (i a).val = k0_off2 L (BitVec.ofNat 32 (128 * r.val)) a + 1 * _
    rw [k0_off2_eq]
    match a with
    | ⟨0, _⟩ =>
      show (i 0).val = 6656 * (L 1).val + 3328 * (L 0).val + 128 * r.val
        + 1 * ((i 0).val - (6656 * (L 1).val + 3328 * (L 0).val + 128 * r.val))
      omega
    | ⟨1, _⟩ => show (i 1).val = 0 + 1 * (i 1).val; omega
  · show (i 0).val = 6656 * (L 1).val + 3328 * (L 0).val + 128 * r.val
      + ((i 0).val - (6656 * (L 1).val + 3328 * (L 0).val + 128 * r.val))
    omega

theorem chunk_value (d : Dev nD) (L : grid0.Coords) (TB : Buf (Elt F) (tLoc d)) (I3 : Buf (Elt F) (iLoc d)) (O0 : Buf (Elt F) (oLoc d))
    (hI : ∀ j, (I3 j).toNat < 100000)
    (FI : Buf (Elt F) ((V d (cV L) (jV L)).loc cc0_scratch0)) (hFI : FI = (iSlabK L).view.read (Elt F) I3) (r : Fin 26)
    (hin : ∀ x, ((offK r).view.read (Elt F) FI x).toNat < S100000x128.size gathers_S100000x128_S128x128.axis)
    (G : S128x128.Idx → Elt F .f32)
    (hG : G = SparseCore.gatherPayload gathers_S100000x128_S128x128 ((tAllK).view.read (Elt F) TB) (SparseCore.rows ((offK r).view.read (Elt F) FI) rfl hin)) :
    ∀ i ∈ (oChK L r).view.set, (oChK L r).view.writes (Elt F) O0 [⟨Rect.whole S128x128, G⟩] i = outOf I3 TB i := by
  intro i hi
  rw [chunk_set] at hi
  obtain ⟨y, hiy, hy0, hy1⟩ := chunk_emb L r i hi
  have hL0 : (L 0).val < 2 := (L 0).isLt
  have hL1 : (L 1).val < 16 := (L 1).isLt
  have hr := r.isLt
  have hyl : (y 0).val < 128 := (y 0).isLt
  have hL : (oChK L r).view.writes (Elt F) O0 [⟨Rect.whole S128x128, G⟩] i = G y := by
    rw [hiy]
    have h := View.read_writes_cons_emb (oChK L r).view O0 (Rect.whole S128x128) G [] y
    rw [Rect.emb_whole_apply] at h
    exact h
  rw [hL, hG]
  unfold SparseCore.gatherPayload
  rw [read_tAllK]
  unfold Cert.Layout.outOf
  refine congrArg TB (funext fun a => Fin.ext ?_)
  match a with
  | ⟨0, _⟩ =>
    show ((gathers_S100000x128_S128x128.idx (SparseCore.rows ((offK r).view.read (Elt F) FI) rfl hin) y)
      gathers_S100000x128_S128x128.axis).val = _
    rw [Shape.Gathers.idx_axis]
    refine (rows_offK_val d L r FI hin _).trans ?_
    rw [hFI, read_iSlabK]
    have hρ : (i 0).val < 106496 := (i 0).isLt
    exact word_at_flat I3 hI ⟨2 * (L 1).val + (L 0).val, by omega⟩ r ⟨(y 0).val, hyl⟩ (i 0).val (by show _ = 3328 * (2 * (L 1).val + (L 0).val) + 128 * r.val + (y 0).val; omega)
      (by omega) (by omega) (by omega)
  | ⟨1, _⟩ =>
    refine (Shape.Gathers.idx_of_ne gathers_S100000x128_S128x128 _ y ⟨1, _⟩ Nat.one_ne_zero).trans ?_
    exact hy1

end Cert.Proof.KI

end
-- ==== Proof.LibWholeWrites.lean ====
/-
  A buffer overwritten whole.

  A buffer's contents after a list of writes are folded from the oldest write to the newest. When the newest
  write covers the whole buffer with a payload `w`, nothing older shows: the contents are `w`, and a load of the
  whole buffer reads `w` — whatever the buffer held before and whatever the older writes were.
-/
import Idealize.ShloMosaic.Lib.Exec

namespace Cert.Lib.WholeWrites

open Idealize.ShloMosaic

variable {sig : RefSig} {κ : Kind} (Val : EltTy → Type) (b : Ref sig κ)

/-- The newest write covers the whole buffer: the contents are its payload. -/
theorem writes_whole_cons (f w : b.ty.Contents Val) (L : List (View.Piece Val b.ty.shape b.ty.elt)) :
    (Memref.whole b).view.writes Val f (⟨Rect.whole _, w⟩ :: L) = w := by
  show ((Memref.whole b).view.slice (Rect.whole _)).write Val _ w Finset.univ = w
  exact Memref.write_access_whole_univ Val b _ w

/-- and a load of the whole buffer reads that payload. -/
theorem readCov_whole_cons [∀ e, Nonempty (Val e)] (w : b.ty.Contents Val) (L : List (View.Piece Val b.ty.shape b.ty.elt)) :
    (Memref.whole b).view.readCov (⟨Rect.whole _, w⟩ :: L) (LoadRect.whole _) = w := by
  unfold View.readCov
  rw [writes_whole_cons]
  exact Memref.readAt_whole Val b w

end Cert.Lib.WholeWrites
-- ==== Proof.KiBody.lean ====
/-
  The body of one task, run once at a symbolic vector subcore. The task fetches its slab of the re-laid index
  array into its index scratch; then, chunk after chunk, gathers the 128 table rows the chunk's index row names into
  one of four row buffers and copies the buffer out to the chunk's rows of the gathered-rows array — up to four
  gathers in flight, each on its buffer's own semaphore, each buffer's copy-out waited before the buffer is gathered
  into again. Every transfer is local to the tile and waited by it. What each chunk ends at is the lookup's whole-array
  function of the table and the re-laid index array (the per-chunk value lemma), so the twenty-six chunks come back
  at ONE function.
-/
import proofs.«206664_g71932112273502_cont_9to1_m_983_11_alg».proof.Proof.KiChunk
import proofs.«206664_g71932112273502_cont_9to1_m_983_11_alg».proof.Proof.LibWholeWrites

noncomputable section

namespace Cert.Proof.KI

open Cert.KernelIdeal Cert.KernelIdeal.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v2_scv : Memref Cert.KernelIdeal.sig Kind.scVector Space.hbm Cert.KernelIdeal.S32x26x128 EltTy.i32)
local notation "oV" => (Memref.whole Cert.KernelIdeal.main_v3_scv : Memref Cert.KernelIdeal.sig Kind.scVector Space.hbm Cert.KernelIdeal.S106496x128 EltTy.f32)
local notation "sI" => (Memref.whole Cert.KernelIdeal.cc0_scratch0 : Memref Cert.KernelIdeal.sig Kind.scVector Space.vmem Cert.KernelIdeal.S26x128 EltTy.i32)
local notation "bA" => (Memref.whole Cert.KernelIdeal.cc0_scratch1 : Memref Cert.KernelIdeal.sig Kind.scVector Space.vmem Cert.KernelIdeal.S128x128 EltTy.f32)
local notation "bB" => (Memref.whole Cert.KernelIdeal.cc0_scratch2 : Memref Cert.KernelIdeal.sig Kind.scVector Space.vmem Cert.KernelIdeal.S128x128 EltTy.f32)
local notation "bC" => (Memref.whole Cert.KernelIdeal.cc0_scratch3 : Memref Cert.KernelIdeal.sig Kind.scVector Space.vmem Cert.KernelIdeal.S128x128 EltTy.f32)
local notation "bD" => (Memref.whole Cert.KernelIdeal.cc0_scratch4 : Memref Cert.KernelIdeal.sig Kind.scVector Space.vmem Cert.KernelIdeal.S128x128 EltTy.f32)

theorem univ26 : (Finset.univ : Finset (Fin 26)) = {0, 1, 2, 3, 4, 5, 6, 7, 8, 9, 10, 11, 12, 13, 14, 15, 16, 17, 18, 19, 20, 21, 22, 23, 24, 25} := by decide

/-- A family over the twenty-six chunks, written out. -/
theorem bigSep_fin26 (Φ : Fin 26 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) := by
  rw [univ26, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The program's own spellings of the twenty-six offset lists and output chunks -/

abbrev offL0 : Memref sig .scVector .vmem S128 .i32 := ((sI).slice (Rect.unit (s := S26x128) ![0, 0] S1x128.size inb_S26x128_S1x128_0_0) (fun _ => rfl)).squeeze S128 squeezes_S1x128_S128
abbrev offL1 : Memref sig .scVector .vmem S128 .i32 := ((sI).slice (Rect.unit (s := S26x128) ![1, 0] S1x128.size inb_S26x128_S1x128_1_0) (fun _ => rfl)).squeeze S128 squeezes_S1x128_S128
abbrev offL2 : Memref sig .scVector .vmem S128 .i32 := ((sI).slice (Rect.unit (s := S26x128) ![2, 0] S1x128.size inb_S26x128_S1x128_2_0) (fun _ => rfl)).squeeze S128 squeezes_S1x128_S128
abbrev offL3 : Memref sig .scVector .vmem S128 .i32 := ((sI).slice (Rect.unit (s := S26x128) ![3, 0] S1x128.size inb_S26x128_S1x128_3_0) (fun _ => rfl)).squeeze S128 squeezes_S1x128_S128
abbrev offL4 : Memref sig .scVector .vmem S128 .i32 := ((sI).slice (Rect.unit (s := S26x128) ![4, 0] S1x128.size inb_S26x128_S1x128_4_0) (fun _ => rfl)).squeeze S128 squeezes_S1x128_S128
abbrev offL5 : Memref sig .scVector .vmem S128 .i32 := ((sI).slice (Rect.unit (s := S26x128) ![5, 0] S1x128.size inb_S26x128_S1x128_5_0) (fun _ => rfl)).squeeze S128 squeezes_S1x128_S128
abbrev offL6 : Memref sig .scVector .vmem S128 .i32 := ((sI).slice (Rect.unit (s := S26x128) ![6, 0] S1x128.size inb_S26x128_S1x128_6_0) (fun _ => rfl)).squeeze S128 squeezes_S1x128_S128
abbrev offL7 : Memref sig .scVector .vmem S128 .i32 := ((sI).slice (Rect.unit (s := S26x128) ![7, 0] S1x128.size inb_S26x128_S1x128_7_0) (fun _ => rfl)).squeeze S128 squeezes_S1x128_S128
abbrev offL8 : Memref sig .scVector .vmem S128 .i32 := ((sI).slice (Rect.unit (s := S26x128) ![8, 0] S1x128.size inb_S26x128_S1x128_8_0) (fun _ => rfl)).squeeze S128 squeezes_S1x128_S128
abbrev offL9 : Memref sig .scVector .vmem S128 .i32 := ((sI).slice (Rect.unit (s := S26x128) ![9, 0] S1x128.size inb_S26x128_S1x128_9_0) (fun _ => rfl)).squeeze S128 squeezes_S1x128_S128
abbrev offL10 : Memref sig .scVector .vmem S128 .i32 := ((sI).slice (Rect.unit (s := S26x128) ![10, 0] S1x128.size inb_S26x128_S1x128_10_0) (fun _ => rfl)).squeeze S128 squeezes_S1x128_S128
abbrev offL11 : Memref sig .scVector .vmem S128 .i32 := ((sI).slice (Rect.unit (s := S26x128) ![11, 0] S1x128.size inb_S26x128_S1x128_11_0) (fun _ => rfl)).squeeze S128 squeezes_S1x128_S128
abbrev offL12 : Memref sig .scVector .vmem S128 .i32 := ((sI).slice (Rect.unit (s := S26x128) ![12, 0] S1x128.size inb_S26x128_S1x128_12_0) (fun _ => rfl)).squeeze S128 squeezes_S1x128_S128
abbrev offL13 : Memref sig .scVector .vmem S128 .i32 := ((sI).slice (Rect.unit (s := S26x128) ![13, 0] S1x128.size inb_S26x128_S1x128_13_0) (fun _ => rfl)).squeeze S128 squeezes_S1x128_S128
abbrev offL14 : Memref sig .scVector .vmem S128 .i32 := ((sI).slice (Rect.unit (s := S26x128) ![14, 0] S1x128.size inb_S26x128_S1x128_14_0) (fun _ => rfl)).squeeze S128 squeezes_S1x128_S128
abbrev offL15 : Memref sig .scVector .vmem S128 .i32 := ((sI).slice (Rect.unit (s := S26x128) ![15, 0] S1x128.size inb_S26x128_S1x128_15_0) (fun _ => rfl)).squeeze S128 squeezes_S1x128_S128
abbrev offL16 : Memref sig .scVector .vmem S128 .i32 := ((sI).slice (Rect.unit (s := S26x128) ![16, 0] S1x128.size inb_S26x128_S1x128_16_0) (fun _ => rfl)).squeeze S128 squeezes_S1x128_S128
abbrev offL17 : Memref sig .scVector .vmem S128 .i32 := ((sI).slice (Rect.unit (s := S26x128) ![17, 0] S1x128.size inb_S26x128_S1x128_17_0) (fun _ => rfl)).squeeze S128 squeezes_S1x128_S128
abbrev offL18 : Memref sig .scVector .vmem S128 .i32 := ((sI).slice (Rect.unit (s := S26x128) ![18, 0] S1x128.size inb_S26x128_S1x128_18_0) (fun _ => rfl)).squeeze S128 squeezes_S1x128_S128
abbrev offL19 : Memref sig .scVector .vmem S128 .i32 := ((sI).slice (Rect.unit (s := S26x128) ![19, 0] S1x128.size inb_S26x128_S1x128_19_0) (fun _ => rfl)).squeeze S128 squeezes_S1x128_S128
abbrev offL20 : Memref sig .scVector .vmem S128 .i32 := ((sI).slice (Rect.unit (s := S26x128) ![20, 0] S1x128.size inb_S26x128_S1x128_20_0) (fun _ => rfl)).squeeze S128 squeezes_S1x128_S128
abbrev offL21 : Memref sig .scVector .vmem S128 .i32 := ((sI).slice (Rect.unit (s := S26x128) ![21, 0] S1x128.size inb_S26x128_S1x128_21_0) (fun _ => rfl)).squeeze S128 squeezes_S1x128_S128
abbrev offL22 : Memref sig .scVector .vmem S128 .i32 := ((sI).slice (Rect.unit (s := S26x128) ![22, 0] S1x128.size inb_S26x128_S1x128_22_0) (fun _ => rfl)).squeeze S128 squeezes_S1x128_S128
abbrev offL23 : Memref sig .scVector .vmem S128 .i32 := ((sI).slice (Rect.unit (s := S26x128) ![23, 0] S1x128.size inb_S26x128_S1x128_23_0) (fun _ => rfl)).squeeze S128 squeezes_S1x128_S128
abbrev offL24 : Memref sig .scVector .vmem S128 .i32 := ((sI).slice (Rect.unit (s := S26x128) ![24, 0] S1x128.size inb_S26x128_S1x128_24_0) (fun _ => rfl)).squeeze S128 squeezes_S1x128_S128
abbrev offL25 : Memref sig .scVector .vmem S128 .i32 := ((sI).slice (Rect.unit (s := S26x128) ![25, 0] S1x128.size inb_S26x128_S1x128_25_0) (fun _ => rfl)).squeeze S128 squeezes_S1x128_S128
abbrev oChL0 (L : grid0.Coords) : Memref sig .scVector .hbm S128x128 .f32 := (oV).slice (Rect.unit (s := S106496x128) (k0_off2 L 0#32) S128x128.size (k0_off2_inb L 0)) (fun _ => rfl)
abbrev oChL1 (L : grid0.Coords) : Memref sig .scVector .hbm S128x128 .f32 := (oV).slice (Rect.unit (s := S106496x128) (k0_off2 L 128#32) S128x128.size (k0_off2_inb L 1)) (fun _ => rfl)
abbrev oChL2 (L : grid0.Coords) : Memref sig .scVector .hbm S128x128 .f32 := (oV).slice (Rect.unit (s := S106496x128) (k0_off2 L 256#32) S128x128.size (k0_off2_inb L 2)) (fun _ => rfl)
abbrev oChL3 (L : grid0.Coords) : Memref sig .scVector .hbm S128x128 .f32 := (oV).slice (Rect.unit (s := S106496x128) (k0_off2 L 384#32) S128x128.size (k0_off2_inb L 3)) (fun _ => rfl)
abbrev oChL4 (L : grid0.Coords) : Memref sig .scVector .hbm S128x128 .f32 := (oV).slice (Rect.unit (s := S106496x128) (k0_off2 L 512#32) S128x128.size (k0_off2_inb L 4)) (fun _ => rfl)
abbrev oChL5 (L : grid0.Coords) : Memref sig .scVector .hbm S128x128 .f32 := (oV).slice (Rect.unit (s := S106496x128) (k0_off2 L 640#32) S128x128.size (k0_off2_inb L 5)) (fun _ => rfl)
abbrev oChL6 (L : grid0.Coords) : Memref sig .scVector .hbm S128x128 .f32 := (oV).slice (Rect.unit (s := S106496x128) (k0_off2 L 768#32) S128x128.size (k0_off2_inb L 6)) (fun _ => rfl)
abbrev oChL7 (L : grid0.Coords) : Memref sig .scVector .hbm S128x128 .f32 := (oV).slice (Rect.unit (s := S106496x128) (k0_off2 L 896#32) S128x128.size (k0_off2_inb L 7)) (fun _ => rfl)
abbrev oChL8 (L : grid0.Coords) : Memref sig .scVector .hbm S128x128 .f32 := (oV).slice (Rect.unit (s := S106496x128) (k0_off2 L 1024#32) S128x128.size (k0_off2_inb L 8)) (fun _ => rfl)
abbrev oChL9 (L : grid0.Coords) : Memref sig .scVector .hbm S128x128 .f32 := (oV).slice (Rect.unit (s := S106496x128) (k0_off2 L 1152#32) S128x128.size (k0_off2_inb L 9)) (fun _ => rfl)
abbrev oChL10 (L : grid0.Coords) : Memref sig .scVector .hbm S128x128 .f32 := (oV).slice (Rect.unit (s := S106496x128) (k0_off2 L 1280#32) S128x128.size (k0_off2_inb L 10)) (fun _ => rfl)
abbrev oChL11 (L : grid0.Coords) : Memref sig .scVector .hbm S128x128 .f32 := (oV).slice (Rect.unit (s := S106496x128) (k0_off2 L 1408#32) S128x128.size (k0_off2_inb L 11)) (fun _ => rfl)
abbrev oChL12 (L : grid0.Coords) : Memref sig .scVector .hbm S128x128 .f32 := (oV).slice (Rect.unit (s := S106496x128) (k0_off2 L 1536#32) S128x128.size (k0_off2_inb L 12)) (fun _ => rfl)
abbrev oChL13 (L : grid0.Coords) : Memref sig .scVector .hbm S128x128 .f32 := (oV).slice (Rect.unit (s := S106496x128) (k0_off2 L 1664#32) S128x128.size (k0_off2_inb L 13)) (fun _ => rfl)
abbrev oChL14 (L : grid0.Coords) : Memref sig .scVector .hbm S128x128 .f32 := (oV).slice (Rect.unit (s := S106496x128) (k0_off2 L 1792#32) S128x128.size (k0_off2_inb L 14)) (fun _ => rfl)
abbrev oChL15 (L : grid0.Coords) : Memref sig .scVector .hbm S128x128 .f32 := (oV).slice (Rect.unit (s := S106496x128) (k0_off2 L 1920#32) S128x128.size (k0_off2_inb L 15)) (fun _ => rfl)
abbrev oChL16 (L : grid0.Coords) : Memref sig .scVector .hbm S128x128 .f32 := (oV).slice (Rect.unit (s := S106496x128) (k0_off2 L 2048#32) S128x128.size (k0_off2_inb L 16)) (fun _ => rfl)
abbrev oChL17 (L : grid0.Coords) : Memref sig .scVector .hbm S128x128 .f32 := (oV).slice (Rect.unit (s := S106496x128) (k0_off2 L 2176#32) S128x128.size (k0_off2_inb L 17)) (fun _ => rfl)
abbrev oChL18 (L : grid0.Coords) : Memref sig .scVector .hbm S128x128 .f32 := (oV).slice (Rect.unit (s := S106496x128) (k0_off2 L 2304#32) S128x128.size (k0_off2_inb L 18)) (fun _ => rfl)
abbrev oChL19 (L : grid0.Coords) : Memref sig .scVector .hbm S128x128 .f32 := (oV).slice (Rect.unit (s := S106496x128) (k0_off2 L 2432#32) S128x128.size (k0_off2_inb L 19)) (fun _ => rfl)
abbrev oChL20 (L : grid0.Coords) : Memref sig .scVector .hbm S128x128 .f32 := (oV).slice (Rect.unit (s := S106496x128) (k0_off2 L 2560#32) S128x128.size (k0_off2_inb L 20)) (fun _ => rfl)
abbrev oChL21 (L : grid0.Coords) : Memref sig .scVector .hbm S128x128 .f32 := (oV).slice (Rect.unit (s := S106496x128) (k0_off2 L 2688#32) S128x128.size (k0_off2_inb L 21)) (fun _ => rfl)
abbrev oChL22 (L : grid0.Coords) : Memref sig .scVector .hbm S128x128 .f32 := (oV).slice (Rect.unit (s := S106496x128) (k0_off2 L 2816#32) S128x128.size (k0_off2_inb L 22)) (fun _ => rfl)
abbrev oChL23 (L : grid0.Coords) : Memref sig .scVector .hbm S128x128 .f32 := (oV).slice (Rect.unit (s := S106496x128) (k0_off2 L 2944#32) S128x128.size (k0_off2_inb L 23)) (fun _ => rfl)
abbrev oChL24 (L : grid0.Coords) : Memref sig .scVector .hbm S128x128 .f32 := (oV).slice (Rect.unit (s := S106496x128) (k0_off2 L 3072#32) S128x128.size (k0_off2_inb L 24)) (fun _ => rfl)
abbrev oChL25 (L : grid0.Coords) : Memref sig .scVector .hbm S128x128 .f32 := (oV).slice (Rect.unit (s := S106496x128) (k0_off2 L 3200#32) S128x128.size (k0_off2_inb L 25)) (fun _ => rfl)

/-- Row `r` of the index scratch, as a set of its elements: the rectangle's. -/
abbrev rowRect (r : Fin 26) : Rect S26x128 := Rect.unit (s := S26x128) ![r.val, 0] S1x128.size (offK_inb r)
abbrev rowSet (r : Fin 26) : Finset S26x128.Idx := ((sI).view.slice (rowRect r)).set

theorem rowSet_eq (r : Fin 26) : rowSet r = (rowRect r).set := by
  show ((View.whole (cc0_scratch0 : Ref sig .scVector)).slice (rowRect r)).set = _
  rw [View.set_slice]; exact Finset.map_refl

theorem set_offK (r : Fin 26) : (offK r).view.set = rowSet r := by
  show (((sI).view.slice (rowRect r)).reshape S128 squeezes_S1x128_S128.numel_eq).set = ((sI).view.slice (rowRect r)).set
  rw [View.set_reshape]

theorem rows_disjoint : ∀ r ∈ (Finset.univ : Finset (Fin 26)), ∀ r' ∈ (Finset.univ : Finset (Fin 26)), r ≠ r' → Disjoint (rowSet r) (rowSet r') := by
  intro r _ r' _ h
  rw [rowSet_eq, rowSet_eq]
  refine Rect.unit_disjoint 0 ?_
  have : r.val ≠ r'.val := fun e => h (Fin.ext e)
  show r.val + 1 ≤ r'.val ∨ r'.val + 1 ≤ r.val
  omega

theorem rows_cover : (Finset.univ : Finset (Fin 26)).biUnion rowSet = Finset.univ := by
  ext i
  simp only [Finset.mem_biUnion, Finset.mem_univ, true_and, iff_true]
  refine ⟨⟨(i 0).val, (i 0).isLt⟩, ?_⟩
  rw [rowSet_eq, Rect.mem_set_unit]
  intro a
  match a with
  | ⟨0, _⟩ => exact ⟨le_refl _, Nat.lt_succ_self _⟩
  | ⟨1, _⟩ => exact ⟨Nat.zero_le _, by have h : (i 1).val < 128 := (i 1).isLt; show (i 1).val < 0 + 128; omega⟩

/-- The index scratch whole is its twenty-six rows. -/
theorem sI_rows (d : Dev nD) (c : Fin τ.nSC) (i : Fin τ.nSub) (f : Buf (Elt F) ((V d c i).loc cc0_scratch0)) :
    ((V d c i).loc cc0_scratch0 ↦{fullShare} f : sProp 𝕄) = bigSep Finset.univ fun r : Fin 26 => (V d c i).loc cc0_scratch0 ↦[rowSet r]{fullShare} f := by
  rw [← pointsTo_biUnion Finset.univ (ℓ := (V d c i).loc cc0_scratch0) rowSet rows_disjoint, rows_cover]; try rfl

/-- The offsets gather `r` reads are in range: what the index fetch landed in the scratch is the task's slab of the
    re-laid index array, each word below 100000. -/
theorem inb_of_range (d : Dev nD) (L : grid0.Coords) (I3 : Buf (Elt F) (iLoc d)) (hI : ∀ j, (I3 j).toNat < 100000)
    (fs : Buf (Elt F) ((V d (cV L) (jV L)).loc cc0_scratch0)) (pay : S26x128.Idx → Elt F .i32)
    (hpay : pay = (iSlabK L).view.read (Elt F) I3) (r : Fin 26) :
    ∀ x, ((offK r).view.read (Elt F) (View.write (Elt F) (sI).view fs pay Finset.univ) x).toNat < S100000x128.size gathers_S100000x128_S128x128.axis := by
  subst hpay; intro x
  rw [View.write_whole_univ]
  rw [show ∀ (g : S26x128.Idx → Elt F .i32) y, (offK r).view.read (Elt F) g y = g ((offK r).view.emb y) from fun g y => (View.read_apply _ _).trans (cast_eq _ _)]
  rw [show ∀ j, (iSlabK L).view.read (Elt F) I3 j = I3 ((iSlabK L).view.emb j) from fun j => (View.read_apply _ _).trans (cast_eq _ _)]
  exact hI _

section Body

variable [FloatOps F] (d : Dev nD) (L : grid0.Coords)

/-- The task's slab of the re-laid index array, its share of the table, a chunk of its rows of the gathered-rows array. -/
abbrev iPc (I3 : Buf (Elt F) (iLoc d)) : sProp 𝕄 := iLoc d ↦[(iSlabK L).view.set]{fullShare} I3
abbrev tPc (q : PosShare TreeShare) (TB : Buf (Elt F) (tLoc d)) : sProp 𝕄 := tLoc d ↦{q} TB
abbrev oPc (r : Fin 26) (f : Buf (Elt F) (oLoc d)) : sProp 𝕄 := oLoc d ↦[(oChK L r).view.set]{fullShare} f

variable (TB : Buf (Elt F) (tLoc d)) (I3 : Buf (Elt F) (iLoc d)) (O0 : Buf (Elt F) (oLoc d))

set_option maxHeartbeats 4000000 in
set_option maxRecDepth 16384 in
theorem tile_body (hF : (K (F := F)).Facts) (q : PosShare TreeShare) (hI : ∀ j, (I3 j).toNat < 100000)
    (O : CellTallies nD τ sig (HIx 1)) (W : Waits sig (HIx 1)) (hO : ∀ g, O g none = 0) :
    iprop(levAts (K (F := F)).L (K (F := F)).lev ∗ emp
        ∗ (iPc d L I3 ∗ tPc d q TB ∗ bigSep Finset.univ fun r : Fin 26 => oPc d L r O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_body L tV (Memref.isWhole_whole _) iV (Memref.isWhole_whole _) oV (Memref.isWhole_whole _)
            sI (Memref.isWhole_whole _) bA (Memref.isWhole_whole _) bB (Memref.isWhole_whole _) bC (Memref.isWhole_whole _) bD (Memref.isWhole_whole _)
            cc0_scratch5 cc0_scratch6 cc0_scratch7 cc0_scratch8 cc0_scratch9 cc0_scratch10 cc0_scratch11 cc0_scratch12 cc0_scoped0)
          fun _ => iprop((iPc d L I3 ∗ tPc d q TB ∗ bigSep Finset.univ fun r : Fin 26 => oPc d L r (outOf I3 TB))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__emb_body_eq_skeleton]; unfold cc0__emb_body_skel
  rw [(K (F := F)).scopedBufs_V hF d (cV L) (jV L), SparseCore.Cfg.scopedSems0_V (Val := Elt F) d (cV L) (jV L), ownSems0_V, ownBufs_V, bigSep_fin26]
  iintro ⟨#Hlv, -, ⟨Hi, Ht, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25⟩, ⟨⟨%fI, HsI⟩, ⟨%fA, HbA⟩, ⟨%fB, HbB⟩, ⟨%fC, HbC⟩, ⟨%fD, HbD⟩, Hbufs⟩, ⟨Hs0, Hs1, Hs2, Hs3, Hs4, Hs5, Hs6, Hs7, Hs8, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (show (iPc d L I3 : sProp 𝕄)
      = (iSlabK L).view.loc (V d (cV L) (jV L)) ↦[(iSlabK L).view.set]{fullShare} I3 from rfl)) $$ Hi
  ihave Ht' := (Entails.of_eq (show (tPc d q TB : sProp 𝕄) = (tV).view.loc (V d (cV L) (jV L)) ↦{q} TB from rfl)) $$ Ht
  ihave HsI' := (Entails.of_eq (show ((V d (cV L) (jV L)).loc cc0_scratch0 ↦{fullShare} fI : sProp 𝕄) = (sI).view.loc (V d (cV L) (jV L)) ↦{fullShare} fI from rfl)) $$ HsI
  ihave HbA' := (Entails.of_eq (show ((V d (cV L) (jV L)).loc cc0_scratch1 ↦{fullShare} fA : sProp 𝕄) = (bA).view.loc (V d (cV L) (jV L)) ↦{fullShare} fA from rfl)) $$ HbA
  ihave HbB' := (Entails.of_eq (show ((V d (cV L) (jV L)).loc cc0_scratch2 ↦{fullShare} fB : sProp 𝕄) = (bB).view.loc (V d (cV L) (jV L)) ↦{fullShare} fB from rfl)) $$ HbB
  ihave HbC' := (Entails.of_eq (show ((V d (cV L) (jV L)).loc cc0_scratch3 ↦{fullShare} fC : sProp 𝕄) = (bC).view.loc (V d (cV L) (jV L)) ↦{fullShare} fC from rfl)) $$ HbC
  ihave HbD' := (Entails.of_eq (show ((V d (cV L) (jV L)).loc cc0_scratch4 ↦{fullShare} fD : sProp 𝕄) = (bD).view.loc (V d (cV L) (jV L)) ↦{fullShare} fD from rfl)) $$ HbD
  ihave Hc0' := (Entails.of_eq (show (oPc d L 0 O0 : sProp 𝕄) = (oChL0 L).view.loc (V d (cV L) (jV L)) ↦[(oChL0 L).view.set]{fullShare} O0 from rfl)) $$ Hc0
  ihave Hc1' := (Entails.of_eq (show (oPc d L 1 O0 : sProp 𝕄) = (oChL1 L).view.loc (V d (cV L) (jV L)) ↦[(oChL1 L).view.set]{fullShare} O0 from rfl)) $$ Hc1
  ihave Hc2' := (Entails.of_eq (show (oPc d L 2 O0 : sProp 𝕄) = (oChL2 L).view.loc (V d (cV L) (jV L)) ↦[(oChL2 L).view.set]{fullShare} O0 from rfl)) $$ Hc2
  ihave Hc3' := (Entails.of_eq (show (oPc d L 3 O0 : sProp 𝕄) = (oChL3 L).view.loc (V d (cV L) (jV L)) ↦[(oChL3 L).view.set]{fullShare} O0 from rfl)) $$ Hc3
  ihave Hc4' := (Entails.of_eq (show (oPc d L 4 O0 : sProp 𝕄) = (oChL4 L).view.loc (V d (cV L) (jV L)) ↦[(oChL4 L).view.set]{fullShare} O0 from rfl)) $$ Hc4
  ihave Hc5' := (Entails.of_eq (show (oPc d L 5 O0 : sProp 𝕄) = (oChL5 L).view.loc (V d (cV L) (jV L)) ↦[(oChL5 L).view.set]{fullShare} O0 from rfl)) $$ Hc5
  ihave Hc6' := (Entails.of_eq (show (oPc d L 6 O0 : sProp 𝕄) = (oChL6 L).view.loc (V d (cV L) (jV L)) ↦[(oChL6 L).view.set]{fullShare} O0 from rfl)) $$ Hc6
  ihave Hc7' := (Entails.of_eq (show (oPc d L 7 O0 : sProp 𝕄) = (oChL7 L).view.loc (V d (cV L) (jV L)) ↦[(oChL7 L).view.set]{fullShare} O0 from rfl)) $$ Hc7
  ihave Hc8' := (Entails.of_eq (show (oPc d L 8 O0 : sProp 𝕄) = (oChL8 L).view.loc (V d (cV L) (jV L)) ↦[(oChL8 L).view.set]{fullShare} O0 from rfl)) $$ Hc8
  ihave Hc9' := (Entails.of_eq (show (oPc d L 9 O0 : sProp 𝕄) = (oChL9 L).view.loc (V d (cV L) (jV L)) ↦[(oChL9 L).view.set]{fullShare} O0 from rfl)) $$ Hc9
  ihave Hc10' := (Entails.of_eq (show (oPc d L 10 O0 : sProp 𝕄) = (oChL10 L).view.loc (V d (cV L) (jV L)) ↦[(oChL10 L).view.set]{fullShare} O0 from rfl)) $$ Hc10
  ihave Hc11' := (Entails.of_eq (show (oPc d L 11 O0 : sProp 𝕄) = (oChL11 L).view.loc (V d (cV L) (jV L)) ↦[(oChL11 L).view.set]{fullShare} O0 from rfl)) $$ Hc11
  ihave Hc12' := (Entails.of_eq (show (oPc d L 12 O0 : sProp 𝕄) = (oChL12 L).view.loc (V d (cV L) (jV L)) ↦[(oChL12 L).view.set]{fullShare} O0 from rfl)) $$ Hc12
  ihave Hc13' := (Entails.of_eq (show (oPc d L 13 O0 : sProp 𝕄) = (oChL13 L).view.loc (V d (cV L) (jV L)) ↦[(oChL13 L).view.set]{fullShare} O0 from rfl)) $$ Hc13
  ihave Hc14' := (Entails.of_eq (show (oPc d L 14 O0 : sProp 𝕄) = (oChL14 L).view.loc (V d (cV L) (jV L)) ↦[(oChL14 L).view.set]{fullShare} O0 from rfl)) $$ Hc14
  ihave Hc15' := (Entails.of_eq (show (oPc d L 15 O0 : sProp 𝕄) = (oChL15 L).view.loc (V d (cV L) (jV L)) ↦[(oChL15 L).view.set]{fullShare} O0 from rfl)) $$ Hc15
  ihave Hc16' := (Entails.of_eq (show (oPc d L 16 O0 : sProp 𝕄) = (oChL16 L).view.loc (V d (cV L) (jV L)) ↦[(oChL16 L).view.set]{fullShare} O0 from rfl)) $$ Hc16
  ihave Hc17' := (Entails.of_eq (show (oPc d L 17 O0 : sProp 𝕄) = (oChL17 L).view.loc (V d (cV L) (jV L)) ↦[(oChL17 L).view.set]{fullShare} O0 from rfl)) $$ Hc17
  ihave Hc18' := (Entails.of_eq (show (oPc d L 18 O0 : sProp 𝕄) = (oChL18 L).view.loc (V d (cV L) (jV L)) ↦[(oChL18 L).view.set]{fullShare} O0 from rfl)) $$ Hc18
  ihave Hc19' := (Entails.of_eq (show (oPc d L 19 O0 : sProp 𝕄) = (oChL19 L).view.loc (V d (cV L) (jV L)) ↦[(oChL19 L).view.set]{fullShare} O0 from rfl)) $$ Hc19
  ihave Hc20' := (Entails.of_eq (show (oPc d L 20 O0 : sProp 𝕄) = (oChL20 L).view.loc (V d (cV L) (jV L)) ↦[(oChL20 L).view.set]{fullShare} O0 from rfl)) $$ Hc20
  ihave Hc21' := (Entails.of_eq (show (oPc d L 21 O0 : sProp 𝕄) = (oChL21 L).view.loc (V d (cV L) (jV L)) ↦[(oChL21 L).view.set]{fullShare} O0 from rfl)) $$ Hc21
  ihave Hc22' := (Entails.of_eq (show (oPc d L 22 O0 : sProp 𝕄) = (oChL22 L).view.loc (V d (cV L) (jV L)) ↦[(oChL22 L).view.set]{fullShare} O0 from rfl)) $$ Hc22
  ihave Hc23' := (Entails.of_eq (show (oPc d L 23 O0 : sProp 𝕄) = (oChL23 L).view.loc (V d (cV L) (jV L)) ↦[(oChL23 L).view.set]{fullShare} O0 from rfl)) $$ Hc23
  ihave Hc24' := (Entails.of_eq (show (oPc d L 24 O0 : sProp 𝕄) = (oChL24 L).view.loc (V d (cV L) (jV L)) ↦[(oChL24 L).view.set]{fullShare} O0 from rfl)) $$ Hc24
  ihave Hc25' := (Entails.of_eq (show (oPc d L 25 O0 : sProp 𝕄) = (oChL25 L).view.loc (V d (cV L) (jV L)) ↦[(oChL25 L).view.set]{fullShare} O0 from rfl)) $$ Hc25
  -- the table's share, in four: one for each row buffer's gather in flight
  ihave Ht2 := (pointsTo_share (PosShare.mem_left_op_right q)).1 $$ Ht'
  icases Ht2 with ⟨HtL, HtR⟩
  ihave HtL2 := (pointsTo_share (PosShare.mem_left_op_right q.left)).1 $$ HtL
  icases HtL2 with ⟨HtA, HtB⟩
  ihave HtR2 := (pointsTo_share (PosShare.mem_left_op_right q.right)).1 $$ HtR
  icases HtR2 with ⟨HtC, HtD⟩
  sl_exec
  -- the index scratch now holds the task's slab: its rows are the gathers' offset lists
  ihave Hrows := (Entails.of_eq ((sI_rows (F := F) d (cV L) (jV L) _).trans (bigSep_fin26 _))) $$ HsI'
  icases Hrows with ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25⟩
  ihave Hr0' := (Entails.of_eq (show ((V d (cV L) (jV L)).loc cc0_scratch0 ↦[rowSet 0]{fullShare} _ : sProp 𝕄) = (offL0).view.loc (V d (cV L) (jV L)) ↦[(offL0).view.set]{fullShare} _ from by rw [← set_offK 0]; rfl)) $$ Hr0
  ihave Hr1' := (Entails.of_eq (show ((V d (cV L) (jV L)).loc cc0_scratch0 ↦[rowSet 1]{fullShare} _ : sProp 𝕄) = (offL1).view.loc (V d (cV L) (jV L)) ↦[(offL1).view.set]{fullShare} _ from by rw [← set_offK 1]; rfl)) $$ Hr1
  ihave Hr2' := (Entails.of_eq (show ((V d (cV L) (jV L)).loc cc0_scratch0 ↦[rowSet 2]{fullShare} _ : sProp 𝕄) = (offL2).view.loc (V d (cV L) (jV L)) ↦[(offL2).view.set]{fullShare} _ from by rw [← set_offK 2]; rfl)) $$ Hr2
  ihave Hr3' := (Entails.of_eq (show ((V d (cV L) (jV L)).loc cc0_scratch0 ↦[rowSet 3]{fullShare} _ : sProp 𝕄) = (offL3).view.loc (V d (cV L) (jV L)) ↦[(offL3).view.set]{fullShare} _ from by rw [← set_offK 3]; rfl)) $$ Hr3
  ihave Hr4' := (Entails.of_eq (show ((V d (cV L) (jV L)).loc cc0_scratch0 ↦[rowSet 4]{fullShare} _ : sProp 𝕄) = (offL4).view.loc (V d (cV L) (jV L)) ↦[(offL4).view.set]{fullShare} _ from by rw [← set_offK 4]; rfl)) $$ Hr4
  ihave Hr5' := (Entails.of_eq (show ((V d (cV L) (jV L)).loc cc0_scratch0 ↦[rowSet 5]{fullShare} _ : sProp 𝕄) = (offL5).view.loc (V d (cV L) (jV L)) ↦[(offL5).view.set]{fullShare} _ from by rw [← set_offK 5]; rfl)) $$ Hr5
  ihave Hr6' := (Entails.of_eq (show ((V d (cV L) (jV L)).loc cc0_scratch0 ↦[rowSet 6]{fullShare} _ : sProp 𝕄) = (offL6).view.loc (V d (cV L) (jV L)) ↦[(offL6).view.set]{fullShare} _ from by rw [← set_offK 6]; rfl)) $$ Hr6
  ihave Hr7' := (Entails.of_eq (show ((V d (cV L) (jV L)).loc cc0_scratch0 ↦[rowSet 7]{fullShare} _ : sProp 𝕄) = (offL7).view.loc (V d (cV L) (jV L)) ↦[(offL7).view.set]{fullShare} _ from by rw [← set_offK 7]; rfl)) $$ Hr7
  ihave Hr8' := (Entails.of_eq (show ((V d (cV L) (jV L)).loc cc0_scratch0 ↦[rowSet 8]{fullShare} _ : sProp 𝕄) = (offL8).view.loc (V d (cV L) (jV L)) ↦[(offL8).view.set]{fullShare} _ from by rw [← set_offK 8]; rfl)) $$ Hr8
  ihave Hr9' := (Entails.of_eq (show ((V d (cV L) (jV L)).loc cc0_scratch0 ↦[rowSet 9]{fullShare} _ : sProp 𝕄) = (offL9).view.loc (V d (cV L) (jV L)) ↦[(offL9).view.set]{fullShare} _ from by rw [← set_offK 9]; rfl)) $$ Hr9
  ihave Hr10' := (Entails.of_eq (show ((V d (cV L) (jV L)).loc cc0_scratch0 ↦[rowSet 10]{fullShare} _ : sProp 𝕄) = (offL10).view.loc (V d (cV L) (jV L)) ↦[(offL10).view.set]{fullShare} _ from by rw [← set_offK 10]; rfl)) $$ Hr10
  ihave Hr11' := (Entails.of_eq (show ((V d (cV L) (jV L)).loc cc0_scratch0 ↦[rowSet 11]{fullShare} _ : sProp 𝕄) = (offL11).view.loc (V d (cV L) (jV L)) ↦[(offL11).view.set]{fullShare} _ from by rw [← set_offK 11]; rfl)) $$ Hr11
  ihave Hr12' := (Entails.of_eq (show ((V d (cV L) (jV L)).loc cc0_scratch0 ↦[rowSet 12]{fullShare} _ : sProp 𝕄) = (offL12).view.loc (V d (cV L) (jV L)) ↦[(offL12).view.set]{fullShare} _ from by rw [← set_offK 12]; rfl)) $$ Hr12
  ihave Hr13' := (Entails.of_eq (show ((V d (cV L) (jV L)).loc cc0_scratch0 ↦[rowSet 13]{fullShare} _ : sProp 𝕄) = (offL13).view.loc (V d (cV L) (jV L)) ↦[(offL13).view.set]{fullShare} _ from by rw [← set_offK 13]; rfl)) $$ Hr13
  ihave Hr14' := (Entails.of_eq (show ((V d (cV L) (jV L)).loc cc0_scratch0 ↦[rowSet 14]{fullShare} _ : sProp 𝕄) = (offL14).view.loc (V d (cV L) (jV L)) ↦[(offL14).view.set]{fullShare} _ from by rw [← set_offK 14]; rfl)) $$ Hr14
  ihave Hr15' := (Entails.of_eq (show ((V d (cV L) (jV L)).loc cc0_scratch0 ↦[rowSet 15]{fullShare} _ : sProp 𝕄) = (offL15).view.loc (V d (cV L) (jV L)) ↦[(offL15).view.set]{fullShare} _ from by rw [← set_offK 15]; rfl)) $$ Hr15
  ihave Hr16' := (Entails.of_eq (show ((V d (cV L) (jV L)).loc cc0_scratch0 ↦[rowSet 16]{fullShare} _ : sProp 𝕄) = (offL16).view.loc (V d (cV L) (jV L)) ↦[(offL16).view.set]{fullShare} _ from by rw [← set_offK 16]; rfl)) $$ Hr16
  ihave Hr17' := (Entails.of_eq (show ((V d (cV L) (jV L)).loc cc0_scratch0 ↦[rowSet 17]{fullShare} _ : sProp 𝕄) = (offL17).view.loc (V d (cV L) (jV L)) ↦[(offL17).view.set]{fullShare} _ from by rw [← set_offK 17]; rfl)) $$ Hr17
  ihave Hr18' := (Entails.of_eq (show ((V d (cV L) (jV L)).loc cc0_scratch0 ↦[rowSet 18]{fullShare} _ : sProp 𝕄) = (offL18).view.loc (V d (cV L) (jV L)) ↦[(offL18).view.set]{fullShare} _ from by rw [← set_offK 18]; rfl)) $$ Hr18
  ihave Hr19' := (Entails.of_eq (show ((V d (cV L) (jV L)).loc cc0_scratch0 ↦[rowSet 19]{fullShare} _ : sProp 𝕄) = (offL19).view.loc (V d (cV L) (jV L)) ↦[(offL19).view.set]{fullShare} _ from by rw [← set_offK 19]; rfl)) $$ Hr19
  ihave Hr20' := (Entails.of_eq (show ((V d (cV L) (jV L)).loc cc0_scratch0 ↦[rowSet 20]{fullShare} _ : sProp 𝕄) = (offL20).view.loc (V d (cV L) (jV L)) ↦[(offL20).view.set]{fullShare} _ from by rw [← set_offK 20]; rfl)) $$ Hr20
  ihave Hr21' := (Entails.of_eq (show ((V d (cV L) (jV L)).loc cc0_scratch0 ↦[rowSet 21]{fullShare} _ : sProp 𝕄) = (offL21).view.loc (V d (cV L) (jV L)) ↦[(offL21).view.set]{fullShare} _ from by rw [← set_offK 21]; rfl)) $$ Hr21
  ihave Hr22' := (Entails.of_eq (show ((V d (cV L) (jV L)).loc cc0_scratch0 ↦[rowSet 22]{fullShare} _ : sProp 𝕄) = (offL22).view.loc (V d (cV L) (jV L)) ↦[(offL22).view.set]{fullShare} _ from by rw [← set_offK 22]; rfl)) $$ Hr22
  ihave Hr23' := (Entails.of_eq (show ((V d (cV L) (jV L)).loc cc0_scratch0 ↦[rowSet 23]{fullShare} _ : sProp 𝕄) = (offL23).view.loc (V d (cV L) (jV L)) ↦[(offL23).view.set]{fullShare} _ from by rw [← set_offK 23]; rfl)) $$ Hr23
  ihave Hr24' := (Entails.of_eq (show ((V d (cV L) (jV L)).loc cc0_scratch0 ↦[rowSet 24]{fullShare} _ : sProp 𝕄) = (offL24).view.loc (V d (cV L) (jV L)) ↦[(offL24).view.set]{fullShare} _ from by rw [← set_offK 24]; rfl)) $$ Hr24
  ihave Hr25' := (Entails.of_eq (show ((V d (cV L) (jV L)).loc cc0_scratch0 ↦[rowSet 25]{fullShare} _ : sProp 𝕄) = (offL25).view.loc (V d (cV L) (jV L)) ↦[(offL25).view.set]{fullShare} _ from by rw [← set_offK 25]; rfl)) $$ Hr25
  have hin0 := inb_of_range d L I3 hI fI (tile_body.sl.dma0 d L I3) rfl 0
  have hin1 := inb_of_range d L I3 hI fI (tile_body.sl.dma0 d L I3) rfl 1
  have hin2 := inb_of_range d L I3 hI fI (tile_body.sl.dma0 d L I3) rfl 2
  have hin3 := inb_of_range d L I3 hI fI (tile_body.sl.dma0 d L I3) rfl 3
  have hin4 := inb_of_range d L I3 hI fI (tile_body.sl.dma0 d L I3) rfl 4
  have hin5 := inb_of_range d L I3 hI fI (tile_body.sl.dma0 d L I3) rfl 5
  have hin6 := inb_of_range d L I3 hI fI (tile_body.sl.dma0 d L I3) rfl 6
  have hin7 := inb_of_range d L I3 hI fI (tile_body.sl.dma0 d L I3) rfl 7
  have hin8 := inb_of_range d L I3 hI fI (tile_body.sl.dma0 d L I3) rfl 8
  have hin9 := inb_of_range d L I3 hI fI (tile_body.sl.dma0 d L I3) rfl 9
  have hin10 := inb_of_range d L I3 hI fI (tile_body.sl.dma0 d L I3) rfl 10
  have hin11 := inb_of_range d L I3 hI fI (tile_body.sl.dma0 d L I3) rfl 11
  have hin12 := inb_of_range d L I3 hI fI (tile_body.sl.dma0 d L I3) rfl 12
  have hin13 := inb_of_range d L I3 hI fI (tile_body.sl.dma0 d L I3) rfl 13
  have hin14 := inb_of_range d L I3 hI fI (tile_body.sl.dma0 d L I3) rfl 14
  have hin15 := inb_of_range d L I3 hI fI (tile_body.sl.dma0 d L I3) rfl 15
  have hin16 := inb_of_range d L I3 hI fI (tile_body.sl.dma0 d L I3) rfl 16
  have hin17 := inb_of_range d L I3 hI fI (tile_body.sl.dma0 d L I3) rfl 17
  have hin18 := inb_of_range d L I3 hI fI (tile_body.sl.dma0 d L I3) rfl 18
  have hin19 := inb_of_range d L I3 hI fI (tile_body.sl.dma0 d L I3) rfl 19
  have hin20 := inb_of_range d L I3 hI fI (tile_body.sl.dma0 d L I3) rfl 20
  have hin21 := inb_of_range d L I3 hI fI (tile_body.sl.dma0 d L I3) rfl 21
  have hin22 := inb_of_range d L I3 hI fI (tile_body.sl.dma0 d L I3) rfl 22
  have hin23 := inb_of_range d L I3 hI fI (tile_body.sl.dma0 d L I3) rfl 23
  have hin24 := inb_of_range d L I3 hI fI (tile_body.sl.dma0 d L I3) rfl 24
  have hin25 := inb_of_range d L I3 hI fI (tile_body.sl.dma0 d L I3) rfl 25
  sl_exec
  sl_step
  -- what the index scratch holds is the task's slab
  have hFI : ((View.write (Elt F) (sI).view fI (tile_body.sl.dma0 d L I3) Finset.univ) : Buf (Elt F) ((V d (cV L) (jV L)).loc cc0_scratch0)) = (iSlabK L).view.read (Elt F) I3 :=
    View.write_whole_univ (cc0_scratch0 : Ref sig .scVector) fI _
  -- each chunk holds its rows of the lookup: the buffer copied out held the gather's payload
  have hG0 : tile_body.sl.dma0_1 d L TB I3 fI fA hin0
      = SparseCore.gatherPayload gathers_S100000x128_S128x128 ((tAllK).view.read (Elt F) TB) (SparseCore.rows ((offK 0).view.read (Elt F) (View.write (Elt F) (sI).view fI (tile_body.sl.dma0 d L I3) Finset.univ)) rfl hin0) := by
    delta tile_body.sl.dma0_1; dsimp only
    rw [Cert.Lib.WholeWrites.writes_whole_cons]; rfl
  ihave Hd0 := (Entails.of_eq (show ((oChL0 L).view.loc (V d (cV L) (jV L)) ↦[(oChL0 L).view.set]{fullShare} _ : sProp 𝕄) = oPc d L 0 (outOf I3 TB) from
      pointsTo_congr (ℓ := oLoc d) (q := fullShare) (chunk_value d L TB I3 O0 hI _ hFI 0 hin0 _ hG0))) $$ Hc0'
  have hG1 : tile_body.sl.dma0_2 d L TB I3 fI fB hin1
      = SparseCore.gatherPayload gathers_S100000x128_S128x128 ((tAllK).view.read (Elt F) TB) (SparseCore.rows ((offK 1).view.read (Elt F) (View.write (Elt F) (sI).view fI (tile_body.sl.dma0 d L I3) Finset.univ)) rfl hin1) := by
    delta tile_body.sl.dma0_2; dsimp only
    rw [Cert.Lib.WholeWrites.writes_whole_cons]; rfl
  ihave Hd1 := (Entails.of_eq (show ((oChL1 L).view.loc (V d (cV L) (jV L)) ↦[(oChL1 L).view.set]{fullShare} _ : sProp 𝕄) = oPc d L 1 (outOf I3 TB) from
      pointsTo_congr (ℓ := oLoc d) (q := fullShare) (chunk_value d L TB I3 O0 hI _ hFI 1 hin1 _ hG1))) $$ Hc1'
  have hG2 : tile_body.sl.dma0_3 d L TB I3 fI fC hin2
      = SparseCore.gatherPayload gathers_S100000x128_S128x128 ((tAllK).view.read (Elt F) TB) (SparseCore.rows ((offK 2).view.read (Elt F) (View.write (Elt F) (sI).view fI (tile_body.sl.dma0 d L I3) Finset.univ)) rfl hin2) := by
    delta tile_body.sl.dma0_3; dsimp only
    rw [Cert.Lib.WholeWrites.writes_whole_cons]; rfl
  ihave Hd2 := (Entails.of_eq (show ((oChL2 L).view.loc (V d (cV L) (jV L)) ↦[(oChL2 L).view.set]{fullShare} _ : sProp 𝕄) = oPc d L 2 (outOf I3 TB) from
      pointsTo_congr (ℓ := oLoc d) (q := fullShare) (chunk_value d L TB I3 O0 hI _ hFI 2 hin2 _ hG2))) $$ Hc2'
  have hG3 : tile_body.sl.dma0_4 d L TB I3 fI fD hin3
      = SparseCore.gatherPayload gathers_S100000x128_S128x128 ((tAllK).view.read (Elt F) TB) (SparseCore.rows ((offK 3).view.read (Elt F) (View.write (Elt F) (sI).view fI (tile_body.sl.dma0 d L I3) Finset.univ)) rfl hin3) := by
    delta tile_body.sl.dma0_4; dsimp only
    rw [Cert.Lib.WholeWrites.writes_whole_cons]; rfl
  ihave Hd3 := (Entails.of_eq (show ((oChL3 L).view.loc (V d (cV L) (jV L)) ↦[(oChL3 L).view.set]{fullShare} _ : sProp 𝕄) = oPc d L 3 (outOf I3 TB) from
      pointsTo_congr (ℓ := oLoc d) (q := fullShare) (chunk_value d L TB I3 O0 hI _ hFI 3 hin3 _ hG3))) $$ Hc3'
  have hG4 : tile_body.sl.dma0_5 d L TB I3 fI fA hin0 hin4
      = SparseCore.gatherPayload gathers_S100000x128_S128x128 ((tAllK).view.read (Elt F) TB) (SparseCore.rows ((offK 4).view.read (Elt F) (View.write (Elt F) (sI).view fI (tile_body.sl.dma0 d L I3) Finset.univ)) rfl hin4) := by
    delta tile_body.sl.dma0_5; dsimp only
    rw [Cert.Lib.WholeWrites.writes_whole_cons]; rfl
  ihave Hd4 := (Entails.of_eq (show ((oChL4 L).view.loc (V d (cV L) (jV L)) ↦[(oChL4 L).view.set]{fullShare} _ : sProp 𝕄) = oPc d L 4 (outOf I3 TB) from
      pointsTo_congr (ℓ := oLoc d) (q := fullShare) (chunk_value d L TB I3 O0 hI _ hFI 4 hin4 _ hG4))) $$ Hc4'
  have hG5 : tile_body.sl.dma0_6 d L TB I3 fI fB hin1 hin5
      = SparseCore.gatherPayload gathers_S100000x128_S128x128 ((tAllK).view.read (Elt F) TB) (SparseCore.rows ((offK 5).view.read (Elt F) (View.write (Elt F) (sI).view fI (tile_body.sl.dma0 d L I3) Finset.univ)) rfl hin5) := by
    delta tile_body.sl.dma0_6; dsimp only
    rw [Cert.Lib.WholeWrites.writes_whole_cons]; rfl
  ihave Hd5 := (Entails.of_eq (show ((oChL5 L).view.loc (V d (cV L) (jV L)) ↦[(oChL5 L).view.set]{fullShare} _ : sProp 𝕄) = oPc d L 5 (outOf I3 TB) from
      pointsTo_congr (ℓ := oLoc d) (q := fullShare) (chunk_value d L TB I3 O0 hI _ hFI 5 hin5 _ hG5))) $$ Hc5'
  have hG6 : tile_body.sl.dma0_7 d L TB I3 fI fC hin2 hin6
      = SparseCore.gatherPayload gathers_S100000x128_S128x128 ((tAllK).view.read (Elt F) TB) (SparseCore.rows ((offK 6).view.read (Elt F) (View.write (Elt F) (sI).view fI (tile_body.sl.dma0 d L I3) Finset.univ)) rfl hin6) := by
    delta tile_body.sl.dma0_7; dsimp only
    rw [Cert.Lib.WholeWrites.writes_whole_cons]; rfl
  ihave Hd6 := (Entails.of_eq (show ((oChL6 L).view.loc (V d (cV L) (jV L)) ↦[(oChL6 L).view.set]{fullShare} _ : sProp 𝕄) = oPc d L 6 (outOf I3 TB) from
      pointsTo_congr (ℓ := oLoc d) (q := fullShare) (chunk_value d L TB I3 O0 hI _ hFI 6 hin6 _ hG6))) $$ Hc6'
  have hG7 : tile_body.sl.dma0_8 d L TB I3 fI fD hin3 hin7
      = SparseCore.gatherPayload gathers_S100000x128_S128x128 ((tAllK).view.read (Elt F) TB) (SparseCore.rows ((offK 7).view.read (Elt F) (View.write (Elt F) (sI).view fI (tile_body.sl.dma0 d L I3) Finset.univ)) rfl hin7) := by
    delta tile_body.sl.dma0_8; dsimp only
    rw [Cert.Lib.WholeWrites.writes_whole_cons]; rfl
  ihave Hd7 := (Entails.of_eq (show ((oChL7 L).view.loc (V d (cV L) (jV L)) ↦[(oChL7 L).view.set]{fullShare} _ : sProp 𝕄) = oPc d L 7 (outOf I3 TB) from
      pointsTo_congr (ℓ := oLoc d) (q := fullShare) (chunk_value d L TB I3 O0 hI _ hFI 7 hin7 _ hG7))) $$ Hc7'
  have hG8 : tile_body.sl.dma0_9 d L TB I3 fI fA hin0 hin4 hin8
      = SparseCore.gatherPayload gathers_S100000x128_S128x128 ((tAllK).view.read (Elt F) TB) (SparseCore.rows ((offK 8).view.read (Elt F) (View.write (Elt F) (sI).view fI (tile_body.sl.dma0 d L I3) Finset.univ)) rfl hin8) := by
    delta tile_body.sl.dma0_9; dsimp only
    rw [Cert.Lib.WholeWrites.writes_whole_cons]; rfl
  ihave Hd8 := (Entails.of_eq (show ((oChL8 L).view.loc (V d (cV L) (jV L)) ↦[(oChL8 L).view.set]{fullShare} _ : sProp 𝕄) = oPc d L 8 (outOf I3 TB) from
      pointsTo_congr (ℓ := oLoc d) (q := fullShare) (chunk_value d L TB I3 O0 hI _ hFI 8 hin8 _ hG8))) $$ Hc8'
  have hG9 : tile_body.sl.dma0_10 d L TB I3 fI fB hin1 hin5 hin9
      = SparseCore.gatherPayload gathers_S100000x128_S128x128 ((tAllK).view.read (Elt F) TB) (SparseCore.rows ((offK 9).view.read (Elt F) (View.write (Elt F) (sI).view fI (tile_body.sl.dma0 d L I3) Finset.univ)) rfl hin9) := by
    delta tile_body.sl.dma0_10; dsimp only
    rw [Cert.Lib.WholeWrites.writes_whole_cons]; rfl
  ihave Hd9 := (Entails.of_eq (show ((oChL9 L).view.loc (V d (cV L) (jV L)) ↦[(oChL9 L).view.set]{fullShare} _ : sProp 𝕄) = oPc d L 9 (outOf I3 TB) from
      pointsTo_congr (ℓ := oLoc d) (q := fullShare) (chunk_value d L TB I3 O0 hI _ hFI 9 hin9 _ hG9))) $$ Hc9'
  have hG10 : tile_body.sl.dma0_11 d L TB I3 fI fC hin2 hin6 hin10
      = SparseCore.gatherPayload gathers_S100000x128_S128x128 ((tAllK).view.read (Elt F) TB) (SparseCore.rows ((offK 10).view.read (Elt F) (View.write (Elt F) (sI).view fI (tile_body.sl.dma0 d L I3) Finset.univ)) rfl hin10) := by
    delta tile_body.sl.dma0_11; dsimp only
    rw [Cert.Lib.WholeWrites.writes_whole_cons]; rfl
  ihave Hd10 := (Entails.of_eq (show ((oChL10 L).view.loc (V d (cV L) (jV L)) ↦[(oChL10 L).view.set]{fullShare} _ : sProp 𝕄) = oPc d L 10 (outOf I3 TB) from
      pointsTo_congr (ℓ := oLoc d) (q := fullShare) (chunk_value d L TB I3 O0 hI _ hFI 10 hin10 _ hG10))) $$ Hc10'
  have hG11 : tile_body.sl.dma0_12 d L TB I3 fI fD hin3 hin7 hin11
      = SparseCore.gatherPayload gathers_S100000x128_S128x128 ((tAllK).view.read (Elt F) TB) (SparseCore.rows ((offK 11).view.read (Elt F) (View.write (Elt F) (sI).view fI (tile_body.sl.dma0 d L I3) Finset.univ)) rfl hin11) := by
    delta tile_body.sl.dma0_12; dsimp only
    rw [Cert.Lib.WholeWrites.writes_whole_cons]; rfl
  ihave Hd11 := (Entails.of_eq (show ((oChL11 L).view.loc (V d (cV L) (jV L)) ↦[(oChL11 L).view.set]{fullShare} _ : sProp 𝕄) = oPc d L 11 (outOf I3 TB) from
      pointsTo_congr (ℓ := oLoc d) (q := fullShare) (chunk_value d L TB I3 O0 hI _ hFI 11 hin11 _ hG11))) $$ Hc11'
  have hG12 : tile_body.sl.dma0_13 d L TB I3 fI fA hin0 hin4 hin8 hin12
      = SparseCore.gatherPayload gathers_S100000x128_S128x128 ((tAllK).view.read (Elt F) TB) (SparseCore.rows ((offK 12).view.read (Elt F) (View.write (Elt F) (sI).view fI (tile_body.sl.dma0 d L I3) Finset.univ)) rfl hin12) := by
    delta tile_body.sl.dma0_13; dsimp only
    rw [Cert.Lib.WholeWrites.writes_whole_cons]; rfl
  ihave Hd12 := (Entails.of_eq (show ((oChL12 L).view.loc (V d (cV L) (jV L)) ↦[(oChL12 L).view.set]{fullShare} _ : sProp 𝕄) = oPc d L 12 (outOf I3 TB) from
      pointsTo_congr (ℓ := oLoc d) (q := fullShare) (chunk_value d L TB I3 O0 hI _ hFI 12 hin12 _ hG12))) $$ Hc12'
  have hG13 : tile_body.sl.dma0_14 d L TB I3 fI fB hin1 hin5 hin9 hin13
      = SparseCore.gatherPayload gathers_S100000x128_S128x128 ((tAllK).view.read (Elt F) TB) (SparseCore.rows ((offK 13).view.read (Elt F) (View.write (Elt F) (sI).view fI (tile_body.sl.dma0 d L I3) Finset.univ)) rfl hin13) := by
    delta tile_body.sl.dma0_14; dsimp only
    rw [Cert.Lib.WholeWrites.writes_whole_cons]; rfl
  ihave Hd13 := (Entails.of_eq (show ((oChL13 L).view.loc (V d (cV L) (jV L)) ↦[(oChL13 L).view.set]{fullShare} _ : sProp 𝕄) = oPc d L 13 (outOf I3 TB) from
      pointsTo_congr (ℓ := oLoc d) (q := fullShare) (chunk_value d L TB I3 O0 hI _ hFI 13 hin13 _ hG13))) $$ Hc13'
  have hG14 : tile_body.sl.dma0_15 d L TB I3 fI fC hin2 hin6 hin10 hin14
      = SparseCore.gatherPayload gathers_S100000x128_S128x128 ((tAllK).view.read (Elt F) TB) (SparseCore.rows ((offK 14).view.read (Elt F) (View.write (Elt F) (sI).view fI (tile_body.sl.dma0 d L I3) Finset.univ)) rfl hin14) := by
    delta tile_body.sl.dma0_15; dsimp only
    rw [Cert.Lib.WholeWrites.writes_whole_cons]; rfl
  ihave Hd14 := (Entails.of_eq (show ((oChL14 L).view.loc (V d (cV L) (jV L)) ↦[(oChL14 L).view.set]{fullShare} _ : sProp 𝕄) = oPc d L 14 (outOf I3 TB) from
      pointsTo_congr (ℓ := oLoc d) (q := fullShare) (chunk_value d L TB I3 O0 hI _ hFI 14 hin14 _ hG14))) $$ Hc14'
  have hG15 : tile_body.sl.dma0_16 d L TB I3 fI fD hin3 hin7 hin11 hin15
      = SparseCore.gatherPayload gathers_S100000x128_S128x128 ((tAllK).view.read (Elt F) TB) (SparseCore.rows ((offK 15).view.read (Elt F) (View.write (Elt F) (sI).view fI (tile_body.sl.dma0 d L I3) Finset.univ)) rfl hin15) := by
    delta tile_body.sl.dma0_16; dsimp only
    rw [Cert.Lib.WholeWrites.writes_whole_cons]; rfl
  ihave Hd15 := (Entails.of_eq (show ((oChL15 L).view.loc (V d (cV L) (jV L)) ↦[(oChL15 L).view.set]{fullShare} _ : sProp 𝕄) = oPc d L 15 (outOf I3 TB) from
      pointsTo_congr (ℓ := oLoc d) (q := fullShare) (chunk_value d L TB I3 O0 hI _ hFI 15 hin15 _ hG15))) $$ Hc15'
  have hG16 : tile_body.sl.dma0_17 d L TB I3 fI fA hin0 hin4 hin8 hin12 hin16
      = SparseCore.gatherPayload gathers_S100000x128_S128x128 ((tAllK).view.read (Elt F) TB) (SparseCore.rows ((offK 16).view.read (Elt F) (View.write (Elt F) (sI).view fI (tile_body.sl.dma0 d L I3) Finset.univ)) rfl hin16) := by
    delta tile_body.sl.dma0_17; dsimp only
    rw [Cert.Lib.WholeWrites.writes_whole_cons]; rfl
  ihave Hd16 := (Entails.of_eq (show ((oChL16 L).view.loc (V d (cV L) (jV L)) ↦[(oChL16 L).view.set]{fullShare} _ : sProp 𝕄) = oPc d L 16 (outOf I3 TB) from
      pointsTo_congr (ℓ := oLoc d) (q := fullShare) (chunk_value d L TB I3 O0 hI _ hFI 16 hin16 _ hG16))) $$ Hc16'
  have hG17 : tile_body.sl.dma0_18 d L TB I3 fI fB hin1 hin5 hin9 hin13 hin17
      = SparseCore.gatherPayload gathers_S100000x128_S128x128 ((tAllK).view.read (Elt F) TB) (SparseCore.rows ((offK 17).view.read (Elt F) (View.write (Elt F) (sI).view fI (tile_body.sl.dma0 d L I3) Finset.univ)) rfl hin17) := by
    delta tile_body.sl.dma0_18; dsimp only
    rw [Cert.Lib.WholeWrites.writes_whole_cons]; rfl
  ihave Hd17 := (Entails.of_eq (show ((oChL17 L).view.loc (V d (cV L) (jV L)) ↦[(oChL17 L).view.set]{fullShare} _ : sProp 𝕄) = oPc d L 17 (outOf I3 TB) from
      pointsTo_congr (ℓ := oLoc d) (q := fullShare) (chunk_value d L TB I3 O0 hI _ hFI 17 hin17 _ hG17))) $$ Hc17'
  have hG18 : tile_body.sl.dma0_19 d L TB I3 fI fC hin2 hin6 hin10 hin14 hin18
      = SparseCore.gatherPayload gathers_S100000x128_S128x128 ((tAllK).view.read (Elt F) TB) (SparseCore.rows ((offK 18).view.read (Elt F) (View.write (Elt F) (sI).view fI (tile_body.sl.dma0 d L I3) Finset.univ)) rfl hin18) := by
    delta tile_body.sl.dma0_19; dsimp only
    rw [Cert.Lib.WholeWrites.writes_whole_cons]; rfl
  ihave Hd18 := (Entails.of_eq (show ((oChL18 L).view.loc (V d (cV L) (jV L)) ↦[(oChL18 L).view.set]{fullShare} _ : sProp 𝕄) = oPc d L 18 (outOf I3 TB) from
      pointsTo_congr (ℓ := oLoc d) (q := fullShare) (chunk_value d L TB I3 O0 hI _ hFI 18 hin18 _ hG18))) $$ Hc18'
  have hG19 : tile_body.sl.dma0_20 d L TB I3 fI fD hin3 hin7 hin11 hin15 hin19
      = SparseCore.gatherPayload gathers_S100000x128_S128x128 ((tAllK).view.read (Elt F) TB) (SparseCore.rows ((offK 19).view.read (Elt F) (View.write (Elt F) (sI).view fI (tile_body.sl.dma0 d L I3) Finset.univ)) rfl hin19) := by
    delta tile_body.sl.dma0_20; dsimp only
    rw [Cert.Lib.WholeWrites.writes_whole_cons]; rfl
  ihave Hd19 := (Entails.of_eq (show ((oChL19 L).view.loc (V d (cV L) (jV L)) ↦[(oChL19 L).view.set]{fullShare} _ : sProp 𝕄) = oPc d L 19 (outOf I3 TB) from
      pointsTo_congr (ℓ := oLoc d) (q := fullShare) (chunk_value d L TB I3 O0 hI _ hFI 19 hin19 _ hG19))) $$ Hc19'
  have hG20 : tile_body.sl.dma0_21 d L TB I3 fI fA hin0 hin4 hin8 hin12 hin16 hin20
      = SparseCore.gatherPayload gathers_S100000x128_S128x128 ((tAllK).view.read (Elt F) TB) (SparseCore.rows ((offK 20).view.read (Elt F) (View.write (Elt F) (sI).view fI (tile_body.sl.dma0 d L I3) Finset.univ)) rfl hin20) := by
    delta tile_body.sl.dma0_21; dsimp only
    rw [Cert.Lib.WholeWrites.writes_whole_cons]; rfl
  ihave Hd20 := (Entails.of_eq (show ((oChL20 L).view.loc (V d (cV L) (jV L)) ↦[(oChL20 L).view.set]{fullShare} _ : sProp 𝕄) = oPc d L 20 (outOf I3 TB) from
      pointsTo_congr (ℓ := oLoc d) (q := fullShare) (chunk_value d L TB I3 O0 hI _ hFI 20 hin20 _ hG20))) $$ Hc20'
  have hG21 : tile_body.sl.dma0_22 d L TB I3 fI fB hin1 hin5 hin9 hin13 hin17 hin21
      = SparseCore.gatherPayload gathers_S100000x128_S128x128 ((tAllK).view.read (Elt F) TB) (SparseCore.rows ((offK 21).view.read (Elt F) (View.write (Elt F) (sI).view fI (tile_body.sl.dma0 d L I3) Finset.univ)) rfl hin21) := by
    delta tile_body.sl.dma0_22; dsimp only
    rw [Cert.Lib.WholeWrites.writes_whole_cons]; rfl
  ihave Hd21 := (Entails.of_eq (show ((oChL21 L).view.loc (V d (cV L) (jV L)) ↦[(oChL21 L).view.set]{fullShare} _ : sProp 𝕄) = oPc d L 21 (outOf I3 TB) from
      pointsTo_congr (ℓ := oLoc d) (q := fullShare) (chunk_value d L TB I3 O0 hI _ hFI 21 hin21 _ hG21))) $$ Hc21'
  have hG22 : tile_body.sl.dma0_23 d L TB I3 fI fC hin2 hin6 hin10 hin14 hin18 hin22
      = SparseCore.gatherPayload gathers_S100000x128_S128x128 ((tAllK).view.read (Elt F) TB) (SparseCore.rows ((offK 22).view.read (Elt F) (View.write (Elt F) (sI).view fI (tile_body.sl.dma0 d L I3) Finset.univ)) rfl hin22) := by
    delta tile_body.sl.dma0_23; dsimp only
    rw [Cert.Lib.WholeWrites.writes_whole_cons]; rfl
  ihave Hd22 := (Entails.of_eq (show ((oChL22 L).view.loc (V d (cV L) (jV L)) ↦[(oChL22 L).view.set]{fullShare} _ : sProp 𝕄) = oPc d L 22 (outOf I3 TB) from
      pointsTo_congr (ℓ := oLoc d) (q := fullShare) (chunk_value d L TB I3 O0 hI _ hFI 22 hin22 _ hG22))) $$ Hc22'
  have hG23 : tile_body.sl.dma0_24 d L TB I3 fI fD hin3 hin7 hin11 hin15 hin19 hin23
      = SparseCore.gatherPayload gathers_S100000x128_S128x128 ((tAllK).view.read (Elt F) TB) (SparseCore.rows ((offK 23).view.read (Elt F) (View.write (Elt F) (sI).view fI (tile_body.sl.dma0 d L I3) Finset.univ)) rfl hin23) := by
    delta tile_body.sl.dma0_24; dsimp only
    rw [Cert.Lib.WholeWrites.writes_whole_cons]; rfl
  ihave Hd23 := (Entails.of_eq (show ((oChL23 L).view.loc (V d (cV L) (jV L)) ↦[(oChL23 L).view.set]{fullShare} _ : sProp 𝕄) = oPc d L 23 (outOf I3 TB) from
      pointsTo_congr (ℓ := oLoc d) (q := fullShare) (chunk_value d L TB I3 O0 hI _ hFI 23 hin23 _ hG23))) $$ Hc23'
  have hG24 : tile_body.sl.dma0_25 d L TB I3 fI fA hin0 hin4 hin8 hin12 hin16 hin20 hin24
      = SparseCore.gatherPayload gathers_S100000x128_S128x128 ((tAllK).view.read (Elt F) TB) (SparseCore.rows ((offK 24).view.read (Elt F) (View.write (Elt F) (sI).view fI (tile_body.sl.dma0 d L I3) Finset.univ)) rfl hin24) := by
    delta tile_body.sl.dma0_25; dsimp only
    rw [Cert.Lib.WholeWrites.writes_whole_cons]; rfl
  ihave Hd24 := (Entails.of_eq (show ((oChL24 L).view.loc (V d (cV L) (jV L)) ↦[(oChL24 L).view.set]{fullShare} _ : sProp 𝕄) = oPc d L 24 (outOf I3 TB) from
      pointsTo_congr (ℓ := oLoc d) (q := fullShare) (chunk_value d L TB I3 O0 hI _ hFI 24 hin24 _ hG24))) $$ Hc24'
  have hG25 : tile_body.sl.dma0_26 d L TB I3 fI fB hin1 hin5 hin9 hin13 hin17 hin21 hin25
      = SparseCore.gatherPayload gathers_S100000x128_S128x128 ((tAllK).view.read (Elt F) TB) (SparseCore.rows ((offK 25).view.read (Elt F) (View.write (Elt F) (sI).view fI (tile_body.sl.dma0 d L I3) Finset.univ)) rfl hin25) := by
    delta tile_body.sl.dma0_26; dsimp only
    rw [Cert.Lib.WholeWrites.writes_whole_cons]; rfl
  ihave Hd25 := (Entails.of_eq (show ((oChL25 L).view.loc (V d (cV L) (jV L)) ↦[(oChL25 L).view.set]{fullShare} _ : sProp 𝕄) = oPc d L 25 (outOf I3 TB) from
      pointsTo_congr (ℓ := oLoc d) (q := fullShare) (chunk_value d L TB I3 O0 hI _ hFI 25 hin25 _ hG25))) $$ Hc25'
  isplitl [Hi' HtA HtB HtC HtD Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25]
  · isplitl [Hi']; · iexact Hi'
    isplitl [HtA HtB HtC HtD]
    · ihave HtL := (pointsTo_share (PosShare.mem_left_op_right q.left)).2 $$ [HtA HtB]; · isplitl [HtA] <;> iassumption
      ihave HtR := (pointsTo_share (PosShare.mem_left_op_right q.right)).2 $$ [HtC HtD]; · isplitl [HtC] <;> iassumption
      ihave Ht := (pointsTo_share (PosShare.mem_left_op_right q)).2 $$ [HtL HtR]; · isplitl [HtL] <;> iassumption
      iexact Ht
    iapply (Entails.of_eq (bigSep_fin26 (F := F) (fun r => oPc d L r (outOf I3 TB))).symm)
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    iexact Hd25
  isplitl [Hr0' Hr1' Hr2' Hr3' Hr4' Hr5' Hr6' Hr7' Hr8' Hr9' Hr10' Hr11' Hr12' Hr13' Hr14' Hr15' Hr16' Hr17' Hr18' Hr19' Hr20' Hr21' Hr22' Hr23' Hr24' Hr25' HbA' HbB' HbC' HbD' Hbufs]
  · isplitl [Hr0' Hr1' Hr2' Hr3' Hr4' Hr5' Hr6' Hr7' Hr8' Hr9' Hr10' Hr11' Hr12' Hr13' Hr14' Hr15' Hr16' Hr17' Hr18' Hr19' Hr20' Hr21' Hr22' Hr23' Hr24' Hr25']
    · iexists (View.write (Elt F) (sI).view fI (tile_body.sl.dma0 d L I3) Finset.univ)
      iapply (Entails.of_eq ((sI_rows (F := F) d (cV L) (jV L) _).trans (bigSep_fin26 _)).symm)
      isplitl [Hr0']; · iapply (Entails.of_eq (show ((offL0).view.loc (V d (cV L) (jV L)) ↦[(offL0).view.set]{fullShare} (View.write (Elt F) (sI).view fI (tile_body.sl.dma0 d L I3) Finset.univ) : sProp 𝕄) = (V d (cV L) (jV L)).loc cc0_scratch0 ↦[rowSet 0]{fullShare} (View.write (Elt F) (sI).view fI (tile_body.sl.dma0 d L I3) Finset.univ) from by rw [← set_offK 0]; rfl)); iexact Hr0'
      isplitl [Hr1']; · iapply (Entails.of_eq (show ((offL1).view.loc (V d (cV L) (jV L)) ↦[(offL1).view.set]{fullShare} (View.write (Elt F) (sI).view fI (tile_body.sl.dma0 d L I3) Finset.univ) : sProp 𝕄) = (V d (cV L) (jV L)).loc cc0_scratch0 ↦[rowSet 1]{fullShare} (View.write (Elt F) (sI).view fI (tile_body.sl.dma0 d L I3) Finset.univ) from by rw [← set_offK 1]; rfl)); iexact Hr1'
      isplitl [Hr2']; · iapply (Entails.of_eq (show ((offL2).view.loc (V d (cV L) (jV L)) ↦[(offL2).view.set]{fullShare} (View.write (Elt F) (sI).view fI (tile_body.sl.dma0 d L I3) Finset.univ) : sProp 𝕄) = (V d (cV L) (jV L)).loc cc0_scratch0 ↦[rowSet 2]{fullShare} (View.write (Elt F) (sI).view fI (tile_body.sl.dma0 d L I3) Finset.univ) from by rw [← set_offK 2]; rfl)); iexact Hr2'
      isplitl [Hr3']; · iapply (Entails.of_eq (show ((offL3).view.loc (V d (cV L) (jV L)) ↦[(offL3).view.set]{fullShare} (View.write (Elt F) (sI).view fI (tile_body.sl.dma0 d L I3) Finset.univ) : sProp 𝕄) = (V d (cV L) (jV L)).loc cc0_scratch0 ↦[rowSet 3]{fullShare} (View.write (Elt F) (sI).view fI (tile_body.sl.dma0 d L I3) Finset.univ) from by rw [← set_offK 3]; rfl)); iexact Hr3'
      isplitl [Hr4']; · iapply (Entails.of_eq (show ((offL4).view.loc (V d (cV L) (jV L)) ↦[(offL4).view.set]{fullShare} (View.write (Elt F) (sI).view fI (tile_body.sl.dma0 d L I3) Finset.univ) : sProp 𝕄) = (V d (cV L) (jV L)).loc cc0_scratch0 ↦[rowSet 4]{fullShare} (View.write (Elt F) (sI).view fI (tile_body.sl.dma0 d L I3) Finset.univ) from by rw [← set_offK 4]; rfl)); iexact Hr4'
      isplitl [Hr5']; · iapply (Entails.of_eq (show ((offL5).view.loc (V d (cV L) (jV L)) ↦[(offL5).view.set]{fullShare} (View.write (Elt F) (sI).view fI (tile_body.sl.dma0 d L I3) Finset.univ) : sProp 𝕄) = (V d (cV L) (jV L)).loc cc0_scratch0 ↦[rowSet 5]{fullShare} (View.write (Elt F) (sI).view fI (tile_body.sl.dma0 d L I3) Finset.univ) from by rw [← set_offK 5]; rfl)); iexact Hr5'
      isplitl [Hr6']; · iapply (Entails.of_eq (show ((offL6).view.loc (V d (cV L) (jV L)) ↦[(offL6).view.set]{fullShare} (View.write (Elt F) (sI).view fI (tile_body.sl.dma0 d L I3) Finset.univ) : sProp 𝕄) = (V d (cV L) (jV L)).loc cc0_scratch0 ↦[rowSet 6]{fullShare} (View.write (Elt F) (sI).view fI (tile_body.sl.dma0 d L I3) Finset.univ) from by rw [← set_offK 6]; rfl)); iexact Hr6'
      isplitl [Hr7']; · iapply (Entails.of_eq (show ((offL7).view.loc (V d (cV L) (jV L)) ↦[(offL7).view.set]{fullShare} (View.write (Elt F) (sI).view fI (tile_body.sl.dma0 d L I3) Finset.univ) : sProp 𝕄) = (V d (cV L) (jV L)).loc cc0_scratch0 ↦[rowSet 7]{fullShare} (View.write (Elt F) (sI).view fI (tile_body.sl.dma0 d L I3) Finset.univ) from by rw [← set_offK 7]; rfl)); iexact Hr7'
      isplitl [Hr8']; · iapply (Entails.of_eq (show ((offL8).view.loc (V d (cV L) (jV L)) ↦[(offL8).view.set]{fullShare} (View.write (Elt F) (sI).view fI (tile_body.sl.dma0 d L I3) Finset.univ) : sProp 𝕄) = (V d (cV L) (jV L)).loc cc0_scratch0 ↦[rowSet 8]{fullShare} (View.write (Elt F) (sI).view fI (tile_body.sl.dma0 d L I3) Finset.univ) from by rw [← set_offK 8]; rfl)); iexact Hr8'
      isplitl [Hr9']; · iapply (Entails.of_eq (show ((offL9).view.loc (V d (cV L) (jV L)) ↦[(offL9).view.set]{fullShare} (View.write (Elt F) (sI).view fI (tile_body.sl.dma0 d L I3) Finset.univ) : sProp 𝕄) = (V d (cV L) (jV L)).loc cc0_scratch0 ↦[rowSet 9]{fullShare} (View.write (Elt F) (sI).view fI (tile_body.sl.dma0 d L I3) Finset.univ) from by rw [← set_offK 9]; rfl)); iexact Hr9'
      isplitl [Hr10']; · iapply (Entails.of_eq (show ((offL10).view.loc (V d (cV L) (jV L)) ↦[(offL10).view.set]{fullShare} (View.write (Elt F) (sI).view fI (tile_body.sl.dma0 d L I3) Finset.univ) : sProp 𝕄) = (V d (cV L) (jV L)).loc cc0_scratch0 ↦[rowSet 10]{fullShare} (View.write (Elt F) (sI).view fI (tile_body.sl.dma0 d L I3) Finset.univ) from by rw [← set_offK 10]; rfl)); iexact Hr10'
      isplitl [Hr11']; · iapply (Entails.of_eq (show ((offL11).view.loc (V d (cV L) (jV L)) ↦[(offL11).view.set]{fullShare} (View.write (Elt F) (sI).view fI (tile_body.sl.dma0 d L I3) Finset.univ) : sProp 𝕄) = (V d (cV L) (jV L)).loc cc0_scratch0 ↦[rowSet 11]{fullShare} (View.write (Elt F) (sI).view fI (tile_body.sl.dma0 d L I3) Finset.univ) from by rw [← set_offK 11]; rfl)); iexact Hr11'
      isplitl [Hr12']; · iapply (Entails.of_eq (show ((offL12).view.loc (V d (cV L) (jV L)) ↦[(offL12).view.set]{fullShare} (View.write (Elt F) (sI).view fI (tile_body.sl.dma0 d L I3) Finset.univ) : sProp 𝕄) = (V d (cV L) (jV L)).loc cc0_scratch0 ↦[rowSet 12]{fullShare} (View.write (Elt F) (sI).view fI (tile_body.sl.dma0 d L I3) Finset.univ) from by rw [← set_offK 12]; rfl)); iexact Hr12'
      isplitl [Hr13']; · iapply (Entails.of_eq (show ((offL13).view.loc (V d (cV L) (jV L)) ↦[(offL13).view.set]{fullShare} (View.write (Elt F) (sI).view fI (tile_body.sl.dma0 d L I3) Finset.univ) : sProp 𝕄) = (V d (cV L) (jV L)).loc cc0_scratch0 ↦[rowSet 13]{fullShare} (View.write (Elt F) (sI).view fI (tile_body.sl.dma0 d L I3) Finset.univ) from by rw [← set_offK 13]; rfl)); iexact Hr13'
      isplitl [Hr14']; · iapply (Entails.of_eq (show ((offL14).view.loc (V d (cV L) (jV L)) ↦[(offL14).view.set]{fullShare} (View.write (Elt F) (sI).view fI (tile_body.sl.dma0 d L I3) Finset.univ) : sProp 𝕄) = (V d (cV L) (jV L)).loc cc0_scratch0 ↦[rowSet 14]{fullShare} (View.write (Elt F) (sI).view fI (tile_body.sl.dma0 d L I3) Finset.univ) from by rw [← set_offK 14]; rfl)); iexact Hr14'
      isplitl [Hr15']; · iapply (Entails.of_eq (show ((offL15).view.loc (V d (cV L) (jV L)) ↦[(offL15).view.set]{fullShare} (View.write (Elt F) (sI).view fI (tile_body.sl.dma0 d L I3) Finset.univ) : sProp 𝕄) = (V d (cV L) (jV L)).loc cc0_scratch0 ↦[rowSet 15]{fullShare} (View.write (Elt F) (sI).view fI (tile_body.sl.dma0 d L I3) Finset.univ) from by rw [← set_offK 15]; rfl)); iexact Hr15'
      isplitl [Hr16']; · iapply (Entails.of_eq (show ((offL16).view.loc (V d (cV L) (jV L)) ↦[(offL16).view.set]{fullShare} (View.write (Elt F) (sI).view fI (tile_body.sl.dma0 d L I3) Finset.univ) : sProp 𝕄) = (V d (cV L) (jV L)).loc cc0_scratch0 ↦[rowSet 16]{fullShare} (View.write (Elt F) (sI).view fI (tile_body.sl.dma0 d L I3) Finset.univ) from by rw [← set_offK 16]; rfl)); iexact Hr16'
      isplitl [Hr17']; · iapply (Entails.of_eq (show ((offL17).view.loc (V d (cV L) (jV L)) ↦[(offL17).view.set]{fullShare} (View.write (Elt F) (sI).view fI (tile_body.sl.dma0 d L I3) Finset.univ) : sProp 𝕄) = (V d (cV L) (jV L)).loc cc0_scratch0 ↦[rowSet 17]{fullShare} (View.write (Elt F) (sI).view fI (tile_body.sl.dma0 d L I3) Finset.univ) from by rw [← set_offK 17]; rfl)); iexact Hr17'
      isplitl [Hr18']; · iapply (Entails.of_eq (show ((offL18).view.loc (V d (cV L) (jV L)) ↦[(offL18).view.set]{fullShare} (View.write (Elt F) (sI).view fI (tile_body.sl.dma0 d L I3) Finset.univ) : sProp 𝕄) = (V d (cV L) (jV L)).loc cc0_scratch0 ↦[rowSet 18]{fullShare} (View.write (Elt F) (sI).view fI (tile_body.sl.dma0 d L I3) Finset.univ) from by rw [← set_offK 18]; rfl)); iexact Hr18'
      isplitl [Hr19']; · iapply (Entails.of_eq (show ((offL19).view.loc (V d (cV L) (jV L)) ↦[(offL19).view.set]{fullShare} (View.write (Elt F) (sI).view fI (tile_body.sl.dma0 d L I3) Finset.univ) : sProp 𝕄) = (V d (cV L) (jV L)).loc cc0_scratch0 ↦[rowSet 19]{fullShare} (View.write (Elt F) (sI).view fI (tile_body.sl.dma0 d L I3) Finset.univ) from by rw [← set_offK 19]; rfl)); iexact Hr19'
      isplitl [Hr20']; · iapply (Entails.of_eq (show ((offL20).view.loc (V d (cV L) (jV L)) ↦[(offL20).view.set]{fullShare} (View.write (Elt F) (sI).view fI (tile_body.sl.dma0 d L I3) Finset.univ) : sProp 𝕄) = (V d (cV L) (jV L)).loc cc0_scratch0 ↦[rowSet 20]{fullShare} (View.write (Elt F) (sI).view fI (tile_body.sl.dma0 d L I3) Finset.univ) from by rw [← set_offK 20]; rfl)); iexact Hr20'
      isplitl [Hr21']; · iapply (Entails.of_eq (show ((offL21).view.loc (V d (cV L) (jV L)) ↦[(offL21).view.set]{fullShare} (View.write (Elt F) (sI).view fI (tile_body.sl.dma0 d L I3) Finset.univ) : sProp 𝕄) = (V d (cV L) (jV L)).loc cc0_scratch0 ↦[rowSet 21]{fullShare} (View.write (Elt F) (sI).view fI (tile_body.sl.dma0 d L I3) Finset.univ) from by rw [← set_offK 21]; rfl)); iexact Hr21'
      isplitl [Hr22']; · iapply (Entails.of_eq (show ((offL22).view.loc (V d (cV L) (jV L)) ↦[(offL22).view.set]{fullShare} (View.write (Elt F) (sI).view fI (tile_body.sl.dma0 d L I3) Finset.univ) : sProp 𝕄) = (V d (cV L) (jV L)).loc cc0_scratch0 ↦[rowSet 22]{fullShare} (View.write (Elt F) (sI).view fI (tile_body.sl.dma0 d L I3) Finset.univ) from by rw [← set_offK 22]; rfl)); iexact Hr22'
      isplitl [Hr23']; · iapply (Entails.of_eq (show ((offL23).view.loc (V d (cV L) (jV L)) ↦[(offL23).view.set]{fullShare} (View.write (Elt F) (sI).view fI (tile_body.sl.dma0 d L I3) Finset.univ) : sProp 𝕄) = (V d (cV L) (jV L)).loc cc0_scratch0 ↦[rowSet 23]{fullShare} (View.write (Elt F) (sI).view fI (tile_body.sl.dma0 d L I3) Finset.univ) from by rw [← set_offK 23]; rfl)); iexact Hr23'
      isplitl [Hr24']; · iapply (Entails.of_eq (show ((offL24).view.loc (V d (cV L) (jV L)) ↦[(offL24).view.set]{fullShare} (View.write (Elt F) (sI).view fI (tile_body.sl.dma0 d L I3) Finset.univ) : sProp 𝕄) = (V d (cV L) (jV L)).loc cc0_scratch0 ↦[rowSet 24]{fullShare} (View.write (Elt F) (sI).view fI (tile_body.sl.dma0 d L I3) Finset.univ) from by rw [← set_offK 24]; rfl)); iexact Hr24'
      iapply (Entails.of_eq (show ((offL25).view.loc (V d (cV L) (jV L)) ↦[(offL25).view.set]{fullShare} (View.write (Elt F) (sI).view fI (tile_body.sl.dma0 d L I3) Finset.univ) : sProp 𝕄) = (V d (cV L) (jV L)).loc cc0_scratch0 ↦[rowSet 25]{fullShare} (View.write (Elt F) (sI).view fI (tile_body.sl.dma0 d L I3) Finset.univ) from by rw [← set_offK 25]; rfl)); iexact Hr25'
    isplitl [HbA']; · iexists _; iexact HbA'
    isplitl [HbB']; · iexists _; iexact HbB'
    isplitl [HbC']; · iexists _; iexact HbC'
    isplitl [HbD']; · iexists _; iexact HbD'
    iexact Hbufs
  isplitl [Hs0 Hs1 Hs2 Hs3 Hs4 Hs5 Hs6 Hs7 Hs8 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  swap; · iexact HO
  ipureintro; intro p hp
  repeat (rcases Finset.mem_insert.mp hp with hp | hp; · exact .inr (hp ▸ rfl))
  exact .inl hp

end Body

end Cert.Proof.KI

end
-- ==== Proof.KiSplit.lean ====
/-
  The arrays decomposed among the thirty-two tasks. The table is read by every task at once: each holds one leaf of the
  full share halved five times. The re-laid index array `[32, 26, 128]` is cut along its first axis into its slabs:
  task `(c, s)` has slab `2·s + c`, and `(c, s) ↦ 2·s + c` is a bijection onto the slabs. The gathered-rows array
  `[106496, 128]` is cut along its first axis into 832 chunks of 128 rows: chunk `r` of task `(c, s)` begins at row
  `6656·s + 3328·c + 128·r = 128·(26·(2·s + c) + r)`, and `(c, s, r) ↦ 26·(2·s + c) + r` is a bijection onto the chunks.
-/
import proofs.«206664_g71932112273502_cont_9to1_m_983_11_alg».proof.Proof.KiTile

noncomputable section

namespace Cert.Proof.KI

open Cert.KernelIdeal Cert.KernelIdeal.Gen

open Idealize.ShloMosaic
open Idealize.ShloMosaic.ValueIdx (ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v2_scv : Memref Cert.KernelIdeal.sig Kind.scVector Space.hbm Cert.KernelIdeal.S32x26x128 EltTy.i32)
local notation "oV" => (Memref.whole Cert.KernelIdeal.main_v3_scv : Memref Cert.KernelIdeal.sig Kind.scVector Space.hbm Cert.KernelIdeal.S106496x128 EltTy.f32)
local notation "sI" => (Memref.whole Cert.KernelIdeal.cc0_scratch0 : Memref Cert.KernelIdeal.sig Kind.scVector Space.vmem Cert.KernelIdeal.S26x128 EltTy.i32)
local notation "bA" => (Memref.whole Cert.KernelIdeal.cc0_scratch1 : Memref Cert.KernelIdeal.sig Kind.scVector Space.vmem Cert.KernelIdeal.S128x128 EltTy.f32)
local notation "bB" => (Memref.whole Cert.KernelIdeal.cc0_scratch2 : Memref Cert.KernelIdeal.sig Kind.scVector Space.vmem Cert.KernelIdeal.S128x128 EltTy.f32)
local notation "bC" => (Memref.whole Cert.KernelIdeal.cc0_scratch3 : Memref Cert.KernelIdeal.sig Kind.scVector Space.vmem Cert.KernelIdeal.S128x128 EltTy.f32)
local notation "bD" => (Memref.whole Cert.KernelIdeal.cc0_scratch4 : Memref Cert.KernelIdeal.sig Kind.scVector Space.vmem Cert.KernelIdeal.S128x128 EltTy.f32)

/-! ## The tasks -/

/-- The grid point of vector subcore s of SparseCore c. -/
def coordsV (c : Fin 2) (s : Fin 16) : grid0.Coords := fun | 0 => c | 1 => s | ⟨_ + 2, h⟩ => absurd h (Nat.not_lt.2 (Nat.le_add_left _ _))

/-- Task (c, s)'s share of the table: a leaf of the full share halved five times. -/
def tq (c : Fin 2) (s : Fin 16) : PosShare TreeShare := leaf 5 fullShare (finProdFinEquiv (m := 2) (n := 16) (c, s))

/-! ## The table: thirty-two shares -/

theorem tLoc_shares (d : Dev nD) (f : Buf (Elt F) (tLoc d)) :
    (tLoc d ↦{fullShare} f : sProp 𝕄) = bigSep Finset.univ fun c : Fin 2 => bigSep Finset.univ fun s : Fin 16 => tLoc d ↦{tq c s} f :=
  (pointsTo_leaves Finset.univ f 5 fullShare).trans
    ((bigSep_univ_equiv (finProdFinEquiv (m := 2) (n := 16))
        (fun i : Fin (2 ^ 5) => (tLoc d ↦{leaf 5 fullShare i} f : sProp 𝕄))).trans
      (bigSep_univ_prod (fun p : Fin 2 × Fin 16 => (tLoc d ↦{leaf 5 fullShare (finProdFinEquiv (m := 2) (n := 16) p)} f : sProp 𝕄))))

/-! ## The re-laid index array: thirty-two slabs -/

/-- The slab's offsets at task `(c, s)`: slab `2·s + c`. -/
theorem off1_coordsV (c : Fin 2) (s : Fin 16) : k0_off1 (coordsV c s) = ![2 * s.val + c.val, 0, 0] := k0_off1_eq (coordsV c s)

/-- The slab as the task names it (sliced, then squeezed) is the rectangle's elements. -/
theorem set_iSlabK (L : grid0.Coords) : (iSlabK L).view.set = (islabK L).set := by
  show (((iV).view.slice (islabK L)).reshape S26x128 squeezes_S1x26x128_S26x128.numel_eq).set = _
  rw [View.set_reshape]
  show ((View.whole (main_v2_scv : Ref sig .scVector)).slice (islabK L)).set = _
  rw [View.set_slice]; exact Finset.map_refl

/-- Different tasks' slabs are disjoint: they differ on the first axis. -/
theorem islabs_disjoint : ∀ p ∈ (Finset.univ : Finset (Fin 2 × Fin 16)), ∀ p' ∈ (Finset.univ : Finset (Fin 2 × Fin 16)), p ≠ p' →
    Disjoint (islabK (coordsV p.1 p.2)).set (islabK (coordsV p'.1 p'.2)).set := by
  rintro ⟨c, s⟩ - ⟨c', s'⟩ - hne
  refine Rect.unit_disjoint (0 : Fin 3) ?_
  rw [off1_coordsV, off1_coordsV]
  show 2 * s.val + c.val + 1 ≤ 2 * s'.val + c'.val ∨ 2 * s'.val + c'.val + 1 ≤ 2 * s.val + c.val
  have hd : c.val ≠ c'.val ∨ s.val ≠ s'.val := by
    by_cases h1 : c.val = c'.val
    · by_cases h2 : s.val = s'.val
      · exact absurd (Prod.ext (Fin.ext h1) (Fin.ext h2)) hne
      · exact .inr h2
    · exact .inl h1
  have hc := c.isLt
  have hc' := c'.isLt
  omega

/-- The slabs cover the array: index `i` is in slab `i 0`, task `(i 0 % 2, i 0 / 2)`. -/
theorem islabs_cover : (Finset.univ : Finset (Fin 2 × Fin 16)).biUnion (fun p => (islabK (coordsV p.1 p.2)).set) = Finset.univ := by
  ext i
  simp only [Finset.mem_biUnion, Finset.mem_univ, true_and, iff_true]
  have h0 : (i 0).val < 32 := (i 0).isLt
  have h1 : (i 1).val < 26 := (i 1).isLt
  have h2 : (i 2).val < 128 := (i 2).isLt
  refine ⟨(⟨(i 0).val % 2, by omega⟩, ⟨(i 0).val / 2, by omega⟩), ?_⟩
  rw [Rect.mem_set_unit, off1_coordsV]
  intro a
  match a with
  | ⟨0, _⟩ =>
    show 2 * ((i 0).val / 2) + (i 0).val % 2 ≤ (i 0).val ∧ (i 0).val < 2 * ((i 0).val / 2) + (i 0).val % 2 + 1
    omega
  | ⟨1, _⟩ =>
    show 0 ≤ (i 1).val ∧ (i 1).val < 0 + 26
    omega
  | ⟨2, _⟩ =>
    show 0 ≤ (i 2).val ∧ (i 2).val < 0 + 128
    omega

theorem iLoc_slabs (d : Dev nD) (f : Buf (Elt F) (iLoc d)) :
    (iLoc d ↦{fullShare} f : sProp 𝕄) = bigSep Finset.univ fun c : Fin 2 => bigSep Finset.univ fun s : Fin 16 => iLoc d ↦[(iSlabK (coordsV c s)).view.set]{fullShare} f := by
  have e : (iLoc d ↦[_]{fullShare} f : sProp 𝕄) = _ :=
    pointsTo_biUnion (Finset.univ : Finset (Fin 2 × Fin 16)) (ℓ := iLoc d)
      (fun p => (islabK (coordsV p.1 p.2)).set) islabs_disjoint
  rw [islabs_cover] at e
  refine e.trans ((bigSep_univ_prod _).trans ?_)
  refine bigSep_congr fun c _ => bigSep_congr fun s _ => ?_
  rw [set_iSlabK]

/-! ## The gathered rows: eight hundred and thirty-two chunks -/

/-- Chunk `r` of task `L`, as a rectangle of the gathered-rows array. -/
abbrev ochK (L : grid0.Coords) (r : Fin 26) : Rect S106496x128 :=
  Rect.unit (s := S106496x128) (k0_off2 L (BitVec.ofNat 32 (128 * r.val))) S128x128.size (k0_off2_inb L r)

/-- The chunk's offsets at task `(c, s)`: 128 rows from `6656·s + 3328·c + 128·r`. -/
theorem off2_coordsV (c : Fin 2) (s : Fin 16) (r : Fin 26) :
    k0_off2 (coordsV c s) (BitVec.ofNat 32 (128 * r.val)) = ![6656 * s.val + 3328 * c.val + 128 * r.val, 0] :=
  k0_off2_eq (coordsV c s) r

/-- The chunk as the task names it is the rectangle's elements. -/
theorem set_oChK (L : grid0.Coords) (r : Fin 26) : (oChK L r).view.set = (ochK L r).set := by
  show ((View.whole (main_v3_scv : Ref sig .scVector)).slice (ochK L r)).set = _
  rw [View.set_slice]; exact Finset.map_refl

/-- Different chunks are disjoint: they differ on the first axis. -/
theorem ochunks_disjoint : ∀ p ∈ (Finset.univ : Finset (Fin 2 × Fin 16 × Fin 26)), ∀ p' ∈ (Finset.univ : Finset (Fin 2 × Fin 16 × Fin 26)), p ≠ p' →
    Disjoint (ochK (coordsV p.1 p.2.1) p.2.2).set (ochK (coordsV p'.1 p'.2.1) p'.2.2).set := by
  rintro ⟨c, s, r⟩ - ⟨c', s', r'⟩ - hne
  refine Rect.unit_disjoint (0 : Fin 2) ?_
  rw [off2_coordsV, off2_coordsV]
  show 6656 * s.val + 3328 * c.val + 128 * r.val + 128 ≤ 6656 * s'.val + 3328 * c'.val + 128 * r'.val
    ∨ 6656 * s'.val + 3328 * c'.val + 128 * r'.val + 128 ≤ 6656 * s.val + 3328 * c.val + 128 * r.val
  have hd : c.val ≠ c'.val ∨ s.val ≠ s'.val ∨ r.val ≠ r'.val := by
    by_cases h1 : c.val = c'.val
    · by_cases h2 : s.val = s'.val
      · by_cases h3 : r.val = r'.val
        · exact absurd (Prod.ext (Fin.ext h1) (Prod.ext (Fin.ext h2) (Fin.ext h3))) hne
        · exact .inr (.inr h3)
      · exact .inr (.inl h2)
    · exact .inl h1
  have hc := c.isLt
  have hc' := c'.isLt
  have hr := r.isLt
  have hr' := r'.isLt
  omega

/-- The chunks cover the array: row `ρ` is in chunk `ρ % 3328 / 128` of task `(ρ / 3328 % 2, ρ / 6656)`. -/
theorem ochunks_cover : (Finset.univ : Finset (Fin 2 × Fin 16 × Fin 26)).biUnion (fun p => (ochK (coordsV p.1 p.2.1) p.2.2).set) = Finset.univ := by
  ext i
  simp only [Finset.mem_biUnion, Finset.mem_univ, true_and, iff_true]
  have h0 : (i 0).val < 106496 := (i 0).isLt
  have h1 : (i 1).val < 128 := (i 1).isLt
  refine ⟨(⟨(i 0).val / 3328 % 2, by omega⟩, ⟨(i 0).val / 6656, by omega⟩, ⟨(i 0).val % 3328 / 128, by omega⟩), ?_⟩
  rw [Rect.mem_set_unit, off2_coordsV]
  intro a
  match a with
  | ⟨0, _⟩ =>
    show 6656 * ((i 0).val / 6656) + 3328 * ((i 0).val / 3328 % 2) + 128 * ((i 0).val % 3328 / 128) ≤ (i 0).val
      ∧ (i 0).val < 6656 * ((i 0).val / 6656) + 3328 * ((i 0).val / 3328 % 2) + 128 * ((i 0).val % 3328 / 128) + 128
    omega
  | ⟨1, _⟩ =>
    show 0 ≤ (i 1).val ∧ (i 1).val < 0 + 128
    omega

theorem oLoc_chunks (d : Dev nD) (f : Buf (Elt F) (oLoc d)) :
    (oLoc d ↦{fullShare} f : sProp 𝕄) = bigSep Finset.univ fun c : Fin 2 => bigSep Finset.univ fun s : Fin 16 => bigSep Finset.univ fun r : Fin 26 => oLoc d ↦[(oChK (coordsV c s) r).view.set]{fullShare} f := by
  have e : (oLoc d ↦[_]{fullShare} f : sProp 𝕄) = _ :=
    pointsTo_biUnion (Finset.univ : Finset (Fin 2 × Fin 16 × Fin 26)) (ℓ := oLoc d)
      (fun p => (ochK (coordsV p.1 p.2.1) p.2.2).set) ochunks_disjoint
  rw [ochunks_cover] at e
  refine e.trans ((bigSep_univ_prod _).trans ?_)
  refine bigSep_congr fun c _ => (bigSep_univ_prod _).trans ?_
  refine bigSep_congr fun s _ => bigSep_congr fun r _ => ?_
  rw [set_oChK]

end Cert.Proof.KI

end
-- ==== Proof.KiPay.lean ====
/-
  What the launch's handshakes carry. The TensorCore hands each SparseCore, and its sequencer each of its sixteen
  tasks, the task's slab of the re-laid index array, its share of the table and its twenty-six chunks of the gathered-rows
  array; each task brings them back with its chunks holding the gathered rows. What the arrays hold is stated by the
  layout's pure functions of the launch memory: the re-laid index array is `idx3Of` of the index array, the gathered
  rows `outOf` of that and the table, the result `resOf` of the gathered rows.
-/
import proofs.«206664_g71932112273502_cont_9to1_m_983_11_alg».proof.Proof.KiSplit

noncomputable section

namespace Cert.Proof.KI

open Cert.KernelIdeal Cert.KernelIdeal.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v2_scv : Memref Cert.KernelIdeal.sig Kind.scVector Space.hbm Cert.KernelIdeal.S32x26x128 EltTy.i32)
local notation "oV" => (Memref.whole Cert.KernelIdeal.main_v3_scv : Memref Cert.KernelIdeal.sig Kind.scVector Space.hbm Cert.KernelIdeal.S106496x128 EltTy.f32)
local notation "sI" => (Memref.whole Cert.KernelIdeal.cc0_scratch0 : Memref Cert.KernelIdeal.sig Kind.scVector Space.vmem Cert.KernelIdeal.S26x128 EltTy.i32)
local notation "bA" => (Memref.whole Cert.KernelIdeal.cc0_scratch1 : Memref Cert.KernelIdeal.sig Kind.scVector Space.vmem Cert.KernelIdeal.S128x128 EltTy.f32)
local notation "bB" => (Memref.whole Cert.KernelIdeal.cc0_scratch2 : Memref Cert.KernelIdeal.sig Kind.scVector Space.vmem Cert.KernelIdeal.S128x128 EltTy.f32)
local notation "bC" => (Memref.whole Cert.KernelIdeal.cc0_scratch3 : Memref Cert.KernelIdeal.sig Kind.scVector Space.vmem Cert.KernelIdeal.S128x128 EltTy.f32)
local notation "bD" => (Memref.whole Cert.KernelIdeal.cc0_scratch4 : Memref Cert.KernelIdeal.sig Kind.scVector Space.vmem Cert.KernelIdeal.S128x128 EltTy.f32)

variable (m : (ℓ : Loc nD τ sig) → Buf (Elt F) ℓ) (ρ : Dev nD → PrngReg)

/-- The re-laid index array, the gathered rows and the result, as functions of the launch memory. -/
abbrev I3m (d : Dev nD) : Buf (Elt F) (iLoc d) := idx3Of (m (xLoc d))
abbrev OUTm (d : Dev nD) : Buf (Elt F) (oLoc d) := outOf (I3m m d) (m (tLoc d))
abbrev Rm (d : Dev nD) : Buf (Elt F) (rLoc d) := resOf (OUTm m d)

/-- Task `(c, s)`'s slab, share and chunks, the chunks at contents `f`. -/
abbrev taskPts (d : Dev nD) (c : Fin 2) (s : Fin 16) (f : Buf (Elt F) (oLoc d)) : sProp 𝕄 :=
  iprop((iLoc d ↦[(iSlabK (coordsV c s)).view.set]{fullShare} I3m m d) ∗ (tLoc d ↦{tq c s} m (tLoc d))
    ∗ bigSep Finset.univ fun r : Fin 26 => oLoc d ↦[(oChK (coordsV c s) r).view.set]{fullShare} f)

/-- The one call hands SparseCore `c` its sixteen tasks' pieces, each task its own, and brings them back with the
    chunks at the gathered rows; a task's proof needs nothing from the launch element. -/
def P : (K (F := F)).Pay (nD := nD) (Val := Elt F) (Name := ℕ) (U := UU) where
  st := fun q d c => match q with
    | 0 => bigSep Finset.univ fun s : Fin 16 => taskPts m d (Fin.cast nCore_zero c) s (m (oLoc d))
  dn := fun q d c => match q with
    | 0 => bigSep Finset.univ fun s : Fin 16 => taskPts m d (Fin.cast nCore_zero c) s (OUTm m d)
  go := fun q d c i => match q with
    | 0 => taskPts m d (Fin.cast nCore_zero c) (Fin.cast nSub_zero i) (m (oLoc d))
  td := fun q d c i => match q with
    | 0 => taskPts m d (Fin.cast nCore_zero c) (Fin.cast nSub_zero i) (OUTm m d)
  x := fun _ _ => iprop(emp)

instance P_storable : (P (F := F) m).IsStorable where
  st q d c := match q with
    | 0 => (inferInstance : BI.Storable (upEmb : UEmb _ 𝕄) (bigSep Finset.univ fun s : Fin 16 => taskPts m d (Fin.cast nCore_zero c) s (m (oLoc d))))
  dn q d c := match q with
    | 0 => (inferInstance : BI.Storable (upEmb : UEmb _ 𝕄) (bigSep Finset.univ fun s : Fin 16 => taskPts m d (Fin.cast nCore_zero c) s (OUTm m d)))
  go q d c i := match q with
    | 0 => (inferInstance : BI.Storable (upEmb : UEmb _ 𝕄) (taskPts m d (Fin.cast nCore_zero c) (Fin.cast nSub_zero i) (m (oLoc d))))
  td q d c i := match q with
    | 0 => (inferInstance : BI.Storable (upEmb : UEmb _ 𝕄) (taskPts m d (Fin.cast nCore_zero c) (Fin.cast nSub_zero i) (OUTm m d)))

/-- What @main keeps at its end: the index array and the table as launched, the result at the lookup's layout term. -/
abbrev FIN (d : Dev nD) : sProp 𝕄 :=
  iprop((xLoc d ↦{fullShare} m (xLoc d)) ∗ (tLoc d ↦{fullShare} m (tLoc d)) ∗ rLoc d ↦{fullShare} Rm m d)

end Cert.Proof.KI

end
-- ==== Proof.KiMain.lean ====
/-
  @main on the TensorCore. Three host operations re-lay the index array (transpose, flatten, cut into slabs); the one
  SparseCore call hands the thirty-two tasks the slabs, the table's shares and the gathered-rows array's chunks and
  brings them back with the chunks at the gathered rows; two more host operations re-lay the gathered rows into the
  result (cut into blocks, exchange the first two axes). The index array and the table are kept, and the result holds
  the layout's term of them.
-/
import proofs.«206664_g71932112273502_cont_9to1_m_983_11_alg».proof.Proof.KiPay

noncomputable section

namespace Cert.Proof.KI

open Cert.KernelIdeal Cert.KernelIdeal.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v2_scv : Memref Cert.KernelIdeal.sig Kind.scVector Space.hbm Cert.KernelIdeal.S32x26x128 EltTy.i32)
local notation "oV" => (Memref.whole Cert.KernelIdeal.main_v3_scv : Memref Cert.KernelIdeal.sig Kind.scVector Space.hbm Cert.KernelIdeal.S106496x128 EltTy.f32)
local notation "sI" => (Memref.whole Cert.KernelIdeal.cc0_scratch0 : Memref Cert.KernelIdeal.sig Kind.scVector Space.vmem Cert.KernelIdeal.S26x128 EltTy.i32)
local notation "bA" => (Memref.whole Cert.KernelIdeal.cc0_scratch1 : Memref Cert.KernelIdeal.sig Kind.scVector Space.vmem Cert.KernelIdeal.S128x128 EltTy.f32)
local notation "bB" => (Memref.whole Cert.KernelIdeal.cc0_scratch2 : Memref Cert.KernelIdeal.sig Kind.scVector Space.vmem Cert.KernelIdeal.S128x128 EltTy.f32)
local notation "bC" => (Memref.whole Cert.KernelIdeal.cc0_scratch3 : Memref Cert.KernelIdeal.sig Kind.scVector Space.vmem Cert.KernelIdeal.S128x128 EltTy.f32)
local notation "bD" => (Memref.whole Cert.KernelIdeal.cc0_scratch4 : Memref Cert.KernelIdeal.sig Kind.scVector Space.vmem Cert.KernelIdeal.S128x128 EltTy.f32)

variable (m : (ℓ : Loc nD τ sig) → Buf (Elt F) ℓ) (ρ : Dev nD → PrngReg)

variable [FloatOps F]

open Idealize.ShloMosaic.StableHlo (held after launchContents seq wp_seq)

/-! ## @main as two stretches of host operations around the call -/

/-- The five host operations, as @main prints them. -/
abbrev op1 : HloOp τ sig (Elt F) :=
  StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev op2 : HloOp τ sig (Elt F) := StableHlo.reshape main_v0 main_v1 rfl shapeCasts_S26x4096_S106496
abbrev op3 : HloOp τ sig (Elt F) := StableHlo.reshape main_v1 main_v2 rfl shapeCasts_S106496_S32x26x128
abbrev op4 : HloOp τ sig (Elt F) := StableHlo.reshape main_v3 main_v4 rfl shapeCasts_S106496x128_S26x4096x128
abbrev op5 : HloOp τ sig (Elt F) :=
  StableHlo.unary main_v4 main_v5 ((transpose S4096x26x128 [1, 0, 2] · transposes_S26x4096x128_S4096x26x128_1_0_2) : (⟨S26x4096x128, .f32⟩ : BufTy).Contents (Elt F) → (⟨S4096x26x128, .f32⟩ : BufTy).Contents (Elt F))

/-- @main is the first three operations, the call, the last two. -/
theorem main_eq (d : Dev nD) :
    main (F := F) d = (seq [op1, op2, op3] >>= fun _ => ((K (F := F)).run d 0 >>= fun _ => seq [op4, op5])) := by
  simp only [main, seq, bind_assoc, pure_bind]

/-! ## The TensorCore's arrays -/

omit [FloatOps F] in
/-- The TensorCore's unscoped buffers are @main's eight arrays. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (v0Loc d ↦{fullShare} W main_v0)
      ∗ (v1Loc d ↦{fullShare} W main_v1) ∗ (iLoc d ↦{fullShare} W main_v2) ∗ (oLoc d ↦{fullShare} W main_v3) ∗ (v4Loc d ↦{fullShare} W main_v4)
      ∗ rLoc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Those buffers as a set of device buffers. -/
def Sall : Finset (DevRef τ sig) :=
  (Finset.univ.filter fun b : Ref sig .tc => ¬ b.isScoped).map ⟨Proc.devRef (sig := sig) (.tc : Proc τ), Proc.devRef_injective _⟩

theorem mem_Sall (b : Ref sig .tc) (hb : b.isScoped = false) : Proc.devRef (τ := τ) .tc b ∈ Sall :=
  Finset.mem_map_of_mem _ (Finset.mem_filter.mpr ⟨Finset.mem_univ b, by rw [hb]; exact Bool.false_ne_true⟩)

omit [FloatOps F] in
/-- Holding that set at a valuation is holding the unscoped buffers at it. -/
theorem held_unscoped (d : Dev nD) (V : Valuation τ sig (Elt F)) :
    (held (T d) Sall V : sProp 𝕄) = unscopedBufs d (fun b => V (Proc.devRef .tc b)) := by
  unfold StableHlo.held Sall unscopedBufs; rw [bigSep_map]; rfl

/-- Both stretches touch those buffers only. -/
theorem hS1 : ∀ op ∈ ([op1, op2, op3] : List (HloOp τ sig (Elt F))), op.bufs ⊆ Sall := by
  intro op hop
  rcases List.mem_cons.mp hop with rfl | hop
  · exact Finset.insert_subset (mem_Sall _ rfl) (Finset.singleton_subset_iff.mpr (mem_Sall _ rfl))
  rcases List.mem_cons.mp hop with rfl | hop
  · exact Finset.insert_subset (mem_Sall _ rfl) (Finset.singleton_subset_iff.mpr (mem_Sall _ rfl))
  rcases List.mem_cons.mp hop with rfl | hop
  · exact Finset.insert_subset (mem_Sall _ rfl) (Finset.singleton_subset_iff.mpr (mem_Sall _ rfl))
  exact absurd hop List.not_mem_nil
theorem hS2 : ∀ op ∈ ([op4, op5] : List (HloOp τ sig (Elt F))), op.bufs ⊆ Sall := by
  intro op hop
  rcases List.mem_cons.mp hop with rfl | hop
  · exact Finset.insert_subset (mem_Sall _ rfl) (Finset.singleton_subset_iff.mpr (mem_Sall _ rfl))
  rcases List.mem_cons.mp hop with rfl | hop
  · exact Finset.insert_subset (mem_Sall _ rfl) (Finset.singleton_subset_iff.mpr (mem_Sall _ rfl))
  exact absurd hop List.not_mem_nil
theorem hf1 : ∀ op ∈ ([op1, op2, op3] : List (HloOp τ sig (Elt F))), op.fresh = ∅ := by
  intro _ h; (repeat (cases h with | head => rfl | tail _ h => ?_)); exact nomatch h
theorem hf2 : ∀ op ∈ ([op4, op5] : List (HloOp τ sig (Elt F))), op.fresh = ∅ := by
  intro _ h; (repeat (cases h with | head => rfl | tail _ h => ?_)); exact nomatch h

/-! ## The call's operands are the tasks' pieces -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The three arrays, whole, are the thirty-two tasks' slabs, shares and chunks (the chunks at any contents `f`). -/
theorem tasks_eq (d : Dev nD) (f : Buf (Elt F) (oLoc d)) :
    (bigSep Finset.univ fun c : Fin 2 => bigSep Finset.univ fun s : Fin 16 => taskPts m d c s f)
      = iprop((iLoc d ↦{fullShare} I3m m d) ∗ (tLoc d ↦{fullShare} m (tLoc d)) ∗ oLoc d ↦{fullShare} f) := by
  rw [iLoc_slabs d (I3m m d), tLoc_shares d (m (tLoc d)), oLoc_chunks d f]
  simp only [taskPts, bigSep_sep']

omit [FloatOps F] in
theorem st0_eq (d : Dev nD) : (bigSep Finset.univ fun c : Fin ((K (F := F)).nCore 0) => (P m).st 0 d c)
    = iprop((iLoc d ↦{fullShare} I3m m d) ∗ (tLoc d ↦{fullShare} m (tLoc d)) ∗ oLoc d ↦{fullShare} m (oLoc d)) :=
  (bigSep_cores (F := F) (fun c => bigSep Finset.univ fun s : Fin 16 => taskPts m d c s (m (oLoc d)))).trans (tasks_eq m d (m (oLoc d)))
omit [FloatOps F] in
theorem dn0_eq (d : Dev nD) : (bigSep Finset.univ fun c : Fin ((K (F := F)).nCore 0) => (P m).dn 0 d c)
    = iprop((iLoc d ↦{fullShare} I3m m d) ∗ (tLoc d ↦{fullShare} m (tLoc d)) ∗ oLoc d ↦{fullShare} OUTm m d) :=
  (bigSep_cores (F := F) (fun c => bigSep Finset.univ fun s : Fin 16 => taskPts m d c s (OUTm m d))).trans (tasks_eq m d (OUTm m d))

/-! ## What the arrays hold along @main -/

/-- The valuation after the first stretch, and the one with the gathered rows in place after the call. -/
abbrev V1 (d : Dev nD) : Valuation τ sig (Elt F) := after [op1, op2, op3] (launchContents m d)
abbrev V2 (d : Dev nD) : Valuation τ sig (Elt F) := (StableHlo.nullary main_v3 (OUTm m d)).result (V1 m d)
abbrev V3 (d : Dev nD) : Valuation τ sig (Elt F) := after [op4, op5] (V2 m d)

open Idealize.ShloMosaic.StableHlo in
theorem V1_arg0 (d : Dev nD) : V1 m d (Proc.devRef .tc main_arg0) = m (xLoc d) := by
  show after [op1, op2, op3] (launchContents m d) (Proc.devRef .tc main_arg0) = _
  after_results
open Idealize.ShloMosaic.StableHlo in
theorem V1_arg1 (d : Dev nD) : V1 m d (Proc.devRef .tc main_arg1) = m (tLoc d) := by
  show after [op1, op2, op3] (launchContents m d) (Proc.devRef .tc main_arg1) = _
  after_results
open Idealize.ShloMosaic.StableHlo in
theorem V1_v2 (d : Dev nD) : V1 m d (Proc.devRef .tc main_v2) = I3m m d := by
  show after [op1, op2, op3] (launchContents m d) (Proc.devRef .tc main_v2) = _
  after_results
  rfl
open Idealize.ShloMosaic.StableHlo in
theorem V1_v3 (d : Dev nD) : V1 m d (Proc.devRef .tc main_v3) = m (oLoc d) := by
  show after [op1, op2, op3] (launchContents m d) (Proc.devRef .tc main_v3) = _
  after_results
open Idealize.ShloMosaic.StableHlo in
theorem V1_v4 (d : Dev nD) : V1 m d (Proc.devRef .tc main_v4) = m (v4Loc d) := by
  show after [op1, op2, op3] (launchContents m d) (Proc.devRef .tc main_v4) = _
  after_results
open Idealize.ShloMosaic.StableHlo in
theorem V1_v5 (d : Dev nD) : V1 m d (Proc.devRef .tc main_v5) = m (rLoc d) := by
  show after [op1, op2, op3] (launchContents m d) (Proc.devRef .tc main_v5) = _
  after_results

/-- After the call's return the gathered rows are in place; every other array is as the first stretch left it. -/
theorem V2_v3 (d : Dev nD) : V2 m d (Proc.devRef .tc main_v3) = OUTm m d := StableHlo.nullary_result _ _ _ _
theorem V2_arg0 (d : Dev nD) : V2 m d (Proc.devRef .tc main_arg0) = V1 m d (Proc.devRef .tc main_arg0) :=
  StableHlo.nullary_result_ne _ _ _ _ (by decide)
theorem V2_arg1 (d : Dev nD) : V2 m d (Proc.devRef .tc main_arg1) = V1 m d (Proc.devRef .tc main_arg1) :=
  StableHlo.nullary_result_ne _ _ _ _ (by decide)
theorem V2_v0 (d : Dev nD) : V2 m d (Proc.devRef .tc main_v0) = V1 m d (Proc.devRef .tc main_v0) :=
  StableHlo.nullary_result_ne _ _ _ _ (by decide)
theorem V2_v1 (d : Dev nD) : V2 m d (Proc.devRef .tc main_v1) = V1 m d (Proc.devRef .tc main_v1) :=
  StableHlo.nullary_result_ne _ _ _ _ (by decide)
theorem V2_v2 (d : Dev nD) : V2 m d (Proc.devRef .tc main_v2) = V1 m d (Proc.devRef .tc main_v2) :=
  StableHlo.nullary_result_ne _ _ _ _ (by decide)
theorem V2_v4 (d : Dev nD) : V2 m d (Proc.devRef .tc main_v4) = V1 m d (Proc.devRef .tc main_v4) :=
  StableHlo.nullary_result_ne _ _ _ _ (by decide)
theorem V2_v5 (d : Dev nD) : V2 m d (Proc.devRef .tc main_v5) = V1 m d (Proc.devRef .tc main_v5) :=
  StableHlo.nullary_result_ne _ _ _ _ (by decide)

open Idealize.ShloMosaic.StableHlo in
theorem V3_arg0 (d : Dev nD) : V3 m d (Proc.devRef .tc main_arg0) = m (xLoc d) := by
  show after [op1, op2, op3, StableHlo.nullary main_v3 (OUTm m d), op4, op5] (launchContents m d) (Proc.devRef .tc main_arg0) = _
  after_results
open Idealize.ShloMosaic.StableHlo in
theorem V3_arg1 (d : Dev nD) : V3 m d (Proc.devRef .tc main_arg1) = m (tLoc d) := by
  show after [op1, op2, op3, StableHlo.nullary main_v3 (OUTm m d), op4, op5] (launchContents m d) (Proc.devRef .tc main_arg1) = _
  after_results
open Idealize.ShloMosaic.StableHlo in
/-- The result buffer ends at the layout's term: the gathered rows cut into blocks, the first two axes exchanged. -/
theorem V3_v5 (d : Dev nD) : V3 m d (Proc.devRef .tc main_v5) = Rm m d := by
  show after [op1, op2, op3, StableHlo.nullary main_v3 (OUTm m d), op4, op5] (launchContents m d) (Proc.devRef .tc main_v5) = _
  after_results
  rfl

/-! ## The eight arrays at the three valuations -/

theorem held_V1 (d : Dev nD) : (held (T d) Sall (V1 m d) : sProp 𝕄)
    = iprop((xLoc d ↦{fullShare} m (xLoc d)) ∗ (tLoc d ↦{fullShare} m (tLoc d)) ∗ (v0Loc d ↦{fullShare} V1 m d (Proc.devRef .tc main_v0)) ∗ (v1Loc d ↦{fullShare} V1 m d (Proc.devRef .tc main_v1)) ∗ (iLoc d ↦{fullShare} I3m m d) ∗ (oLoc d ↦{fullShare} m (oLoc d)) ∗ (v4Loc d ↦{fullShare} m (v4Loc d)) ∗ rLoc d ↦{fullShare} m (rLoc d)) := by
  rw [held_unscoped, unscopedBufs_eq]
  rw [V1_arg0, V1_arg1, V1_v2, V1_v3, V1_v4, V1_v5]

theorem held_V2 (d : Dev nD) : (held (T d) Sall (V2 m d) : sProp 𝕄)
    = iprop((xLoc d ↦{fullShare} m (xLoc d)) ∗ (tLoc d ↦{fullShare} m (tLoc d)) ∗ (v0Loc d ↦{fullShare} V1 m d (Proc.devRef .tc main_v0)) ∗ (v1Loc d ↦{fullShare} V1 m d (Proc.devRef .tc main_v1)) ∗ (iLoc d ↦{fullShare} I3m m d) ∗ (oLoc d ↦{fullShare} OUTm m d) ∗ (v4Loc d ↦{fullShare} m (v4Loc d)) ∗ rLoc d ↦{fullShare} m (rLoc d)) := by
  rw [held_unscoped, unscopedBufs_eq]
  rw [V2_arg0, V2_arg1, V2_v0, V2_v1, V2_v2, V2_v3, V2_v4, V2_v5, V1_arg0, V1_arg1, V1_v2, V1_v4, V1_v5]

theorem held_V3 (d : Dev nD) : (held (T d) Sall (V3 m d) : sProp 𝕄)
    = iprop((xLoc d ↦{fullShare} m (xLoc d)) ∗ (tLoc d ↦{fullShare} m (tLoc d)) ∗ (v0Loc d ↦{fullShare} V3 m d (Proc.devRef .tc main_v0)) ∗ (v1Loc d ↦{fullShare} V3 m d (Proc.devRef .tc main_v1)) ∗ (iLoc d ↦{fullShare} V3 m d (Proc.devRef .tc main_v2)) ∗ (oLoc d ↦{fullShare} V3 m d (Proc.devRef .tc main_v3)) ∗ (v4Loc d ↦{fullShare} V3 m d (Proc.devRef .tc main_v4)) ∗ rLoc d ↦{fullShare} Rm m d) := by
  rw [held_unscoped, unscopedBufs_eq]
  rw [V3_arg0, V3_arg1, V3_v5]

/-! ## @main -/

/-- @main on device `d`'s TensorCore: the index array re-laid, the one call, the gathered rows re-laid into the result;
    the index array and the table kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq]
  iintro ⟨#Hctx, Hst, ⟨Hb, Hbufs, -, -⟩, -⟩
  ihave Hheld := (Entails.of_eq (held_unscoped d (launchContents m d)).symm) $$ Hbufs
  iapply (wp_seq 𝒱 none Set.univ d Sall (fun _ => ((K (F := F)).run d 0 >>= fun _ => seq [op4, op5])) [op1, op2, op3] hS1 hf1 (launchContents m d)) $$ [Hb Hheld]
  · isplitl [Hb]; · iexact Hb
    iexact Hheld
  iintro ⟨Hb, Hheld⟩
  ihave H8 := (Entails.of_eq (held_V1 m d)) $$ Hheld
  icases H8 with ⟨Hx, Ht, H0, H1, Hi, Ho, H4, Hr⟩
  rw [wp_bind]
  iapply ((K (F := F)).wp_run (D (F := F)) 𝒱 (EH := EH) (P := P m) κ d 0) $$ [Hst Hb Hx Ht H0 H1 Hi Ho H4 Hr]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  ihave Hheld := (Entails.of_eq (held_V2 m d).symm) $$ [Hx Ht H0 H1 Hi Ho H4 Hr]
  · isplitl [Hx]; · iexact Hx
    isplitl [Ht]; · iexact Ht
    isplitl [H0]; · iexact H0
    isplitl [H1]; · iexact H1
    isplitl [Hi]; · iexact Hi
    isplitl [Ho]; · iexact Ho
    isplitl [H4]; · iexact H4
    iexact Hr
  rw [show (seq [op4, op5] : Prog (TpuEff nD τ sig (Elt F) (SparseCore.Sig (ΛP (F := F)) 1) .tc) PUnit)
      = (seq [op4, op5] >>= fun u => Pure.pure u) from (bind_pure _).symm]
  iapply (wp_seq 𝒱 none Set.univ d Sall (fun u => Pure.pure u) [op4, op5] hS2 hf2 (V2 m d)) $$ [Hb Hheld]
  · isplitl [Hb]; · iexact Hb
    iexact Hheld
  iintro ⟨-, Hheld⟩
  ihave H8 := (Entails.of_eq (held_V3 m d)) $$ Hheld
  icases H8 with ⟨Hx, Ht, -, -, -, -, -, Hr⟩
  rw [wp_pure]; imodintro
  isplitl [Hst]; · iexact Hst
  isplitl [Hx]; · iexact Hx
  isplitl [Ht]; · iexact Ht
  iexact Hr

end Cert.Proof.KI

end
-- ==== Proof.LayoutValue.lean ====
/-
  The kernel's data movement, composed, is the lookup. Word `(w, c, l)` of the re-laid index array sits at flat position
  `3328·w + 128·c + l` of the flattened transpose, and flat position `4096·f + b` of the flattened transpose is
  `x[b, f]`; entry `(b, f, k)` of the result is entry `k` of row `4096·f + b` of the gathered rows, and that row is
  the table row named by the word at flat position `4096·f + b` again: the word `x[b, f]`.
-/
import proofs.«206664_g71932112273502_cont_9to1_m_983_11_alg».proof.Proof.Layout
import proofs.«206664_g71932112273502_cont_9to1_m_983_11_alg».proof.Proof.Spec
import Idealize.ShloMosaic.Lib.Pipeline.Value

noncomputable section

namespace Cert.Layout

open Idealize.ShloMosaic Idealize.ShloMosaic.ValueIdx
open Cert.Spec (SX ST SO)

/-- The re-laid index array at `(w, c, l)` is `x[b, f]` whenever the flat positions agree:
    `3328·w + 128·c + l = 4096·f + b`. -/
theorem idx3Of_ix3 (x : IVec SX 32) (w : Fin 32) (c : Fin 26) (l : Fin 128) (b : Fin 4096) (f : Fin 26)
    (hp : 3328 * w.val + 128 * c.val + l.val = 4096 * f.val + b.val) :
    idx3Of x (ix3 w c l) = x (ix2 b f) := by
  unfold idx3Of
  refine (shapeCast_apply _ _ (ix3 w c l) (ix1 (n := 106496) ⟨4096 * f.val + b.val, by omega⟩) ?_).trans ?_
  · rw [Shape.rowMajor_val_one, Shape.rowMajor_val_three]
    show 4096 * f.val + b.val = (w.val * 26 + c.val) * 128 + l.val
    omega
  refine (shapeCast_apply _ _ (ix1 (n := 106496) ⟨4096 * f.val + b.val, by omega⟩) (ix2 f b) ?_).trans ?_
  · rw [Shape.rowMajor_val_two, Shape.rowMajor_val_one]
    show f.val * 4096 + b.val = 4096 * f.val + b.val
    omega
  exact transpose_apply _ x _ (ix2 f b) (ix2 b f) fun a => match a with | ⟨0, _⟩ => rfl | ⟨1, _⟩ => rfl

/-- Every word of the re-laid index array is a word of `x`: in range where `x` is. -/
theorem idx3Of_lt {x : IVec Cert.Spec.SX 32} (h : Cert.Spec.InRange x) : ∀ j, (idx3Of x j).toNat < 100000 := by
  intro j
  obtain ⟨w, c, l, rfl⟩ : ∃ (w : Fin 32) (c : Fin 26) (l : Fin 128), j = ix3 w c l := ⟨j 0, j 1, j 2, eq_ix3 j⟩
  have hw := w.isLt
  have hc := c.isLt
  have hl := l.isLt
  rw [idx3Of_ix3 x w c l ⟨(3328 * w.val + 128 * c.val + l.val) % 4096, Nat.mod_lt _ (by decide)⟩
    ⟨(3328 * w.val + 128 * c.val + l.val) / 4096, by omega⟩ (by show _ = 4096 * (_ / 4096) + _ % 4096; omega)]
  exact h _

/-- The result at `(b, f, k)` is entry `k` of row `4096·f + b` of the gathered rows. -/
theorem resOf_ix3 {α : Type} (o : SG.Idx → α) (b : Fin 4096) (f : Fin 26) (k : Fin 128) :
    resOf o (ix3 b f k) = o (ix2 (n0 := 106496) ⟨4096 * f.val + b.val, by omega⟩ k) := by
  unfold resOf
  refine (transpose_apply _ _ _ (ix3 b f k) (ix3 f b k)
    fun a => match a with | ⟨0, _⟩ => rfl | ⟨1, _⟩ => rfl | ⟨2, _⟩ => rfl).trans ?_
  refine shapeCast_apply _ _ (ix3 f b k) (ix2 (n0 := 106496) ⟨4096 * f.val + b.val, by omega⟩ k) ?_
  rw [Shape.rowMajor_val_two, Shape.rowMajor_val_three]
  show (4096 * f.val + b.val) * 128 + k.val = (f.val * 4096 + b.val) * 128 + k.val
  omega

/-- The three movements composed are the lookup. -/
theorem resOf_outOf {α : Type} {x : IVec Cert.Spec.SX 32} (h : Cert.Spec.InRange x) (t : Cert.Spec.ST.Idx → α) :
    resOf (outOf (idx3Of x) t) = Cert.Spec.lookup x t := by
  funext i
  obtain ⟨b, f, k, rfl⟩ : ∃ (b : Fin 4096) (f : Fin 26) (k : Fin 128), i = ix3 b f k := ⟨i 0, i 1, i 2, eq_ix3 i⟩
  have hb := b.isLt
  have hf := f.isLt
  rw [resOf_ix3, Cert.Spec.lookup_ix3]
  have e : idx3Of x (ix3 (n0 := 32) (n1 := 26) (n2 := 128) ⟨(4096 * f.val + b.val) / 3328, by omega⟩
      ⟨(4096 * f.val + b.val) % 3328 / 128, by omega⟩ ⟨(4096 * f.val + b.val) % 128, by omega⟩) = x (ix2 b f) :=
    idx3Of_ix3 x _ _ _ b f (by
      show 3328 * ((4096 * f.val + b.val) / 3328) + 128 * ((4096 * f.val + b.val) % 3328 / 128)
        + (4096 * f.val + b.val) % 128 = 4096 * f.val + b.val
      omega)
  exact congrArg (fun v : BitVec 32 => t (ix2 (n0 := 100000) ⟨v.toNat % 100000, Nat.mod_lt _ (by decide)⟩ k)) e

end Cert.Layout

end
-- ==== Proof.KiLaunch.lean ====
/-
  The launch: each task's obligation from the body run at its grid point, the split of a SparseCore's operands
  among its tasks (the handshake already carries them task by task), the launch element, what the final memory
  holds, and the program's run with the result named.
-/
import proofs.«206664_g71932112273502_cont_9to1_m_983_11_alg».proof.Proof.KiBody
import proofs.«206664_g71932112273502_cont_9to1_m_983_11_alg».proof.Proof.KiMain
import proofs.«206664_g71932112273502_cont_9to1_m_983_11_alg».proof.Proof.LayoutValue

noncomputable section

namespace Cert.Proof.KI

open Cert.KernelIdeal Cert.KernelIdeal.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v2_scv : Memref Cert.KernelIdeal.sig Kind.scVector Space.hbm Cert.KernelIdeal.S32x26x128 EltTy.i32)
local notation "oV" => (Memref.whole Cert.KernelIdeal.main_v3_scv : Memref Cert.KernelIdeal.sig Kind.scVector Space.hbm Cert.KernelIdeal.S106496x128 EltTy.f32)
local notation "sI" => (Memref.whole Cert.KernelIdeal.cc0_scratch0 : Memref Cert.KernelIdeal.sig Kind.scVector Space.vmem Cert.KernelIdeal.S26x128 EltTy.i32)
local notation "bA" => (Memref.whole Cert.KernelIdeal.cc0_scratch1 : Memref Cert.KernelIdeal.sig Kind.scVector Space.vmem Cert.KernelIdeal.S128x128 EltTy.f32)
local notation "bB" => (Memref.whole Cert.KernelIdeal.cc0_scratch2 : Memref Cert.KernelIdeal.sig Kind.scVector Space.vmem Cert.KernelIdeal.S128x128 EltTy.f32)
local notation "bC" => (Memref.whole Cert.KernelIdeal.cc0_scratch3 : Memref Cert.KernelIdeal.sig Kind.scVector Space.vmem Cert.KernelIdeal.S128x128 EltTy.f32)
local notation "bD" => (Memref.whole Cert.KernelIdeal.cc0_scratch4 : Memref Cert.KernelIdeal.sig Kind.scVector Space.vmem Cert.KernelIdeal.S128x128 EltTy.f32)

variable (m : (ℓ : Loc nD τ sig) → Buf (Elt F) ℓ) (ρ : Dev nD → PrngReg)

/-- What the proof asks of the launch memory: every index word names a row of the table. -/
def PreOK : Prop := ∀ d : Dev nD, Cert.Spec.InRange (m (xLoc d))

variable [FloatOps F]

/-! ## The obligation -/

theorem defs₀_vector (c : Fin τ.nSC) (s : Fin τ.nSub) :
    defs₀ (F := F) (.scVector c s) 0 ()
      = SparseCore.onTile hcore0 hsub0 (fun c s => cc0__emb_body (coordsV c s)
          tV (Memref.isWhole_whole _) iV (Memref.isWhole_whole _) oV (Memref.isWhole_whole _)
          sI (Memref.isWhole_whole _) bA (Memref.isWhole_whole _) bB (Memref.isWhole_whole _) bC (Memref.isWhole_whole _) bD (Memref.isWhole_whole _)
          cc0_scratch5 cc0_scratch6 cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (tLoc d)) (I3m m d) (m (oLoc d)) hF (tq ⟨_, hci.1⟩ ⟨_, hci.2⟩)
    (Cert.Layout.idx3Of_lt (hpre d)) O W hO).trans (wp_mono frame _ _ fun _ => obl_post)

/-! ## A SparseCore's operands are its tasks' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => taskPts m d (Fin.cast nCore_zero c) s (m (oLoc d))) ⊢ |={Set.univ}=> iprop(
      (bigSep Finset.univ fun i : Fin ((K (F := F)).nSub 0) => taskPts m d (Fin.cast nCore_zero c) (Fin.cast nSub_zero i) (m (oLoc d)))
      ∗ ((bigSep Finset.univ fun i : Fin ((K (F := F)).nSub 0) => taskPts m d (Fin.cast nCore_zero c) (Fin.cast nSub_zero i) (OUTm m d))
          -∗ bigSep Finset.univ fun s : Fin 16 => taskPts m d (Fin.cast nCore_zero c) s (OUTm m d)))
  rw [bigSep_tasks (F := F) (fun s => taskPts m d (Fin.cast nCore_zero c) s (m (oLoc d))),
    bigSep_tasks (F := F) (fun s => taskPts m d (Fin.cast nCore_zero c) s (OUTm m d))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What the final memory holds -/

def fq (d : Dev nD) (s' : Phys nD τ sig (Elt F)) : Prop :=
  s'.mem.mem (xLoc d) = m (xLoc d) ∧ s'.mem.mem (tLoc d) = m (tLoc d) ∧ s'.mem.mem (rLoc d) = Rm m d

set_option maxRecDepth 16384 in
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := Rm m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Every weakly fair execution ends with the index array and the table as launched and the result at the
    layout's term of them. -/
def QC : PUnit × MemSt nD τ sig (Elt F) → Prop := fun r =>
  ∀ c : Dev nD, r.2.mem (xLoc c) = m (xLoc c) ∧ r.2.mem (tLoc c) = m (tLoc c) ∧ r.2.mem (rLoc c) = Rm m c

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KbCommon.lean ====
/-
  What the parts of the lookup kernel's proof share. The program as the launch theorem sees it: one SparseCore call
  on both SparseCores' sixteen vector subcores each, thirty-two tasks. The resource algebra: the handshakes' rounds beside the
  transfers' counters (every transfer of a task is local to its tile and waited by it, so no schedule is needed).
  The arrays a task touches: the table (read by every task at once: the full share halved five times, one leaf per
  task, halved twice more for the four row buffers' gathers in flight together), the index array re-laid as
  32 × 26 × 128 (task w reads its slab w), and the gathered rows 106496 × 128 (task w writes rows
  3328·w … 3328·w + 3327, in 26 chunks of 128 rows).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206664_g71932112273502_cont_9to1_m_983_11_alg».proof.Proof.Gen.Kernel
import proofs.«206664_g71932112273502_cont_9to1_m_983_11_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The index array as given, the table, the index array re-laid for the tasks, the gathered rows, and the two
    re-layouts of those that make the result: as locations of device `d`. -/
abbrev xLoc (d : Dev nD) : Loc nD τ sig := (SparseCore.T d).loc main_arg0
abbrev tLoc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3
abbrev v4Loc (d : Dev nD) : Loc nD τ sig := (SparseCore.T d).loc main_v4
abbrev rLoc (d : Dev nD) : Loc nD τ sig := (SparseCore.T d).loc main_v5

/-! ## Shares of the table: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

end Cert.Proof.KB

end
-- ==== Proof.KbTile.lean ====
/-
  One task of the lookup kernel, on vector subcore (L 0, L 1): its pieces of the arrays in the program's own spelling,
  what it leaves in the gathered-rows array as ONE whole-array function, and its own scratch and semaphores taken out
  of the subcore's scoped storage.
-/
import proofs.«206664_g71932112273502_cont_9to1_m_983_11_alg».proof.Proof.KbCommon
import Idealize.ShloMosaic.Lib.ValueIdx
import proofs.«206664_g71932112273502_cont_9to1_m_983_11_alg».proof.Proof.Layout

noncomputable section

namespace Cert.Proof.KB

open Cert.Kernel Cert.Kernel.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S100000x128 EltTy.f32)
local notation "iV" => (Memref.whole Cert.Kernel.main_v2_scv : Memref Cert.Kernel.sig Kind.scVector Space.hbm Cert.Kernel.S32x26x128 EltTy.i32)
local notation "oV" => (Memref.whole Cert.Kernel.main_v3_scv : Memref Cert.Kernel.sig Kind.scVector Space.hbm Cert.Kernel.S106496x128 EltTy.f32)
local notation "sI" => (Memref.whole Cert.Kernel.cc0_scratch0 : Memref Cert.Kernel.sig Kind.scVector Space.vmem Cert.Kernel.S26x128 EltTy.i32)
local notation "bA" => (Memref.whole Cert.Kernel.cc0_scratch1 : Memref Cert.Kernel.sig Kind.scVector Space.vmem Cert.Kernel.S128x128 EltTy.f32)
local notation "bB" => (Memref.whole Cert.Kernel.cc0_scratch2 : Memref Cert.Kernel.sig Kind.scVector Space.vmem Cert.Kernel.S128x128 EltTy.f32)
local notation "bC" => (Memref.whole Cert.Kernel.cc0_scratch3 : Memref Cert.Kernel.sig Kind.scVector Space.vmem Cert.Kernel.S128x128 EltTy.f32)
local notation "bD" => (Memref.whole Cert.Kernel.cc0_scratch4 : Memref Cert.Kernel.sig Kind.scVector Space.vmem Cert.Kernel.S128x128 EltTy.f32)

/-! ## The task's pieces -/

abbrev cV (L : grid0.Coords) : Fin τ.nSC := (L 0).castLE hcore0
abbrev jV (L : grid0.Coords) : Fin τ.nSub := (L 1).castLE hsub0

/-- Slab `2 · L 1 + L 0` of the re-laid index array, squeezed to 26 × 128: what the task fetches into its index scratch. -/
abbrev islabK (L : grid0.Coords) : Rect S32x26x128 := Rect.unit (s := S32x26x128) (k0_off1 L) S1x26x128.size (k0_off1_inb L)
abbrev iSlabK (L : grid0.Coords) : Memref sig .scVector .hbm S26x128 .i32 := ((iV).slice (islabK L) (fun _ => rfl)).squeeze S26x128 squeezes_S1x26x128_S26x128
/-- The whole table, as each gather names it (a slice that is everything). -/
abbrev tAllK : Memref sig .scVector .hbm S100000x128 .f32 := (tV).slice (Rect.unit (s := S100000x128) ![0, 0] S100000x128.size inb_S100000x128_S100000x128_0_0) (fun _ => rfl)
/-- Chunk `r` of the task's rows of the gathered-rows array: 128 rows from `3328 · (2 · L 1 + L 0) + 128 · r`. -/
abbrev oChK (L : grid0.Coords) (r : Fin 26) : Memref sig .scVector .hbm S128x128 .f32 :=
  (oV).slice (Rect.unit (s := S106496x128) (k0_off2 L (BitVec.ofNat 32 (128 * r.val))) S128x128.size (k0_off2_inb L r)) (fun _ => rfl)
/-- Row `r` of the index scratch as a list of 128 words: the offsets of gather `r`. -/
theorem offK_inb (r : Fin 26) : ∀ a, (![r.val, 0] : Fin 2 → Nat) a + S1x128.size a ≤ S26x128.size a := by
  intro a; have := r.isLt; fin_cases a <;> simp <;> omega
abbrev offK (r : Fin 26) : Memref sig .scVector .vmem S128 .i32 :=
  ((sI).slice (Rect.unit (s := S26x128) ![r.val, 0] S1x128.size (offK_inb r)) (fun _ => rfl)).squeeze S128 squeezes_S1x128_S128

/-! ## The subcore's own semaphores and scratch -/

section Tile

variable (d : Dev nD) (L : grid0.Coords)

abbrev cellOf (d : Dev nD) (L : grid0.Coords) (s : DmaSem sig) : GSem nD τ sig := (V d (cV L) (jV L), .dma s)

theorem cellOf_ne (d : Dev nD) (L : grid0.Coords) {a b : DmaSem sig} (h : a ≠ b) : cellOf d L a ≠ cellOf d L b :=
  fun e => h (SemLoc.dma.inj (Prod.mk.inj e).2)

set_option maxRecDepth 8192 in
/-- The nine DMA semaphores the task names are among the subcore's scoped cells: they, at zero, and the rest. -/
theorem ownSems0_V :
    (ownSems0 (V d (cV L) (jV L)) : sProp 𝕄)
      = iprop(semVal (cellOf d L cc0_scratch5.sem) 0 ∗ semVal (cellOf d L cc0_scratch6.sem) 0 ∗ semVal (cellOf d L cc0_scratch7.sem) 0 ∗ semVal (cellOf d L cc0_scratch8.sem) 0 ∗ semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scoped0.sem) 0 ∗ bigSep ((((((((((ownCells (V d (cV L) (jV L))).erase (cellOf d L cc0_scratch5.sem)).erase (cellOf d L cc0_scratch6.sem)).erase (cellOf d L cc0_scratch7.sem)).erase (cellOf d L cc0_scratch8.sem)).erase (cellOf d L cc0_scratch9.sem)).erase (cellOf d L cc0_scratch10.sem)).erase (cellOf d L cc0_scratch11.sem)).erase (cellOf d L cc0_scratch12.sem)).erase (cellOf d L cc0_scoped0.sem)) fun g => semVal g 0) := by
  unfold SparseCore.Cfg.ownSems0
  rw [SparseCore.bigSep_erase' ((mem_ownCells (g := (cellOf d L cc0_scratch5.sem))).mpr ⟨rfl, by show (SemLoc.dma cc0_scratch5.sem : SemLoc sig).isScoped .scVector = true; decide⟩),
    SparseCore.bigSep_erase' (Finset.mem_erase.mpr ⟨cellOf_ne d L (by decide), (mem_ownCells (g := (cellOf d L cc0_scratch6.sem))).mpr ⟨rfl, by show (SemLoc.dma cc0_scratch6.sem : SemLoc sig).isScoped .scVector = true; decide⟩⟩),
    SparseCore.bigSep_erase' (Finset.mem_erase.mpr ⟨cellOf_ne d L (by decide), Finset.mem_erase.mpr ⟨cellOf_ne d L (by decide), (mem_ownCells (g := (cellOf d L cc0_scratch7.sem))).mpr ⟨rfl, by show (SemLoc.dma cc0_scratch7.sem : SemLoc sig).isScoped .scVector = true; decide⟩⟩⟩),
    SparseCore.bigSep_erase' (Finset.mem_erase.mpr ⟨cellOf_ne d L (by decide), Finset.mem_erase.mpr ⟨cellOf_ne d L (by decide), Finset.mem_erase.mpr ⟨cellOf_ne d L (by decide), (mem_ownCells (g := (cellOf d L cc0_scratch8.sem))).mpr ⟨rfl, by show (SemLoc.dma cc0_scratch8.sem : SemLoc sig).isScoped .scVector = true; decide⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scratch9.sem))).mpr ⟨rfl, by show (SemLoc.dma cc0_scratch9.sem : SemLoc sig).isScoped .scVector = true; decide⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scratch10.sem))).mpr ⟨rfl, by show (SemLoc.dma cc0_scratch10.sem : SemLoc sig).isScoped .scVector = true; decide⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scratch11.sem))).mpr ⟨rfl, by show (SemLoc.dma cc0_scratch11.sem : SemLoc sig).isScoped .scVector = true; decide⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scratch12.sem))).mpr ⟨rfl, by show (SemLoc.dma cc0_scratch12.sem : SemLoc sig).isScoped .scVector = true; decide⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), (mem_ownCells (g := (cellOf d L cc0_scoped0.sem))).mpr ⟨rfl, by show (SemLoc.dma cc0_scoped0.sem : SemLoc sig).isScoped .scVector = true; decide⟩⟩⟩⟩⟩⟩⟩⟩⟩)]

set_option maxRecDepth 8192 in
/-- The five scratch buffers are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

end Tile

end Cert.Proof.KB

end
-- ==== Proof.KbChunk.lean ====
/-
  What one task leaves in one chunk of the gathered-rows array. Chunk `r` of task `L` is rows
  `off … off + 127` with `off = 6656·(L 1) + 3328·(L 0) + 128·r`; the task's one whole write puts there the gather's
  payload: row `y` of the payload is the table row named by word `(r, y)` of the task's index scratch, which holds
  slab `2·(L 1) + (L 0)` of the re-laid index array, so the word is word `(2·(L 1) + (L 0), r, y)` of that array — word
  `(ρ / 3328, ρ % 3328 / 128, ρ % 128)` for `ρ = off + y`. In range, the word's value is its own reduction mod 100000.
-/
import proofs.«206664_g71932112273502_cont_9to1_m_983_11_alg».proof.Proof.KbTile
import Idealize.ShloMosaic.Lib.Writes

noncomputable section

namespace Cert.Proof.KB

open Cert.Kernel Cert.Kernel.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S100000x128 EltTy.f32)
local notation "iV" => (Memref.whole Cert.Kernel.main_v2_scv : Memref Cert.Kernel.sig Kind.scVector Space.hbm Cert.Kernel.S32x26x128 EltTy.i32)
local notation "oV" => (Memref.whole Cert.Kernel.main_v3_scv : Memref Cert.Kernel.sig Kind.scVector Space.hbm Cert.Kernel.S106496x128 EltTy.f32)
local notation "sI" => (Memref.whole Cert.Kernel.cc0_scratch0 : Memref Cert.Kernel.sig Kind.scVector Space.vmem Cert.Kernel.S26x128 EltTy.i32)
local notation "bA" => (Memref.whole Cert.Kernel.cc0_scratch1 : Memref Cert.Kernel.sig Kind.scVector Space.vmem Cert.Kernel.S128x128 EltTy.f32)
local notation "bB" => (Memref.whole Cert.Kernel.cc0_scratch2 : Memref Cert.Kernel.sig Kind.scVector Space.vmem Cert.Kernel.S128x128 EltTy.f32)
local notation "bC" => (Memref.whole Cert.Kernel.cc0_scratch3 : Memref Cert.Kernel.sig Kind.scVector Space.vmem Cert.Kernel.S128x128 EltTy.f32)
local notation "bD" => (Memref.whole Cert.Kernel.cc0_scratch4 : Memref Cert.Kernel.sig Kind.scVector Space.vmem Cert.Kernel.S128x128 EltTy.f32)

/-! ## Reads through the task's views -/

/-- The task's slab read at `(a, b)` is the re-laid index array at `(2·(L 1) + (L 0), a, b)`. -/
theorem read_iSlabK (d : Dev nD) (L : grid0.Coords) (I3 : Buf (Elt F) (iLoc d)) (z : S26x128.Idx) :
    (iSlabK L).view.read (Elt F) I3 z
      = I3 (ix3 (n0 := 32) (n1 := 26) (n2 := 128) ⟨2 * (L 1).val + (L 0).val, by have h0 : (L 0).val < 2 := (L 0).isLt; have h1 : (L 1).val < 16 := (L 1).isLt; omega⟩
          ⟨(z 0).val, (z 0).isLt⟩ ⟨(z 1).val, (z 1).isLt⟩) := by
  have hz : Shape.reshapeEquiv squeezes_S1x26x128_S26x128.numel_eq z
      = ix3 (n0 := 1) (n1 := 26) (n2 := 128) 0 ⟨(z 0).val, (z 0).isLt⟩ ⟨(z 1).val, (z 1).isLt⟩ :=
    Shape.reshapeEquiv_eq_of_rowMajor _ (by
      rw [Shape.rowMajor_val_three, Shape.rowMajor_val_two]
      show (0 * 26 + (z 0).val) * 128 + (z 1).val = (z 0).val * 128 + (z 1).val
      omega)
  show I3 ((islabK L).emb (Shape.reshapeEquiv squeezes_S1x26x128_S26x128.numel_eq z)) = _
  rw [hz]
  refine congrArg I3 (funext fun a => Fin.ext ?_)
  rw [Rect.emb_apply]
  show k0_off1 L a + 1 * _ = _
  rw [k0_off1_eq]
  match a with
  | ⟨0, _⟩ => show 2 * (L 1).val + (L 0).val + 1 * 0 = 2 * (L 1).val + (L 0).val; omega
  | ⟨1, _⟩ => show 0 + 1 * (z 0).val = (z 0).val; omega
  | ⟨2, _⟩ => show 0 + 1 * (z 1).val = (z 1).val; omega

/-- Row `r` of the index scratch, as the list of gather `r`'s offsets, read at `x` is the scratch at `(r, x)`. -/
theorem read_offK (d : Dev nD) (L : grid0.Coords) (r : Fin 26) (FI : Buf (Elt F) ((V d (cV L) (jV L)).loc cc0_scratch0)) (x : S128.Idx) :
    (offK r).view.read (Elt F) FI x = FI (ix2 (n0 := 26) (n1 := 128) r ⟨(x 0).val, (x 0).isLt⟩) := by
  have hx : Shape.reshapeEquiv squeezes_S1x128_S128.numel_eq x = ix2 (n0 := 1) (n1 := 128) 0 ⟨(x 0).val, (x 0).isLt⟩ :=
    Shape.reshapeEquiv_eq_of_rowMajor _ (by
      rw [Shape.rowMajor_val_two, Shape.rowMajor_val_one]
      show 0 * 128 + (x 0).val = (x 0).val
      omega)
  show FI ((Rect.unit (s := S26x128) ![r.val, 0] S1x128.size (offK_inb r)).emb (Shape.reshapeEquiv squeezes_S1x128_S128.numel_eq x)) = _
  rw [hx]
  refine congrArg FI (funext fun a => Fin.ext ?_)
  rw [Rect.emb_apply]
  match a with
  | ⟨0, _⟩ => show r.val + 1 * 0 = r.val; omega
  | ⟨1, _⟩ => show 0 + 1 * (x 0).val = (x 0).val; omega

/-- The table read through the slice that is everything is the table. -/
theorem read_tAllK (d : Dev nD) (TB : Buf (Elt F) (tLoc d)) (j : S100000x128.Idx) :
    (tAllK).view.read (Elt F) TB j = TB j := by
  show TB ((Rect.unit (s := S100000x128) ![0, 0] S100000x128.size inb_S100000x128_S100000x128_0_0).emb j) = _
  refine congrArg TB (funext fun a => Fin.ext ?_)
  rw [Rect.emb_apply]
  match a with
  | ⟨0, _⟩ => show 0 + 1 * (j 0).val = (j 0).val; omega
  | ⟨1, _⟩ => show 0 + 1 * (j 1).val = (j 1).val; omega

/-- The row the offset list names for lane `k`: the value of word `(r, k)` of the index scratch. -/
theorem rows_offK_val (d : Dev nD) (L : grid0.Coords) (r : Fin 26) (FI : Buf (Elt F) ((V d (cV L) (jV L)).loc cc0_scratch0))
    (hin : ∀ x, ((offK r).view.read (Elt F) FI x).toNat < S100000x128.size gathers_S100000x128_S128x128.axis)
    (k : Fin (S128x128.size gathers_S100000x128_S128x128.axis')) :
    (SparseCore.rows ((offK r).view.read (Elt F) FI) rfl hin k).val
      = (FI (ix2 (n0 := 26) (n1 := 128) r ⟨k.val, k.isLt⟩)).toNat := by
  unfold SparseCore.rows
  show ((offK r).view.read (Elt F) FI _).toNat = _
  rw [read_offK]
  refine congrArg (fun j => (FI j).toNat) (funext fun b => Fin.ext ?_)
  match b with
  | ⟨0, _⟩ => rfl
  | ⟨1, _⟩ =>
    refine (Shape.rowMajor_val_one _).symm.trans ?_
    rw [Equiv.apply_symm_apply]
    rfl

/-- Word `(w, c, l)` of an in-range re-laid index array, by its flat position `ρ = 3328·w + 128·c + l`: its value is its
    own reduction mod 100000. -/
theorem word_at_flat (I3 : S32x26x128.Idx → BitVec 32) (hI : ∀ j, (I3 j).toNat < 100000) (w : Fin 32) (c : Fin 26) (l : Fin 128)
    (ρ : Nat) (h : ρ = 3328 * w.val + 128 * c.val + l.val) (p0 : ρ / 3328 < 32) (p1 : ρ % 3328 / 128 < 26) (p2 : ρ % 128 < 128) :
    (I3 (ix3 w c l)).toNat = (I3 (ix3 (n0 := 32) (n1 := 26) (n2 := 128) ⟨ρ / 3328, p0⟩ ⟨ρ % 3328 / 128, p1⟩ ⟨ρ % 128, p2⟩)).toNat % 100000 := by
  rw [Nat.mod_eq_of_lt (hI _)]
  refine congrArg (fun j => (I3 j).toNat) (funext fun b => Fin.ext ?_)
  have hw := w.isLt
  have hc := c.isLt
  have hl := l.isLt
  match b with
  | ⟨0, _⟩ => show w.val = ρ / 3328; omega
  | ⟨1, _⟩ => show c.val = ρ % 3328 / 128; omega
  | ⟨2, _⟩ => show l.val = ρ % 128; omega

/-! ## The chunk -/

/-- Chunk `r` of task `L`, as a rectangle of the gathered-rows array. -/
abbrev chunkRect (L : grid0.Coords) (r : Fin 26) : Rect S106496x128 :=
  Rect.unit (s := S106496x128) (k0_off2 L (BitVec.ofNat 32 (128 * r.val))) S128x128.size (k0_off2_inb L r)

/-- The chunk as the task names it is the rectangle's elements. -/
theorem chunk_set (L : grid0.Coords) (r : Fin 26) : (oChK L r).view.set = (chunkRect L r).set := by
  show ((View.whole (main_v3_scv : Ref sig .scVector)).slice (chunkRect L r)).set = _
  rw [View.set_slice]; exact Finset.map_refl

/-- An element of the chunk is the chunk's own index `(ρ − off, k)` embedded. -/
theorem chunk_emb (L : grid0.Coords) (r : Fin 26) (i : S106496x128.Idx) (hi : i ∈ (chunkRect L r).set) :
    ∃ y : S128x128.Idx, i = (oChK L r).view.emb y
      ∧ (i 0).val = 6656 * (L 1).val + 3328 * (L 0).val + 128 * r.val + (y 0).val ∧ (y 1).val = (i 1).val := by
  have hm := Rect.mem_set_unit.mp hi
  rw [k0_off2_eq] at hm
  have h0 : 6656 * (L 1).val + 3328 * (L 0).val + 128 * r.val ≤ (i 0).val
      ∧ (i 0).val < 6656 * (L 1).val + 3328 * (L 0).val + 128 * r.val + 128 := hm 0
  have h1 : 0 ≤ (i 1).val ∧ (i 1).val < 0 + 128 := hm 1
  refine ⟨ix2 (n0 := 128) (n1 := 128) ⟨(i 0).val - (6656 * (L 1).val + 3328 * (L 0).val + 128 * r.val), by omega⟩
    ⟨(i 1).val, by omega⟩, ?_, ?_, rfl⟩
  · funext a
    refine Fin.ext ?_
    show (i a).val = ((chunkRect L r).emb _ a : Nat)
    rw [Rect.emb_apply]
    show (i a).val = k0_off2 L (BitVec.ofNat 32 (128 * r.val)) a + 1 * _
    rw [k0_off2_eq]
    match a with
    | ⟨0, _⟩ =>
      show (i 0).val = 6656 * (L 1).val + 3328 * (L 0).val + 128 * r.val
        + 1 * ((i 0).val - (6656 * (L 1).val + 3328 * (L 0).val + 128 * r.val))
      omega
    | ⟨1, _⟩ => show (i 1).val = 0 + 1 * (i 1).val; omega
  · show (i 0).val = 6656 * (L 1).val + 3328 * (L 0).val + 128 * r.val
      + ((i 0).val - (6656 * (L 1).val + 3328 * (L 0).val + 128 * r.val))
    omega

theorem chunk_value (d : Dev nD) (L : grid0.Coords) (TB : Buf (Elt F) (tLoc d)) (I3 : Buf (Elt F) (iLoc d)) (O0 : Buf (Elt F) (oLoc d))
    (hI : ∀ j, (I3 j).toNat < 100000)
    (FI : Buf (Elt F) ((V d (cV L) (jV L)).loc cc0_scratch0)) (hFI : FI = (iSlabK L).view.read (Elt F) I3) (r : Fin 26)
    (hin : ∀ x, ((offK r).view.read (Elt F) FI x).toNat < S100000x128.size gathers_S100000x128_S128x128.axis)
    (G : S128x128.Idx → Elt F .f32)
    (hG : G = SparseCore.gatherPayload gathers_S100000x128_S128x128 ((tAllK).view.read (Elt F) TB) (SparseCore.rows ((offK r).view.read (Elt F) FI) rfl hin)) :
    ∀ i ∈ (oChK L r).view.set, (oChK L r).view.writes (Elt F) O0 [⟨Rect.whole S128x128, G⟩] i = outOf I3 TB i := by
  intro i hi
  rw [chunk_set] at hi
  obtain ⟨y, hiy, hy0, hy1⟩ := chunk_emb L r i hi
  have hL0 : (L 0).val < 2 := (L 0).isLt
  have hL1 : (L 1).val < 16 := (L 1).isLt
  have hr := r.isLt
  have hyl : (y 0).val < 128 := (y 0).isLt
  have hL : (oChK L r).view.writes (Elt F) O0 [⟨Rect.whole S128x128, G⟩] i = G y := by
    rw [hiy]
    have h := View.read_writes_cons_emb (oChK L r).view O0 (Rect.whole S128x128) G [] y
    rw [Rect.emb_whole_apply] at h
    exact h
  rw [hL, hG]
  unfold SparseCore.gatherPayload
  rw [read_tAllK]
  unfold Cert.Layout.outOf
  refine congrArg TB (funext fun a => Fin.ext ?_)
  match a with
  | ⟨0, _⟩ =>
    show ((gathers_S100000x128_S128x128.idx (SparseCore.rows ((offK r).view.read (Elt F) FI) rfl hin) y)
      gathers_S100000x128_S128x128.axis).val = _
    rw [Shape.Gathers.idx_axis]
    refine (rows_offK_val d L r FI hin _).trans ?_
    rw [hFI, read_iSlabK]
    have hρ : (i 0).val < 106496 := (i 0).isLt
    exact word_at_flat I3 hI ⟨2 * (L 1).val + (L 0).val, by omega⟩ r ⟨(y 0).val, hyl⟩ (i 0).val (by show _ = 3328 * (2 * (L 1).val + (L 0).val) + 128 * r.val + (y 0).val; omega)
      (by omega) (by omega) (by omega)
  | ⟨1, _⟩ =>
    refine (Shape.Gathers.idx_of_ne gathers_S100000x128_S128x128 _ y ⟨1, _⟩ Nat.one_ne_zero).trans ?_
    exact hy1

end Cert.Proof.KB

end
-- ==== Proof.KbBody.lean ====
/-
  The body of one task, run once at a symbolic vector subcore. The task fetches its slab of the re-laid index
  array into its index scratch; then, chunk after chunk, gathers the 128 table rows the chunk's index row names into
  one of four row buffers and copies the buffer out to the chunk's rows of the gathered-rows array — up to four
  gathers in flight, each on its buffer's own semaphore, each buffer's copy-out waited before the buffer is gathered
  into again. Every transfer is local to the tile and waited by it. What each chunk ends at is the lookup's whole-array
  function of the table and the re-laid index array (the per-chunk value lemma), so the twenty-six chunks come back
  at ONE function.
-/
import proofs.«206664_g71932112273502_cont_9to1_m_983_11_alg».proof.Proof.KbChunk
import proofs.«206664_g71932112273502_cont_9to1_m_983_11_alg».proof.Proof.LibWholeWrites

noncomputable section

namespace Cert.Proof.KB

open Cert.Kernel Cert.Kernel.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S100000x128 EltTy.f32)
local notation "iV" => (Memref.whole Cert.Kernel.main_v2_scv : Memref Cert.Kernel.sig Kind.scVector Space.hbm Cert.Kernel.S32x26x128 EltTy.i32)
local notation "oV" => (Memref.whole Cert.Kernel.main_v3_scv : Memref Cert.Kernel.sig Kind.scVector Space.hbm Cert.Kernel.S106496x128 EltTy.f32)
local notation "sI" => (Memref.whole Cert.Kernel.cc0_scratch0 : Memref Cert.Kernel.sig Kind.scVector Space.vmem Cert.Kernel.S26x128 EltTy.i32)
local notation "bA" => (Memref.whole Cert.Kernel.cc0_scratch1 : Memref Cert.Kernel.sig Kind.scVector Space.vmem Cert.Kernel.S128x128 EltTy.f32)
local notation "bB" => (Memref.whole Cert.Kernel.cc0_scratch2 : Memref Cert.Kernel.sig Kind.scVector Space.vmem Cert.Kernel.S128x128 EltTy.f32)
local notation "bC" => (Memref.whole Cert.Kernel.cc0_scratch3 : Memref Cert.Kernel.sig Kind.scVector Space.vmem Cert.Kernel.S128x128 EltTy.f32)
local notation "bD" => (Memref.whole Cert.Kernel.cc0_scratch4 : Memref Cert.Kernel.sig Kind.scVector Space.vmem Cert.Kernel.S128x128 EltTy.f32)

theorem univ26 : (Finset.univ : Finset (Fin 26)) = {0, 1, 2, 3, 4, 5, 6, 7, 8, 9, 10, 11, 12, 13, 14, 15, 16, 17, 18, 19, 20, 21, 22, 23, 24, 25} := by decide

/-- A family over the twenty-six chunks, written out. -/
theorem bigSep_fin26 (Φ : Fin 26 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) := by
  rw [univ26, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The program's own spellings of the twenty-six offset lists and output chunks -/

abbrev offL0 : Memref sig .scVector .vmem S128 .i32 := ((sI).slice (Rect.unit (s := S26x128) ![0, 0] S1x128.size inb_S26x128_S1x128_0_0) (fun _ => rfl)).squeeze S128 squeezes_S1x128_S128
abbrev offL1 : Memref sig .scVector .vmem S128 .i32 := ((sI).slice (Rect.unit (s := S26x128) ![1, 0] S1x128.size inb_S26x128_S1x128_1_0) (fun _ => rfl)).squeeze S128 squeezes_S1x128_S128
abbrev offL2 : Memref sig .scVector .vmem S128 .i32 := ((sI).slice (Rect.unit (s := S26x128) ![2, 0] S1x128.size inb_S26x128_S1x128_2_0) (fun _ => rfl)).squeeze S128 squeezes_S1x128_S128
abbrev offL3 : Memref sig .scVector .vmem S128 .i32 := ((sI).slice (Rect.unit (s := S26x128) ![3, 0] S1x128.size inb_S26x128_S1x128_3_0) (fun _ => rfl)).squeeze S128 squeezes_S1x128_S128
abbrev offL4 : Memref sig .scVector .vmem S128 .i32 := ((sI).slice (Rect.unit (s := S26x128) ![4, 0] S1x128.size inb_S26x128_S1x128_4_0) (fun _ => rfl)).squeeze S128 squeezes_S1x128_S128
abbrev offL5 : Memref sig .scVector .vmem S128 .i32 := ((sI).slice (Rect.unit (s := S26x128) ![5, 0] S1x128.size inb_S26x128_S1x128_5_0) (fun _ => rfl)).squeeze S128 squeezes_S1x128_S128
abbrev offL6 : Memref sig .scVector .vmem S128 .i32 := ((sI).slice (Rect.unit (s := S26x128) ![6, 0] S1x128.size inb_S26x128_S1x128_6_0) (fun _ => rfl)).squeeze S128 squeezes_S1x128_S128
abbrev offL7 : Memref sig .scVector .vmem S128 .i32 := ((sI).slice (Rect.unit (s := S26x128) ![7, 0] S1x128.size inb_S26x128_S1x128_7_0) (fun _ => rfl)).squeeze S128 squeezes_S1x128_S128
abbrev offL8 : Memref sig .scVector .vmem S128 .i32 := ((sI).slice (Rect.unit (s := S26x128) ![8, 0] S1x128.size inb_S26x128_S1x128_8_0) (fun _ => rfl)).squeeze S128 squeezes_S1x128_S128
abbrev offL9 : Memref sig .scVector .vmem S128 .i32 := ((sI).slice (Rect.unit (s := S26x128) ![9, 0] S1x128.size inb_S26x128_S1x128_9_0) (fun _ => rfl)).squeeze S128 squeezes_S1x128_S128
abbrev offL10 : Memref sig .scVector .vmem S128 .i32 := ((sI).slice (Rect.unit (s := S26x128) ![10, 0] S1x128.size inb_S26x128_S1x128_10_0) (fun _ => rfl)).squeeze S128 squeezes_S1x128_S128
abbrev offL11 : Memref sig .scVector .vmem S128 .i32 := ((sI).slice (Rect.unit (s := S26x128) ![11, 0] S1x128.size inb_S26x128_S1x128_11_0) (fun _ => rfl)).squeeze S128 squeezes_S1x128_S128
abbrev offL12 : Memref sig .scVector .vmem S128 .i32 := ((sI).slice (Rect.unit (s := S26x128) ![12, 0] S1x128.size inb_S26x128_S1x128_12_0) (fun _ => rfl)).squeeze S128 squeezes_S1x128_S128
abbrev offL13 : Memref sig .scVector .vmem S128 .i32 := ((sI).slice (Rect.unit (s := S26x128) ![13, 0] S1x128.size inb_S26x128_S1x128_13_0) (fun _ => rfl)).squeeze S128 squeezes_S1x128_S128
abbrev offL14 : Memref sig .scVector .vmem S128 .i32 := ((sI).slice (Rect.unit (s := S26x128) ![14, 0] S1x128.size inb_S26x128_S1x128_14_0) (fun _ => rfl)).squeeze S128 squeezes_S1x128_S128
abbrev offL15 : Memref sig .scVector .vmem S128 .i32 := ((sI).slice (Rect.unit (s := S26x128) ![15, 0] S1x128.size inb_S26x128_S1x128_15_0) (fun _ => rfl)).squeeze S128 squeezes_S1x128_S128
abbrev offL16 : Memref sig .scVector .vmem S128 .i32 := ((sI).slice (Rect.unit (s := S26x128) ![16, 0] S1x128.size inb_S26x128_S1x128_16_0) (fun _ => rfl)).squeeze S128 squeezes_S1x128_S128
abbrev offL17 : Memref sig .scVector .vmem S128 .i32 := ((sI).slice (Rect.unit (s := S26x128) ![17, 0] S1x128.size inb_S26x128_S1x128_17_0) (fun _ => rfl)).squeeze S128 squeezes_S1x128_S128
abbrev offL18 : Memref sig .scVector .vmem S128 .i32 := ((sI).slice (Rect.unit (s := S26x128) ![18, 0] S1x128.size inb_S26x128_S1x128_18_0) (fun _ => rfl)).squeeze S128 squeezes_S1x128_S128
abbrev offL19 : Memref sig .scVector .vmem S128 .i32 := ((sI).slice (Rect.unit (s := S26x128) ![19, 0] S1x128.size inb_S26x128_S1x128_19_0) (fun _ => rfl)).squeeze S128 squeezes_S1x128_S128
abbrev offL20 : Memref sig .scVector .vmem S128 .i32 := ((sI).slice (Rect.unit (s := S26x128) ![20, 0] S1x128.size inb_S26x128_S1x128_20_0) (fun _ => rfl)).squeeze S128 squeezes_S1x128_S128
abbrev offL21 : Memref sig .scVector .vmem S128 .i32 := ((sI).slice (Rect.unit (s := S26x128) ![21, 0] S1x128.size inb_S26x128_S1x128_21_0) (fun _ => rfl)).squeeze S128 squeezes_S1x128_S128
abbrev offL22 : Memref sig .scVector .vmem S128 .i32 := ((sI).slice (Rect.unit (s := S26x128) ![22, 0] S1x128.size inb_S26x128_S1x128_22_0) (fun _ => rfl)).squeeze S128 squeezes_S1x128_S128
abbrev offL23 : Memref sig .scVector .vmem S128 .i32 := ((sI).slice (Rect.unit (s := S26x128) ![23, 0] S1x128.size inb_S26x128_S1x128_23_0) (fun _ => rfl)).squeeze S128 squeezes_S1x128_S128
abbrev offL24 : Memref sig .scVector .vmem S128 .i32 := ((sI).slice (Rect.unit (s := S26x128) ![24, 0] S1x128.size inb_S26x128_S1x128_24_0) (fun _ => rfl)).squeeze S128 squeezes_S1x128_S128
abbrev offL25 : Memref sig .scVector .vmem S128 .i32 := ((sI).slice (Rect.unit (s := S26x128) ![25, 0] S1x128.size inb_S26x128_S1x128_25_0) (fun _ => rfl)).squeeze S128 squeezes_S1x128_S128
abbrev oChL0 (L : grid0.Coords) : Memref sig .scVector .hbm S128x128 .f32 := (oV).slice (Rect.unit (s := S106496x128) (k0_off2 L 0#32) S128x128.size (k0_off2_inb L 0)) (fun _ => rfl)
abbrev oChL1 (L : grid0.Coords) : Memref sig .scVector .hbm S128x128 .f32 := (oV).slice (Rect.unit (s := S106496x128) (k0_off2 L 128#32) S128x128.size (k0_off2_inb L 1)) (fun _ => rfl)
abbrev oChL2 (L : grid0.Coords) : Memref sig .scVector .hbm S128x128 .f32 := (oV).slice (Rect.unit (s := S106496x128) (k0_off2 L 256#32) S128x128.size (k0_off2_inb L 2)) (fun _ => rfl)
abbrev oChL3 (L : grid0.Coords) : Memref sig .scVector .hbm S128x128 .f32 := (oV).slice (Rect.unit (s := S106496x128) (k0_off2 L 384#32) S128x128.size (k0_off2_inb L 3)) (fun _ => rfl)
abbrev oChL4 (L : grid0.Coords) : Memref sig .scVector .hbm S128x128 .f32 := (oV).slice (Rect.unit (s := S106496x128) (k0_off2 L 512#32) S128x128.size (k0_off2_inb L 4)) (fun _ => rfl)
abbrev oChL5 (L : grid0.Coords) : Memref sig .scVector .hbm S128x128 .f32 := (oV).slice (Rect.unit (s := S106496x128) (k0_off2 L 640#32) S128x128.size (k0_off2_inb L 5)) (fun _ => rfl)
abbrev oChL6 (L : grid0.Coords) : Memref sig .scVector .hbm S128x128 .f32 := (oV).slice (Rect.unit (s := S106496x128) (k0_off2 L 768#32) S128x128.size (k0_off2_inb L 6)) (fun _ => rfl)
abbrev oChL7 (L : grid0.Coords) : Memref sig .scVector .hbm S128x128 .f32 := (oV).slice (Rect.unit (s := S106496x128) (k0_off2 L 896#32) S128x128.size (k0_off2_inb L 7)) (fun _ => rfl)
abbrev oChL8 (L : grid0.Coords) : Memref sig .scVector .hbm S128x128 .f32 := (oV).slice (Rect.unit (s := S106496x128) (k0_off2 L 1024#32) S128x128.size (k0_off2_inb L 8)) (fun _ => rfl)
abbrev oChL9 (L : grid0.Coords) : Memref sig .scVector .hbm S128x128 .f32 := (oV).slice (Rect.unit (s := S106496x128) (k0_off2 L 1152#32) S128x128.size (k0_off2_inb L 9)) (fun _ => rfl)
abbrev oChL10 (L : grid0.Coords) : Memref sig .scVector .hbm S128x128 .f32 := (oV).slice (Rect.unit (s := S106496x128) (k0_off2 L 1280#32) S128x128.size (k0_off2_inb L 10)) (fun _ => rfl)
abbrev oChL11 (L : grid0.Coords) : Memref sig .scVector .hbm S128x128 .f32 := (oV).slice (Rect.unit (s := S106496x128) (k0_off2 L 1408#32) S128x128.size (k0_off2_inb L 11)) (fun _ => rfl)
abbrev oChL12 (L : grid0.Coords) : Memref sig .scVector .hbm S128x128 .f32 := (oV).slice (Rect.unit (s := S106496x128) (k0_off2 L 1536#32) S128x128.size (k0_off2_inb L 12)) (fun _ => rfl)
abbrev oChL13 (L : grid0.Coords) : Memref sig .scVector .hbm S128x128 .f32 := (oV).slice (Rect.unit (s := S106496x128) (k0_off2 L 1664#32) S128x128.size (k0_off2_inb L 13)) (fun _ => rfl)
abbrev oChL14 (L : grid0.Coords) : Memref sig .scVector .hbm S128x128 .f32 := (oV).slice (Rect.unit (s := S106496x128) (k0_off2 L 1792#32) S128x128.size (k0_off2_inb L 14)) (fun _ => rfl)
abbrev oChL15 (L : grid0.Coords) : Memref sig .scVector .hbm S128x128 .f32 := (oV).slice (Rect.unit (s := S106496x128) (k0_off2 L 1920#32) S128x128.size (k0_off2_inb L 15)) (fun _ => rfl)
abbrev oChL16 (L : grid0.Coords) : Memref sig .scVector .hbm S128x128 .f32 := (oV).slice (Rect.unit (s := S106496x128) (k0_off2 L 2048#32) S128x128.size (k0_off2_inb L 16)) (fun _ => rfl)
abbrev oChL17 (L : grid0.Coords) : Memref sig .scVector .hbm S128x128 .f32 := (oV).slice (Rect.unit (s := S106496x128) (k0_off2 L 2176#32) S128x128.size (k0_off2_inb L 17)) (fun _ => rfl)
abbrev oChL18 (L : grid0.Coords) : Memref sig .scVector .hbm S128x128 .f32 := (oV).slice (Rect.unit (s := S106496x128) (k0_off2 L 2304#32) S128x128.size (k0_off2_inb L 18)) (fun _ => rfl)
abbrev oChL19 (L : grid0.Coords) : Memref sig .scVector .hbm S128x128 .f32 := (oV).slice (Rect.unit (s := S106496x128) (k0_off2 L 2432#32) S128x128.size (k0_off2_inb L 19)) (fun _ => rfl)
abbrev oChL20 (L : grid0.Coords) : Memref sig .scVector .hbm S128x128 .f32 := (oV).slice (Rect.unit (s := S106496x128) (k0_off2 L 2560#32) S128x128.size (k0_off2_inb L 20)) (fun _ => rfl)
abbrev oChL21 (L : grid0.Coords) : Memref sig .scVector .hbm S128x128 .f32 := (oV).slice (Rect.unit (s := S106496x128) (k0_off2 L 2688#32) S128x128.size (k0_off2_inb L 21)) (fun _ => rfl)
abbrev oChL22 (L : grid0.Coords) : Memref sig .scVector .hbm S128x128 .f32 := (oV).slice (Rect.unit (s := S106496x128) (k0_off2 L 2816#32) S128x128.size (k0_off2_inb L 22)) (fun _ => rfl)
abbrev oChL23 (L : grid0.Coords) : Memref sig .scVector .hbm S128x128 .f32 := (oV).slice (Rect.unit (s := S106496x128) (k0_off2 L 2944#32) S128x128.size (k0_off2_inb L 23)) (fun _ => rfl)
abbrev oChL24 (L : grid0.Coords) : Memref sig .scVector .hbm S128x128 .f32 := (oV).slice (Rect.unit (s := S106496x128) (k0_off2 L 3072#32) S128x128.size (k0_off2_inb L 24)) (fun _ => rfl)
abbrev oChL25 (L : grid0.Coords) : Memref sig .scVector .hbm S128x128 .f32 := (oV).slice (Rect.unit (s := S106496x128) (k0_off2 L 3200#32) S128x128.size (k0_off2_inb L 25)) (fun _ => rfl)

/-- Row `r` of the index scratch, as a set of its elements: the rectangle's. -/
abbrev rowRect (r : Fin 26) : Rect S26x128 := Rect.unit (s := S26x128) ![r.val, 0] S1x128.size (offK_inb r)
abbrev rowSet (r : Fin 26) : Finset S26x128.Idx := ((sI).view.slice (rowRect r)).set

theorem rowSet_eq (r : Fin 26) : rowSet r = (rowRect r).set := by
  show ((View.whole (cc0_scratch0 : Ref sig .scVector)).slice (rowRect r)).set = _
  rw [View.set_slice]; exact Finset.map_refl

theorem set_offK (r : Fin 26) : (offK r).view.set = rowSet r := by
  show (((sI).view.slice (rowRect r)).reshape S128 squeezes_S1x128_S128.numel_eq).set = ((sI).view.slice (rowRect r)).set
  rw [View.set_reshape]

theorem rows_disjoint : ∀ r ∈ (Finset.univ : Finset (Fin 26)), ∀ r' ∈ (Finset.univ : Finset (Fin 26)), r ≠ r' → Disjoint (rowSet r) (rowSet r') := by
  intro r _ r' _ h
  rw [rowSet_eq, rowSet_eq]
  refine Rect.unit_disjoint 0 ?_
  have : r.val ≠ r'.val := fun e => h (Fin.ext e)
  show r.val + 1 ≤ r'.val ∨ r'.val + 1 ≤ r.val
  omega

theorem rows_cover : (Finset.univ : Finset (Fin 26)).biUnion rowSet = Finset.univ := by
  ext i
  simp only [Finset.mem_biUnion, Finset.mem_univ, true_and, iff_true]
  refine ⟨⟨(i 0).val, (i 0).isLt⟩, ?_⟩
  rw [rowSet_eq, Rect.mem_set_unit]
  intro a
  match a with
  | ⟨0, _⟩ => exact ⟨le_refl _, Nat.lt_succ_self _⟩
  | ⟨1, _⟩ => exact ⟨Nat.zero_le _, by have h : (i 1).val < 128 := (i 1).isLt; show (i 1).val < 0 + 128; omega⟩

/-- The index scratch whole is its twenty-six rows. -/
theorem sI_rows (d : Dev nD) (c : Fin τ.nSC) (i : Fin τ.nSub) (f : Buf (Elt F) ((V d c i).loc cc0_scratch0)) :
    ((V d c i).loc cc0_scratch0 ↦{fullShare} f : sProp 𝕄) = bigSep Finset.univ fun r : Fin 26 => (V d c i).loc cc0_scratch0 ↦[rowSet r]{fullShare} f := by
  rw [← pointsTo_biUnion Finset.univ (ℓ := (V d c i).loc cc0_scratch0) rowSet rows_disjoint, rows_cover]; try rfl

/-- The offsets gather `r` reads are in range: what the index fetch landed in the scratch is the task's slab of the
    re-laid index array, each word below 100000. -/
theorem inb_of_range (d : Dev nD) (L : grid0.Coords) (I3 : Buf (Elt F) (iLoc d)) (hI : ∀ j, (I3 j).toNat < 100000)
    (fs : Buf (Elt F) ((V d (cV L) (jV L)).loc cc0_scratch0)) (pay : S26x128.Idx → Elt F .i32)
    (hpay : pay = (iSlabK L).view.read (Elt F) I3) (r : Fin 26) :
    ∀ x, ((offK r).view.read (Elt F) (View.write (Elt F) (sI).view fs pay Finset.univ) x).toNat < S100000x128.size gathers_S100000x128_S128x128.axis := by
  subst hpay; intro x
  rw [View.write_whole_univ]
  rw [show ∀ (g : S26x128.Idx → Elt F .i32) y, (offK r).view.read (Elt F) g y = g ((offK r).view.emb y) from fun g y => (View.read_apply _ _).trans (cast_eq _ _)]
  rw [show ∀ j, (iSlabK L).view.read (Elt F) I3 j = I3 ((iSlabK L).view.emb j) from fun j => (View.read_apply _ _).trans (cast_eq _ _)]
  exact hI _

section Body

variable [FloatOps F] (d : Dev nD) (L : grid0.Coords)

/-- The task's slab of the re-laid index array, its share of the table, a chunk of its rows of the gathered-rows array. -/
abbrev iPc (I3 : Buf (Elt F) (iLoc d)) : sProp 𝕄 := iLoc d ↦[(iSlabK L).view.set]{fullShare} I3
abbrev tPc (q : PosShare TreeShare) (TB : Buf (Elt F) (tLoc d)) : sProp 𝕄 := tLoc d ↦{q} TB
abbrev oPc (r : Fin 26) (f : Buf (Elt F) (oLoc d)) : sProp 𝕄 := oLoc d ↦[(oChK L r).view.set]{fullShare} f

variable (TB : Buf (Elt F) (tLoc d)) (I3 : Buf (Elt F) (iLoc d)) (O0 : Buf (Elt F) (oLoc d))

set_option maxHeartbeats 4000000 in
set_option maxRecDepth 16384 in
theorem tile_body (hF : (K (F := F)).Facts) (q : PosShare TreeShare) (hI : ∀ j, (I3 j).toNat < 100000)
    (O : CellTallies nD τ sig (HIx 1)) (W : Waits sig (HIx 1)) (hO : ∀ g, O g none = 0) :
    iprop(levAts (K (F := F)).L (K (F := F)).lev ∗ emp
        ∗ (iPc d L I3 ∗ tPc d q TB ∗ bigSep Finset.univ fun r : Fin 26 => oPc d L r O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_body L tV (Memref.isWhole_whole _) iV (Memref.isWhole_whole _) oV (Memref.isWhole_whole _)
            sI (Memref.isWhole_whole _) bA (Memref.isWhole_whole _) bB (Memref.isWhole_whole _) bC (Memref.isWhole_whole _) bD (Memref.isWhole_whole _)
            cc0_scratch5 cc0_scratch6 cc0_scratch7 cc0_scratch8 cc0_scratch9 cc0_scratch10 cc0_scratch11 cc0_scratch12 cc0_scoped0)
          fun _ => iprop((iPc d L I3 ∗ tPc d q TB ∗ bigSep Finset.univ fun r : Fin 26 => oPc d L r (outOf I3 TB))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__emb_body_eq_skeleton]; unfold cc0__emb_body_skel
  rw [(K (F := F)).scopedBufs_V hF d (cV L) (jV L), SparseCore.Cfg.scopedSems0_V (Val := Elt F) d (cV L) (jV L), ownSems0_V, ownBufs_V, bigSep_fin26]
  iintro ⟨#Hlv, -, ⟨Hi, Ht, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25⟩, ⟨⟨%fI, HsI⟩, ⟨%fA, HbA⟩, ⟨%fB, HbB⟩, ⟨%fC, HbC⟩, ⟨%fD, HbD⟩, Hbufs⟩, ⟨Hs0, Hs1, Hs2, Hs3, Hs4, Hs5, Hs6, Hs7, Hs8, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (show (iPc d L I3 : sProp 𝕄)
      = (iSlabK L).view.loc (V d (cV L) (jV L)) ↦[(iSlabK L).view.set]{fullShare} I3 from rfl)) $$ Hi
  ihave Ht' := (Entails.of_eq (show (tPc d q TB : sProp 𝕄) = (tV).view.loc (V d (cV L) (jV L)) ↦{q} TB from rfl)) $$ Ht
  ihave HsI' := (Entails.of_eq (show ((V d (cV L) (jV L)).loc cc0_scratch0 ↦{fullShare} fI : sProp 𝕄) = (sI).view.loc (V d (cV L) (jV L)) ↦{fullShare} fI from rfl)) $$ HsI
  ihave HbA' := (Entails.of_eq (show ((V d (cV L) (jV L)).loc cc0_scratch1 ↦{fullShare} fA : sProp 𝕄) = (bA).view.loc (V d (cV L) (jV L)) ↦{fullShare} fA from rfl)) $$ HbA
  ihave HbB' := (Entails.of_eq (show ((V d (cV L) (jV L)).loc cc0_scratch2 ↦{fullShare} fB : sProp 𝕄) = (bB).view.loc (V d (cV L) (jV L)) ↦{fullShare} fB from rfl)) $$ HbB
  ihave HbC' := (Entails.of_eq (show ((V d (cV L) (jV L)).loc cc0_scratch3 ↦{fullShare} fC : sProp 𝕄) = (bC).view.loc (V d (cV L) (jV L)) ↦{fullShare} fC from rfl)) $$ HbC
  ihave HbD' := (Entails.of_eq (show ((V d (cV L) (jV L)).loc cc0_scratch4 ↦{fullShare} fD : sProp 𝕄) = (bD).view.loc (V d (cV L) (jV L)) ↦{fullShare} fD from rfl)) $$ HbD
  ihave Hc0' := (Entails.of_eq (show (oPc d L 0 O0 : sProp 𝕄) = (oChL0 L).view.loc (V d (cV L) (jV L)) ↦[(oChL0 L).view.set]{fullShare} O0 from rfl)) $$ Hc0
  ihave Hc1' := (Entails.of_eq (show (oPc d L 1 O0 : sProp 𝕄) = (oChL1 L).view.loc (V d (cV L) (jV L)) ↦[(oChL1 L).view.set]{fullShare} O0 from rfl)) $$ Hc1
  ihave Hc2' := (Entails.of_eq (show (oPc d L 2 O0 : sProp 𝕄) = (oChL2 L).view.loc (V d (cV L) (jV L)) ↦[(oChL2 L).view.set]{fullShare} O0 from rfl)) $$ Hc2
  ihave Hc3' := (Entails.of_eq (show (oPc d L 3 O0 : sProp 𝕄) = (oChL3 L).view.loc (V d (cV L) (jV L)) ↦[(oChL3 L).view.set]{fullShare} O0 from rfl)) $$ Hc3
  ihave Hc4' := (Entails.of_eq (show (oPc d L 4 O0 : sProp 𝕄) = (oChL4 L).view.loc (V d (cV L) (jV L)) ↦[(oChL4 L).view.set]{fullShare} O0 from rfl)) $$ Hc4
  ihave Hc5' := (Entails.of_eq (show (oPc d L 5 O0 : sProp 𝕄) = (oChL5 L).view.loc (V d (cV L) (jV L)) ↦[(oChL5 L).view.set]{fullShare} O0 from rfl)) $$ Hc5
  ihave Hc6' := (Entails.of_eq (show (oPc d L 6 O0 : sProp 𝕄) = (oChL6 L).view.loc (V d (cV L) (jV L)) ↦[(oChL6 L).view.set]{fullShare} O0 from rfl)) $$ Hc6
  ihave Hc7' := (Entails.of_eq (show (oPc d L 7 O0 : sProp 𝕄) = (oChL7 L).view.loc (V d (cV L) (jV L)) ↦[(oChL7 L).view.set]{fullShare} O0 from rfl)) $$ Hc7
  ihave Hc8' := (Entails.of_eq (show (oPc d L 8 O0 : sProp 𝕄) = (oChL8 L).view.loc (V d (cV L) (jV L)) ↦[(oChL8 L).view.set]{fullShare} O0 from rfl)) $$ Hc8
  ihave Hc9' := (Entails.of_eq (show (oPc d L 9 O0 : sProp 𝕄) = (oChL9 L).view.loc (V d (cV L) (jV L)) ↦[(oChL9 L).view.set]{fullShare} O0 from rfl)) $$ Hc9
  ihave Hc10' := (Entails.of_eq (show (oPc d L 10 O0 : sProp 𝕄) = (oChL10 L).view.loc (V d (cV L) (jV L)) ↦[(oChL10 L).view.set]{fullShare} O0 from rfl)) $$ Hc10
  ihave Hc11' := (Entails.of_eq (show (oPc d L 11 O0 : sProp 𝕄) = (oChL11 L).view.loc (V d (cV L) (jV L)) ↦[(oChL11 L).view.set]{fullShare} O0 from rfl)) $$ Hc11
  ihave Hc12' := (Entails.of_eq (show (oPc d L 12 O0 : sProp 𝕄) = (oChL12 L).view.loc (V d (cV L) (jV L)) ↦[(oChL12 L).view.set]{fullShare} O0 from rfl)) $$ Hc12
  ihave Hc13' := (Entails.of_eq (show (oPc d L 13 O0 : sProp 𝕄) = (oChL13 L).view.loc (V d (cV L) (jV L)) ↦[(oChL13 L).view.set]{fullShare} O0 from rfl)) $$ Hc13
  ihave Hc14' := (Entails.of_eq (show (oPc d L 14 O0 : sProp 𝕄) = (oChL14 L).view.loc (V d (cV L) (jV L)) ↦[(oChL14 L).view.set]{fullShare} O0 from rfl)) $$ Hc14
  ihave Hc15' := (Entails.of_eq (show (oPc d L 15 O0 : sProp 𝕄) = (oChL15 L).view.loc (V d (cV L) (jV L)) ↦[(oChL15 L).view.set]{fullShare} O0 from rfl)) $$ Hc15
  ihave Hc16' := (Entails.of_eq (show (oPc d L 16 O0 : sProp 𝕄) = (oChL16 L).view.loc (V d (cV L) (jV L)) ↦[(oChL16 L).view.set]{fullShare} O0 from rfl)) $$ Hc16
  ihave Hc17' := (Entails.of_eq (show (oPc d L 17 O0 : sProp 𝕄) = (oChL17 L).view.loc (V d (cV L) (jV L)) ↦[(oChL17 L).view.set]{fullShare} O0 from rfl)) $$ Hc17
  ihave Hc18' := (Entails.of_eq (show (oPc d L 18 O0 : sProp 𝕄) = (oChL18 L).view.loc (V d (cV L) (jV L)) ↦[(oChL18 L).view.set]{fullShare} O0 from rfl)) $$ Hc18
  ihave Hc19' := (Entails.of_eq (show (oPc d L 19 O0 : sProp 𝕄) = (oChL19 L).view.loc (V d (cV L) (jV L)) ↦[(oChL19 L).view.set]{fullShare} O0 from rfl)) $$ Hc19
  ihave Hc20' := (Entails.of_eq (show (oPc d L 20 O0 : sProp 𝕄) = (oChL20 L).view.loc (V d (cV L) (jV L)) ↦[(oChL20 L).view.set]{fullShare} O0 from rfl)) $$ Hc20
  ihave Hc21' := (Entails.of_eq (show (oPc d L 21 O0 : sProp 𝕄) = (oChL21 L).view.loc (V d (cV L) (jV L)) ↦[(oChL21 L).view.set]{fullShare} O0 from rfl)) $$ Hc21
  ihave Hc22' := (Entails.of_eq (show (oPc d L 22 O0 : sProp 𝕄) = (oChL22 L).view.loc (V d (cV L) (jV L)) ↦[(oChL22 L).view.set]{fullShare} O0 from rfl)) $$ Hc22
  ihave Hc23' := (Entails.of_eq (show (oPc d L 23 O0 : sProp 𝕄) = (oChL23 L).view.loc (V d (cV L) (jV L)) ↦[(oChL23 L).view.set]{fullShare} O0 from rfl)) $$ Hc23
  ihave Hc24' := (Entails.of_eq (show (oPc d L 24 O0 : sProp 𝕄) = (oChL24 L).view.loc (V d (cV L) (jV L)) ↦[(oChL24 L).view.set]{fullShare} O0 from rfl)) $$ Hc24
  ihave Hc25' := (Entails.of_eq (show (oPc d L 25 O0 : sProp 𝕄) = (oChL25 L).view.loc (V d (cV L) (jV L)) ↦[(oChL25 L).view.set]{fullShare} O0 from rfl)) $$ Hc25
  -- the table's share, in four: one for each row buffer's gather in flight
  ihave Ht2 := (pointsTo_share (PosShare.mem_left_op_right q)).1 $$ Ht'
  icases Ht2 with ⟨HtL, HtR⟩
  ihave HtL2 := (pointsTo_share (PosShare.mem_left_op_right q.left)).1 $$ HtL
  icases HtL2 with ⟨HtA, HtB⟩
  ihave HtR2 := (pointsTo_share (PosShare.mem_left_op_right q.right)).1 $$ HtR
  icases HtR2 with ⟨HtC, HtD⟩
  sl_exec
  -- the index scratch now holds the task's slab: its rows are the gathers' offset lists
  ihave Hrows := (Entails.of_eq ((sI_rows (F := F) d (cV L) (jV L) _).trans (bigSep_fin26 _))) $$ HsI'
  icases Hrows with ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25⟩
  ihave Hr0' := (Entails.of_eq (show ((V d (cV L) (jV L)).loc cc0_scratch0 ↦[rowSet 0]{fullShare} _ : sProp 𝕄) = (offL0).view.loc (V d (cV L) (jV L)) ↦[(offL0).view.set]{fullShare} _ from by rw [← set_offK 0]; rfl)) $$ Hr0
  ihave Hr1' := (Entails.of_eq (show ((V d (cV L) (jV L)).loc cc0_scratch0 ↦[rowSet 1]{fullShare} _ : sProp 𝕄) = (offL1).view.loc (V d (cV L) (jV L)) ↦[(offL1).view.set]{fullShare} _ from by rw [← set_offK 1]; rfl)) $$ Hr1
  ihave Hr2' := (Entails.of_eq (show ((V d (cV L) (jV L)).loc cc0_scratch0 ↦[rowSet 2]{fullShare} _ : sProp 𝕄) = (offL2).view.loc (V d (cV L) (jV L)) ↦[(offL2).view.set]{fullShare} _ from by rw [← set_offK 2]; rfl)) $$ Hr2
  ihave Hr3' := (Entails.of_eq (show ((V d (cV L) (jV L)).loc cc0_scratch0 ↦[rowSet 3]{fullShare} _ : sProp 𝕄) = (offL3).view.loc (V d (cV L) (jV L)) ↦[(offL3).view.set]{fullShare} _ from by rw [← set_offK 3]; rfl)) $$ Hr3
  ihave Hr4' := (Entails.of_eq (show ((V d (cV L) (jV L)).loc cc0_scratch0 ↦[rowSet 4]{fullShare} _ : sProp 𝕄) = (offL4).view.loc (V d (cV L) (jV L)) ↦[(offL4).view.set]{fullShare} _ from by rw [← set_offK 4]; rfl)) $$ Hr4
  ihave Hr5' := (Entails.of_eq (show ((V d (cV L) (jV L)).loc cc0_scratch0 ↦[rowSet 5]{fullShare} _ : sProp 𝕄) = (offL5).view.loc (V d (cV L) (jV L)) ↦[(offL5).view.set]{fullShare} _ from by rw [← set_offK 5]; rfl)) $$ Hr5
  ihave Hr6' := (Entails.of_eq (show ((V d (cV L) (jV L)).loc cc0_scratch0 ↦[rowSet 6]{fullShare} _ : sProp 𝕄) = (offL6).view.loc (V d (cV L) (jV L)) ↦[(offL6).view.set]{fullShare} _ from by rw [← set_offK 6]; rfl)) $$ Hr6
  ihave Hr7' := (Entails.of_eq (show ((V d (cV L) (jV L)).loc cc0_scratch0 ↦[rowSet 7]{fullShare} _ : sProp 𝕄) = (offL7).view.loc (V d (cV L) (jV L)) ↦[(offL7).view.set]{fullShare} _ from by rw [← set_offK 7]; rfl)) $$ Hr7
  ihave Hr8' := (Entails.of_eq (show ((V d (cV L) (jV L)).loc cc0_scratch0 ↦[rowSet 8]{fullShare} _ : sProp 𝕄) = (offL8).view.loc (V d (cV L) (jV L)) ↦[(offL8).view.set]{fullShare} _ from by rw [← set_offK 8]; rfl)) $$ Hr8
  ihave Hr9' := (Entails.of_eq (show ((V d (cV L) (jV L)).loc cc0_scratch0 ↦[rowSet 9]{fullShare} _ : sProp 𝕄) = (offL9).view.loc (V d (cV L) (jV L)) ↦[(offL9).view.set]{fullShare} _ from by rw [← set_offK 9]; rfl)) $$ Hr9
  ihave Hr10' := (Entails.of_eq (show ((V d (cV L) (jV L)).loc cc0_scratch0 ↦[rowSet 10]{fullShare} _ : sProp 𝕄) = (offL10).view.loc (V d (cV L) (jV L)) ↦[(offL10).view.set]{fullShare} _ from by rw [← set_offK 10]; rfl)) $$ Hr10
  ihave Hr11' := (Entails.of_eq (show ((V d (cV L) (jV L)).loc cc0_scratch0 ↦[rowSet 11]{fullShare} _ : sProp 𝕄) = (offL11).view.loc (V d (cV L) (jV L)) ↦[(offL11).view.set]{fullShare} _ from by rw [← set_offK 11]; rfl)) $$ Hr11
  ihave Hr12' := (Entails.of_eq (show ((V d (cV L) (jV L)).loc cc0_scratch0 ↦[rowSet 12]{fullShare} _ : sProp 𝕄) = (offL12).view.loc (V d (cV L) (jV L)) ↦[(offL12).view.set]{fullShare} _ from by rw [← set_offK 12]; rfl)) $$ Hr12
  ihave Hr13' := (Entails.of_eq (show ((V d (cV L) (jV L)).loc cc0_scratch0 ↦[rowSet 13]{fullShare} _ : sProp 𝕄) = (offL13).view.loc (V d (cV L) (jV L)) ↦[(offL13).view.set]{fullShare} _ from by rw [← set_offK 13]; rfl)) $$ Hr13
  ihave Hr14' := (Entails.of_eq (show ((V d (cV L) (jV L)).loc cc0_scratch0 ↦[rowSet 14]{fullShare} _ : sProp 𝕄) = (offL14).view.loc (V d (cV L) (jV L)) ↦[(offL14).view.set]{fullShare} _ from by rw [← set_offK 14]; rfl)) $$ Hr14
  ihave Hr15' := (Entails.of_eq (show ((V d (cV L) (jV L)).loc cc0_scratch0 ↦[rowSet 15]{fullShare} _ : sProp 𝕄) = (offL15).view.loc (V d (cV L) (jV L)) ↦[(offL15).view.set]{fullShare} _ from by rw [← set_offK 15]; rfl)) $$ Hr15
  ihave Hr16' := (Entails.of_eq (show ((V d (cV L) (jV L)).loc cc0_scratch0 ↦[rowSet 16]{fullShare} _ : sProp 𝕄) = (offL16).view.loc (V d (cV L) (jV L)) ↦[(offL16).view.set]{fullShare} _ from by rw [← set_offK 16]; rfl)) $$ Hr16
  ihave Hr17' := (Entails.of_eq (show ((V d (cV L) (jV L)).loc cc0_scratch0 ↦[rowSet 17]{fullShare} _ : sProp 𝕄) = (offL17).view.loc (V d (cV L) (jV L)) ↦[(offL17).view.set]{fullShare} _ from by rw [← set_offK 17]; rfl)) $$ Hr17
  ihave Hr18' := (Entails.of_eq (show ((V d (cV L) (jV L)).loc cc0_scratch0 ↦[rowSet 18]{fullShare} _ : sProp 𝕄) = (offL18).view.loc (V d (cV L) (jV L)) ↦[(offL18).view.set]{fullShare} _ from by rw [← set_offK 18]; rfl)) $$ Hr18
  ihave Hr19' := (Entails.of_eq (show ((V d (cV L) (jV L)).loc cc0_scratch0 ↦[rowSet 19]{fullShare} _ : sProp 𝕄) = (offL19).view.loc (V d (cV L) (jV L)) ↦[(offL19).view.set]{fullShare} _ from by rw [← set_offK 19]; rfl)) $$ Hr19
  ihave Hr20' := (Entails.of_eq (show ((V d (cV L) (jV L)).loc cc0_scratch0 ↦[rowSet 20]{fullShare} _ : sProp 𝕄) = (offL20).view.loc (V d (cV L) (jV L)) ↦[(offL20).view.set]{fullShare} _ from by rw [← set_offK 20]; rfl)) $$ Hr20
  ihave Hr21' := (Entails.of_eq (show ((V d (cV L) (jV L)).loc cc0_scratch0 ↦[rowSet 21]{fullShare} _ : sProp 𝕄) = (offL21).view.loc (V d (cV L) (jV L)) ↦[(offL21).view.set]{fullShare} _ from by rw [← set_offK 21]; rfl)) $$ Hr21
  ihave Hr22' := (Entails.of_eq (show ((V d (cV L) (jV L)).loc cc0_scratch0 ↦[rowSet 22]{fullShare} _ : sProp 𝕄) = (offL22).view.loc (V d (cV L) (jV L)) ↦[(offL22).view.set]{fullShare} _ from by rw [← set_offK 22]; rfl)) $$ Hr22
  ihave Hr23' := (Entails.of_eq (show ((V d (cV L) (jV L)).loc cc0_scratch0 ↦[rowSet 23]{fullShare} _ : sProp 𝕄) = (offL23).view.loc (V d (cV L) (jV L)) ↦[(offL23).view.set]{fullShare} _ from by rw [← set_offK 23]; rfl)) $$ Hr23
  ihave Hr24' := (Entails.of_eq (show ((V d (cV L) (jV L)).loc cc0_scratch0 ↦[rowSet 24]{fullShare} _ : sProp 𝕄) = (offL24).view.loc (V d (cV L) (jV L)) ↦[(offL24).view.set]{fullShare} _ from by rw [← set_offK 24]; rfl)) $$ Hr24
  ihave Hr25' := (Entails.of_eq (show ((V d (cV L) (jV L)).loc cc0_scratch0 ↦[rowSet 25]{fullShare} _ : sProp 𝕄) = (offL25).view.loc (V d (cV L) (jV L)) ↦[(offL25).view.set]{fullShare} _ from by rw [← set_offK 25]; rfl)) $$ Hr25
  have hin0 := inb_of_range d L I3 hI fI (tile_body.sl.dma0 d L I3) rfl 0
  have hin1 := inb_of_range d L I3 hI fI (tile_body.sl.dma0 d L I3) rfl 1
  have hin2 := inb_of_range d L I3 hI fI (tile_body.sl.dma0 d L I3) rfl 2
  have hin3 := inb_of_range d L I3 hI fI (tile_body.sl.dma0 d L I3) rfl 3
  have hin4 := inb_of_range d L I3 hI fI (tile_body.sl.dma0 d L I3) rfl 4
  have hin5 := inb_of_range d L I3 hI fI (tile_body.sl.dma0 d L I3) rfl 5
  have hin6 := inb_of_range d L I3 hI fI (tile_body.sl.dma0 d L I3) rfl 6
  have hin7 := inb_of_range d L I3 hI fI (tile_body.sl.dma0 d L I3) rfl 7
  have hin8 := inb_of_range d L I3 hI fI (tile_body.sl.dma0 d L I3) rfl 8
  have hin9 := inb_of_range d L I3 hI fI (tile_body.sl.dma0 d L I3) rfl 9
  have hin10 := inb_of_range d L I3 hI fI (tile_body.sl.dma0 d L I3) rfl 10
  have hin11 := inb_of_range d L I3 hI fI (tile_body.sl.dma0 d L I3) rfl 11
  have hin12 := inb_of_range d L I3 hI fI (tile_body.sl.dma0 d L I3) rfl 12
  have hin13 := inb_of_range d L I3 hI fI (tile_body.sl.dma0 d L I3) rfl 13
  have hin14 := inb_of_range d L I3 hI fI (tile_body.sl.dma0 d L I3) rfl 14
  have hin15 := inb_of_range d L I3 hI fI (tile_body.sl.dma0 d L I3) rfl 15
  have hin16 := inb_of_range d L I3 hI fI (tile_body.sl.dma0 d L I3) rfl 16
  have hin17 := inb_of_range d L I3 hI fI (tile_body.sl.dma0 d L I3) rfl 17
  have hin18 := inb_of_range d L I3 hI fI (tile_body.sl.dma0 d L I3) rfl 18
  have hin19 := inb_of_range d L I3 hI fI (tile_body.sl.dma0 d L I3) rfl 19
  have hin20 := inb_of_range d L I3 hI fI (tile_body.sl.dma0 d L I3) rfl 20
  have hin21 := inb_of_range d L I3 hI fI (tile_body.sl.dma0 d L I3) rfl 21
  have hin22 := inb_of_range d L I3 hI fI (tile_body.sl.dma0 d L I3) rfl 22
  have hin23 := inb_of_range d L I3 hI fI (tile_body.sl.dma0 d L I3) rfl 23
  have hin24 := inb_of_range d L I3 hI fI (tile_body.sl.dma0 d L I3) rfl 24
  have hin25 := inb_of_range d L I3 hI fI (tile_body.sl.dma0 d L I3) rfl 25
  sl_exec
  sl_step
  -- what the index scratch holds is the task's slab
  have hFI : ((View.write (Elt F) (sI).view fI (tile_body.sl.dma0 d L I3) Finset.univ) : Buf (Elt F) ((V d (cV L) (jV L)).loc cc0_scratch0)) = (iSlabK L).view.read (Elt F) I3 :=
    View.write_whole_univ (cc0_scratch0 : Ref sig .scVector) fI _
  -- each chunk holds its rows of the lookup: the buffer copied out held the gather's payload
  have hG0 : tile_body.sl.dma0_1 d L TB I3 fI fA hin0
      = SparseCore.gatherPayload gathers_S100000x128_S128x128 ((tAllK).view.read (Elt F) TB) (SparseCore.rows ((offK 0).view.read (Elt F) (View.write (Elt F) (sI).view fI (tile_body.sl.dma0 d L I3) Finset.univ)) rfl hin0) := by
    delta tile_body.sl.dma0_1; dsimp only
    rw [Cert.Lib.WholeWrites.writes_whole_cons]; rfl
  ihave Hd0 := (Entails.of_eq (show ((oChL0 L).view.loc (V d (cV L) (jV L)) ↦[(oChL0 L).view.set]{fullShare} _ : sProp 𝕄) = oPc d L 0 (outOf I3 TB) from
      pointsTo_congr (ℓ := oLoc d) (q := fullShare) (chunk_value d L TB I3 O0 hI _ hFI 0 hin0 _ hG0))) $$ Hc0'
  have hG1 : tile_body.sl.dma0_2 d L TB I3 fI fB hin1
      = SparseCore.gatherPayload gathers_S100000x128_S128x128 ((tAllK).view.read (Elt F) TB) (SparseCore.rows ((offK 1).view.read (Elt F) (View.write (Elt F) (sI).view fI (tile_body.sl.dma0 d L I3) Finset.univ)) rfl hin1) := by
    delta tile_body.sl.dma0_2; dsimp only
    rw [Cert.Lib.WholeWrites.writes_whole_cons]; rfl
  ihave Hd1 := (Entails.of_eq (show ((oChL1 L).view.loc (V d (cV L) (jV L)) ↦[(oChL1 L).view.set]{fullShare} _ : sProp 𝕄) = oPc d L 1 (outOf I3 TB) from
      pointsTo_congr (ℓ := oLoc d) (q := fullShare) (chunk_value d L TB I3 O0 hI _ hFI 1 hin1 _ hG1))) $$ Hc1'
  have hG2 : tile_body.sl.dma0_3 d L TB I3 fI fC hin2
      = SparseCore.gatherPayload gathers_S100000x128_S128x128 ((tAllK).view.read (Elt F) TB) (SparseCore.rows ((offK 2).view.read (Elt F) (View.write (Elt F) (sI).view fI (tile_body.sl.dma0 d L I3) Finset.univ)) rfl hin2) := by
    delta tile_body.sl.dma0_3; dsimp only
    rw [Cert.Lib.WholeWrites.writes_whole_cons]; rfl
  ihave Hd2 := (Entails.of_eq (show ((oChL2 L).view.loc (V d (cV L) (jV L)) ↦[(oChL2 L).view.set]{fullShare} _ : sProp 𝕄) = oPc d L 2 (outOf I3 TB) from
      pointsTo_congr (ℓ := oLoc d) (q := fullShare) (chunk_value d L TB I3 O0 hI _ hFI 2 hin2 _ hG2))) $$ Hc2'
  have hG3 : tile_body.sl.dma0_4 d L TB I3 fI fD hin3
      = SparseCore.gatherPayload gathers_S100000x128_S128x128 ((tAllK).view.read (Elt F) TB) (SparseCore.rows ((offK 3).view.read (Elt F) (View.write (Elt F) (sI).view fI (tile_body.sl.dma0 d L I3) Finset.univ)) rfl hin3) := by
    delta tile_body.sl.dma0_4; dsimp only
    rw [Cert.Lib.WholeWrites.writes_whole_cons]; rfl
  ihave Hd3 := (Entails.of_eq (show ((oChL3 L).view.loc (V d (cV L) (jV L)) ↦[(oChL3 L).view.set]{fullShare} _ : sProp 𝕄) = oPc d L 3 (outOf I3 TB) from
      pointsTo_congr (ℓ := oLoc d) (q := fullShare) (chunk_value d L TB I3 O0 hI _ hFI 3 hin3 _ hG3))) $$ Hc3'
  have hG4 : tile_body.sl.dma0_5 d L TB I3 fI fA hin0 hin4
      = SparseCore.gatherPayload gathers_S100000x128_S128x128 ((tAllK).view.read (Elt F) TB) (SparseCore.rows ((offK 4).view.read (Elt F) (View.write (Elt F) (sI).view fI (tile_body.sl.dma0 d L I3) Finset.univ)) rfl hin4) := by
    delta tile_body.sl.dma0_5; dsimp only
    rw [Cert.Lib.WholeWrites.writes_whole_cons]; rfl
  ihave Hd4 := (Entails.of_eq (show ((oChL4 L).view.loc (V d (cV L) (jV L)) ↦[(oChL4 L).view.set]{fullShare} _ : sProp 𝕄) = oPc d L 4 (outOf I3 TB) from
      pointsTo_congr (ℓ := oLoc d) (q := fullShare) (chunk_value d L TB I3 O0 hI _ hFI 4 hin4 _ hG4))) $$ Hc4'
  have hG5 : tile_body.sl.dma0_6 d L TB I3 fI fB hin1 hin5
      = SparseCore.gatherPayload gathers_S100000x128_S128x128 ((tAllK).view.read (Elt F) TB) (SparseCore.rows ((offK 5).view.read (Elt F) (View.write (Elt F) (sI).view fI (tile_body.sl.dma0 d L I3) Finset.univ)) rfl hin5) := by
    delta tile_body.sl.dma0_6; dsimp only
    rw [Cert.Lib.WholeWrites.writes_whole_cons]; rfl
  ihave Hd5 := (Entails.of_eq (show ((oChL5 L).view.loc (V d (cV L) (jV L)) ↦[(oChL5 L).view.set]{fullShare} _ : sProp 𝕄) = oPc d L 5 (outOf I3 TB) from
      pointsTo_congr (ℓ := oLoc d) (q := fullShare) (chunk_value d L TB I3 O0 hI _ hFI 5 hin5 _ hG5))) $$ Hc5'
  have hG6 : tile_body.sl.dma0_7 d L TB I3 fI fC hin2 hin6
      = SparseCore.gatherPayload gathers_S100000x128_S128x128 ((tAllK).view.read (Elt F) TB) (SparseCore.rows ((offK 6).view.read (Elt F) (View.write (Elt F) (sI).view fI (tile_body.sl.dma0 d L I3) Finset.univ)) rfl hin6) := by
    delta tile_body.sl.dma0_7; dsimp only
    rw [Cert.Lib.WholeWrites.writes_whole_cons]; rfl
  ihave Hd6 := (Entails.of_eq (show ((oChL6 L).view.loc (V d (cV L) (jV L)) ↦[(oChL6 L).view.set]{fullShare} _ : sProp 𝕄) = oPc d L 6 (outOf I3 TB) from
      pointsTo_congr (ℓ := oLoc d) (q := fullShare) (chunk_value d L TB I3 O0 hI _ hFI 6 hin6 _ hG6))) $$ Hc6'
  have hG7 : tile_body.sl.dma0_8 d L TB I3 fI fD hin3 hin7
      = SparseCore.gatherPayload gathers_S100000x128_S128x128 ((tAllK).view.read (Elt F) TB) (SparseCore.rows ((offK 7).view.read (Elt F) (View.write (Elt F) (sI).view fI (tile_body.sl.dma0 d L I3) Finset.univ)) rfl hin7) := by
    delta tile_body.sl.dma0_8; dsimp only
    rw [Cert.Lib.WholeWrites.writes_whole_cons]; rfl
  ihave Hd7 := (Entails.of_eq (show ((oChL7 L).view.loc (V d (cV L) (jV L)) ↦[(oChL7 L).view.set]{fullShare} _ : sProp 𝕄) = oPc d L 7 (outOf I3 TB) from
      pointsTo_congr (ℓ := oLoc d) (q := fullShare) (chunk_value d L TB I3 O0 hI _ hFI 7 hin7 _ hG7))) $$ Hc7'
  have hG8 : tile_body.sl.dma0_9 d L TB I3 fI fA hin0 hin4 hin8
      = SparseCore.gatherPayload gathers_S100000x128_S128x128 ((tAllK).view.read (Elt F) TB) (SparseCore.rows ((offK 8).view.read (Elt F) (View.write (Elt F) (sI).view fI (tile_body.sl.dma0 d L I3) Finset.univ)) rfl hin8) := by
    delta tile_body.sl.dma0_9; dsimp only
    rw [Cert.Lib.WholeWrites.writes_whole_cons]; rfl
  ihave Hd8 := (Entails.of_eq (show ((oChL8 L).view.loc (V d (cV L) (jV L)) ↦[(oChL8 L).view.set]{fullShare} _ : sProp 𝕄) = oPc d L 8 (outOf I3 TB) from
      pointsTo_congr (ℓ := oLoc d) (q := fullShare) (chunk_value d L TB I3 O0 hI _ hFI 8 hin8 _ hG8))) $$ Hc8'
  have hG9 : tile_body.sl.dma0_10 d L TB I3 fI fB hin1 hin5 hin9
      = SparseCore.gatherPayload gathers_S100000x128_S128x128 ((tAllK).view.read (Elt F) TB) (SparseCore.rows ((offK 9).view.read (Elt F) (View.write (Elt F) (sI).view fI (tile_body.sl.dma0 d L I3) Finset.univ)) rfl hin9) := by
    delta tile_body.sl.dma0_10; dsimp only
    rw [Cert.Lib.WholeWrites.writes_whole_cons]; rfl
  ihave Hd9 := (Entails.of_eq (show ((oChL9 L).view.loc (V d (cV L) (jV L)) ↦[(oChL9 L).view.set]{fullShare} _ : sProp 𝕄) = oPc d L 9 (outOf I3 TB) from
      pointsTo_congr (ℓ := oLoc d) (q := fullShare) (chunk_value d L TB I3 O0 hI _ hFI 9 hin9 _ hG9))) $$ Hc9'
  have hG10 : tile_body.sl.dma0_11 d L TB I3 fI fC hin2 hin6 hin10
      = SparseCore.gatherPayload gathers_S100000x128_S128x128 ((tAllK).view.read (Elt F) TB) (SparseCore.rows ((offK 10).view.read (Elt F) (View.write (Elt F) (sI).view fI (tile_body.sl.dma0 d L I3) Finset.univ)) rfl hin10) := by
    delta tile_body.sl.dma0_11; dsimp only
    rw [Cert.Lib.WholeWrites.writes_whole_cons]; rfl
  ihave Hd10 := (Entails.of_eq (show ((oChL10 L).view.loc (V d (cV L) (jV L)) ↦[(oChL10 L).view.set]{fullShare} _ : sProp 𝕄) = oPc d L 10 (outOf I3 TB) from
      pointsTo_congr (ℓ := oLoc d) (q := fullShare) (chunk_value d L TB I3 O0 hI _ hFI 10 hin10 _ hG10))) $$ Hc10'
  have hG11 : tile_body.sl.dma0_12 d L TB I3 fI fD hin3 hin7 hin11
      = SparseCore.gatherPayload gathers_S100000x128_S128x128 ((tAllK).view.read (Elt F) TB) (SparseCore.rows ((offK 11).view.read (Elt F) (View.write (Elt F) (sI).view fI (tile_body.sl.dma0 d L I3) Finset.univ)) rfl hin11) := by
    delta tile_body.sl.dma0_12; dsimp only
    rw [Cert.Lib.WholeWrites.writes_whole_cons]; rfl
  ihave Hd11 := (Entails.of_eq (show ((oChL11 L).view.loc (V d (cV L) (jV L)) ↦[(oChL11 L).view.set]{fullShare} _ : sProp 𝕄) = oPc d L 11 (outOf I3 TB) from
      pointsTo_congr (ℓ := oLoc d) (q := fullShare) (chunk_value d L TB I3 O0 hI _ hFI 11 hin11 _ hG11))) $$ Hc11'
  have hG12 : tile_body.sl.dma0_13 d L TB I3 fI fA hin0 hin4 hin8 hin12
      = SparseCore.gatherPayload gathers_S100000x128_S128x128 ((tAllK).view.read (Elt F) TB) (SparseCore.rows ((offK 12).view.read (Elt F) (View.write (Elt F) (sI).view fI (tile_body.sl.dma0 d L I3) Finset.univ)) rfl hin12) := by
    delta tile_body.sl.dma0_13; dsimp only
    rw [Cert.Lib.WholeWrites.writes_whole_cons]; rfl
  ihave Hd12 := (Entails.of_eq (show ((oChL12 L).view.loc (V d (cV L) (jV L)) ↦[(oChL12 L).view.set]{fullShare} _ : sProp 𝕄) = oPc d L 12 (outOf I3 TB) from
      pointsTo_congr (ℓ := oLoc d) (q := fullShare) (chunk_value d L TB I3 O0 hI _ hFI 12 hin12 _ hG12))) $$ Hc12'
  have hG13 : tile_body.sl.dma0_14 d L TB I3 fI fB hin1 hin5 hin9 hin13
      = SparseCore.gatherPayload gathers_S100000x128_S128x128 ((tAllK).view.read (Elt F) TB) (SparseCore.rows ((offK 13).view.read (Elt F) (View.write (Elt F) (sI).view fI (tile_body.sl.dma0 d L I3) Finset.univ)) rfl hin13) := by
    delta tile_body.sl.dma0_14; dsimp only
    rw [Cert.Lib.WholeWrites.writes_whole_cons]; rfl
  ihave Hd13 := (Entails.of_eq (show ((oChL13 L).view.loc (V d (cV L) (jV L)) ↦[(oChL13 L).view.set]{fullShare} _ : sProp 𝕄) = oPc d L 13 (outOf I3 TB) from
      pointsTo_congr (ℓ := oLoc d) (q := fullShare) (chunk_value d L TB I3 O0 hI _ hFI 13 hin13 _ hG13))) $$ Hc13'
  have hG14 : tile_body.sl.dma0_15 d L TB I3 fI fC hin2 hin6 hin10 hin14
      = SparseCore.gatherPayload gathers_S100000x128_S128x128 ((tAllK).view.read (Elt F) TB) (SparseCore.rows ((offK 14).view.read (Elt F) (View.write (Elt F) (sI).view fI (tile_body.sl.dma0 d L I3) Finset.univ)) rfl hin14) := by
    delta tile_body.sl.dma0_15; dsimp only
    rw [Cert.Lib.WholeWrites.writes_whole_cons]; rfl
  ihave Hd14 := (Entails.of_eq (show ((oChL14 L).view.loc (V d (cV L) (jV L)) ↦[(oChL14 L).view.set]{fullShare} _ : sProp 𝕄) = oPc d L 14 (outOf I3 TB) from
      pointsTo_congr (ℓ := oLoc d) (q := fullShare) (chunk_value d L TB I3 O0 hI _ hFI 14 hin14 _ hG14))) $$ Hc14'
  have hG15 : tile_body.sl.dma0_16 d L TB I3 fI fD hin3 hin7 hin11 hin15
      = SparseCore.gatherPayload gathers_S100000x128_S128x128 ((tAllK).view.read (Elt F) TB) (SparseCore.rows ((offK 15).view.read (Elt F) (View.write (Elt F) (sI).view fI (tile_body.sl.dma0 d L I3) Finset.univ)) rfl hin15) := by
    delta tile_body.sl.dma0_16; dsimp only
    rw [Cert.Lib.WholeWrites.writes_whole_cons]; rfl
  ihave Hd15 := (Entails.of_eq (show ((oChL15 L).view.loc (V d (cV L) (jV L)) ↦[(oChL15 L).view.set]{fullShare} _ : sProp 𝕄) = oPc d L 15 (outOf I3 TB) from
      pointsTo_congr (ℓ := oLoc d) (q := fullShare) (chunk_value d L TB I3 O0 hI _ hFI 15 hin15 _ hG15))) $$ Hc15'
  have hG16 : tile_body.sl.dma0_17 d L TB I3 fI fA hin0 hin4 hin8 hin12 hin16
      = SparseCore.gatherPayload gathers_S100000x128_S128x128 ((tAllK).view.read (Elt F) TB) (SparseCore.rows ((offK 16).view.read (Elt F) (View.write (Elt F) (sI).view fI (tile_body.sl.dma0 d L I3) Finset.univ)) rfl hin16) := by
    delta tile_body.sl.dma0_17; dsimp only
    rw [Cert.Lib.WholeWrites.writes_whole_cons]; rfl
  ihave Hd16 := (Entails.of_eq (show ((oChL16 L).view.loc (V d (cV L) (jV L)) ↦[(oChL16 L).view.set]{fullShare} _ : sProp 𝕄) = oPc d L 16 (outOf I3 TB) from
      pointsTo_congr (ℓ := oLoc d) (q := fullShare) (chunk_value d L TB I3 O0 hI _ hFI 16 hin16 _ hG16))) $$ Hc16'
  have hG17 : tile_body.sl.dma0_18 d L TB I3 fI fB hin1 hin5 hin9 hin13 hin17
      = SparseCore.gatherPayload gathers_S100000x128_S128x128 ((tAllK).view.read (Elt F) TB) (SparseCore.rows ((offK 17).view.read (Elt F) (View.write (Elt F) (sI).view fI (tile_body.sl.dma0 d L I3) Finset.univ)) rfl hin17) := by
    delta tile_body.sl.dma0_18; dsimp only
    rw [Cert.Lib.WholeWrites.writes_whole_cons]; rfl
  ihave Hd17 := (Entails.of_eq (show ((oChL17 L).view.loc (V d (cV L) (jV L)) ↦[(oChL17 L).view.set]{fullShare} _ : sProp 𝕄) = oPc d L 17 (outOf I3 TB) from
      pointsTo_congr (ℓ := oLoc d) (q := fullShare) (chunk_value d L TB I3 O0 hI _ hFI 17 hin17 _ hG17))) $$ Hc17'
  have hG18 : tile_body.sl.dma0_19 d L TB I3 fI fC hin2 hin6 hin10 hin14 hin18
      = SparseCore.gatherPayload gathers_S100000x128_S128x128 ((tAllK).view.read (Elt F) TB) (SparseCore.rows ((offK 18).view.read (Elt F) (View.write (Elt F) (sI).view fI (tile_body.sl.dma0 d L I3) Finset.univ)) rfl hin18) := by
    delta tile_body.sl.dma0_19; dsimp only
    rw [Cert.Lib.WholeWrites.writes_whole_cons]; rfl
  ihave Hd18 := (Entails.of_eq (show ((oChL18 L).view.loc (V d (cV L) (jV L)) ↦[(oChL18 L).view.set]{fullShare} _ : sProp 𝕄) = oPc d L 18 (outOf I3 TB) from
      pointsTo_congr (ℓ := oLoc d) (q := fullShare) (chunk_value d L TB I3 O0 hI _ hFI 18 hin18 _ hG18))) $$ Hc18'
  have hG19 : tile_body.sl.dma0_20 d L TB I3 fI fD hin3 hin7 hin11 hin15 hin19
      = SparseCore.gatherPayload gathers_S100000x128_S128x128 ((tAllK).view.read (Elt F) TB) (SparseCore.rows ((offK 19).view.read (Elt F) (View.write (Elt F) (sI).view fI (tile_body.sl.dma0 d L I3) Finset.univ)) rfl hin19) := by
    delta tile_body.sl.dma0_20; dsimp only
    rw [Cert.Lib.WholeWrites.writes_whole_cons]; rfl
  ihave Hd19 := (Entails.of_eq (show ((oChL19 L).view.loc (V d (cV L) (jV L)) ↦[(oChL19 L).view.set]{fullShare} _ : sProp 𝕄) = oPc d L 19 (outOf I3 TB) from
      pointsTo_congr (ℓ := oLoc d) (q := fullShare) (chunk_value d L TB I3 O0 hI _ hFI 19 hin19 _ hG19))) $$ Hc19'
  have hG20 : tile_body.sl.dma0_21 d L TB I3 fI fA hin0 hin4 hin8 hin12 hin16 hin20
      = SparseCore.gatherPayload gathers_S100000x128_S128x128 ((tAllK).view.read (Elt F) TB) (SparseCore.rows ((offK 20).view.read (Elt F) (View.write (Elt F) (sI).view fI (tile_body.sl.dma0 d L I3) Finset.univ)) rfl hin20) := by
    delta tile_body.sl.dma0_21; dsimp only
    rw [Cert.Lib.WholeWrites.writes_whole_cons]; rfl
  ihave Hd20 := (Entails.of_eq (show ((oChL20 L).view.loc (V d (cV L) (jV L)) ↦[(oChL20 L).view.set]{fullShare} _ : sProp 𝕄) = oPc d L 20 (outOf I3 TB) from
      pointsTo_congr (ℓ := oLoc d) (q := fullShare) (chunk_value d L TB I3 O0 hI _ hFI 20 hin20 _ hG20))) $$ Hc20'
  have hG21 : tile_body.sl.dma0_22 d L TB I3 fI fB hin1 hin5 hin9 hin13 hin17 hin21
      = SparseCore.gatherPayload gathers_S100000x128_S128x128 ((tAllK).view.read (Elt F) TB) (SparseCore.rows ((offK 21).view.read (Elt F) (View.write (Elt F) (sI).view fI (tile_body.sl.dma0 d L I3) Finset.univ)) rfl hin21) := by
    delta tile_body.sl.dma0_22; dsimp only
    rw [Cert.Lib.WholeWrites.writes_whole_cons]; rfl
  ihave Hd21 := (Entails.of_eq (show ((oChL21 L).view.loc (V d (cV L) (jV L)) ↦[(oChL21 L).view.set]{fullShare} _ : sProp 𝕄) = oPc d L 21 (outOf I3 TB) from
      pointsTo_congr (ℓ := oLoc d) (q := fullShare) (chunk_value d L TB I3 O0 hI _ hFI 21 hin21 _ hG21))) $$ Hc21'
  have hG22 : tile_body.sl.dma0_23 d L TB I3 fI fC hin2 hin6 hin10 hin14 hin18 hin22
      = SparseCore.gatherPayload gathers_S100000x128_S128x128 ((tAllK).view.read (Elt F) TB) (SparseCore.rows ((offK 22).view.read (Elt F) (View.write (Elt F) (sI).view fI (tile_body.sl.dma0 d L I3) Finset.univ)) rfl hin22) := by
    delta tile_body.sl.dma0_23; dsimp only
    rw [Cert.Lib.WholeWrites.writes_whole_cons]; rfl
  ihave Hd22 := (Entails.of_eq (show ((oChL22 L).view.loc (V d (cV L) (jV L)) ↦[(oChL22 L).view.set]{fullShare} _ : sProp 𝕄) = oPc d L 22 (outOf I3 TB) from
      pointsTo_congr (ℓ := oLoc d) (q := fullShare) (chunk_value d L TB I3 O0 hI _ hFI 22 hin22 _ hG22))) $$ Hc22'
  have hG23 : tile_body.sl.dma0_24 d L TB I3 fI fD hin3 hin7 hin11 hin15 hin19 hin23
      = SparseCore.gatherPayload gathers_S100000x128_S128x128 ((tAllK).view.read (Elt F) TB) (SparseCore.rows ((offK 23).view.read (Elt F) (View.write (Elt F) (sI).view fI (tile_body.sl.dma0 d L I3) Finset.univ)) rfl hin23) := by
    delta tile_body.sl.dma0_24; dsimp only
    rw [Cert.Lib.WholeWrites.writes_whole_cons]; rfl
  ihave Hd23 := (Entails.of_eq (show ((oChL23 L).view.loc (V d (cV L) (jV L)) ↦[(oChL23 L).view.set]{fullShare} _ : sProp 𝕄) = oPc d L 23 (outOf I3 TB) from
      pointsTo_congr (ℓ := oLoc d) (q := fullShare) (chunk_value d L TB I3 O0 hI _ hFI 23 hin23 _ hG23))) $$ Hc23'
  have hG24 : tile_body.sl.dma0_25 d L TB I3 fI fA hin0 hin4 hin8 hin12 hin16 hin20 hin24
      = SparseCore.gatherPayload gathers_S100000x128_S128x128 ((tAllK).view.read (Elt F) TB) (SparseCore.rows ((offK 24).view.read (Elt F) (View.write (Elt F) (sI).view fI (tile_body.sl.dma0 d L I3) Finset.univ)) rfl hin24) := by
    delta tile_body.sl.dma0_25; dsimp only
    rw [Cert.Lib.WholeWrites.writes_whole_cons]; rfl
  ihave Hd24 := (Entails.of_eq (show ((oChL24 L).view.loc (V d (cV L) (jV L)) ↦[(oChL24 L).view.set]{fullShare} _ : sProp 𝕄) = oPc d L 24 (outOf I3 TB) from
      pointsTo_congr (ℓ := oLoc d) (q := fullShare) (chunk_value d L TB I3 O0 hI _ hFI 24 hin24 _ hG24))) $$ Hc24'
  have hG25 : tile_body.sl.dma0_26 d L TB I3 fI fB hin1 hin5 hin9 hin13 hin17 hin21 hin25
      = SparseCore.gatherPayload gathers_S100000x128_S128x128 ((tAllK).view.read (Elt F) TB) (SparseCore.rows ((offK 25).view.read (Elt F) (View.write (Elt F) (sI).view fI (tile_body.sl.dma0 d L I3) Finset.univ)) rfl hin25) := by
    delta tile_body.sl.dma0_26; dsimp only
    rw [Cert.Lib.WholeWrites.writes_whole_cons]; rfl
  ihave Hd25 := (Entails.of_eq (show ((oChL25 L).view.loc (V d (cV L) (jV L)) ↦[(oChL25 L).view.set]{fullShare} _ : sProp 𝕄) = oPc d L 25 (outOf I3 TB) from
      pointsTo_congr (ℓ := oLoc d) (q := fullShare) (chunk_value d L TB I3 O0 hI _ hFI 25 hin25 _ hG25))) $$ Hc25'
  isplitl [Hi' HtA HtB HtC HtD Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25]
  · isplitl [Hi']; · iexact Hi'
    isplitl [HtA HtB HtC HtD]
    · ihave HtL := (pointsTo_share (PosShare.mem_left_op_right q.left)).2 $$ [HtA HtB]; · isplitl [HtA] <;> iassumption
      ihave HtR := (pointsTo_share (PosShare.mem_left_op_right q.right)).2 $$ [HtC HtD]; · isplitl [HtC] <;> iassumption
      ihave Ht := (pointsTo_share (PosShare.mem_left_op_right q)).2 $$ [HtL HtR]; · isplitl [HtL] <;> iassumption
      iexact Ht
    iapply (Entails.of_eq (bigSep_fin26 (F := F) (fun r => oPc d L r (outOf I3 TB))).symm)
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    iexact Hd25
  isplitl [Hr0' Hr1' Hr2' Hr3' Hr4' Hr5' Hr6' Hr7' Hr8' Hr9' Hr10' Hr11' Hr12' Hr13' Hr14' Hr15' Hr16' Hr17' Hr18' Hr19' Hr20' Hr21' Hr22' Hr23' Hr24' Hr25' HbA' HbB' HbC' HbD' Hbufs]
  · isplitl [Hr0' Hr1' Hr2' Hr3' Hr4' Hr5' Hr6' Hr7' Hr8' Hr9' Hr10' Hr11' Hr12' Hr13' Hr14' Hr15' Hr16' Hr17' Hr18' Hr19' Hr20' Hr21' Hr22' Hr23' Hr24' Hr25']
    · iexists (View.write (Elt F) (sI).view fI (tile_body.sl.dma0 d L I3) Finset.univ)
      iapply (Entails.of_eq ((sI_rows (F := F) d (cV L) (jV L) _).trans (bigSep_fin26 _)).symm)
      isplitl [Hr0']; · iapply (Entails.of_eq (show ((offL0).view.loc (V d (cV L) (jV L)) ↦[(offL0).view.set]{fullShare} (View.write (Elt F) (sI).view fI (tile_body.sl.dma0 d L I3) Finset.univ) : sProp 𝕄) = (V d (cV L) (jV L)).loc cc0_scratch0 ↦[rowSet 0]{fullShare} (View.write (Elt F) (sI).view fI (tile_body.sl.dma0 d L I3) Finset.univ) from by rw [← set_offK 0]; rfl)); iexact Hr0'
      isplitl [Hr1']; · iapply (Entails.of_eq (show ((offL1).view.loc (V d (cV L) (jV L)) ↦[(offL1).view.set]{fullShare} (View.write (Elt F) (sI).view fI (tile_body.sl.dma0 d L I3) Finset.univ) : sProp 𝕄) = (V d (cV L) (jV L)).loc cc0_scratch0 ↦[rowSet 1]{fullShare} (View.write (Elt F) (sI).view fI (tile_body.sl.dma0 d L I3) Finset.univ) from by rw [← set_offK 1]; rfl)); iexact Hr1'
      isplitl [Hr2']; · iapply (Entails.of_eq (show ((offL2).view.loc (V d (cV L) (jV L)) ↦[(offL2).view.set]{fullShare} (View.write (Elt F) (sI).view fI (tile_body.sl.dma0 d L I3) Finset.univ) : sProp 𝕄) = (V d (cV L) (jV L)).loc cc0_scratch0 ↦[rowSet 2]{fullShare} (View.write (Elt F) (sI).view fI (tile_body.sl.dma0 d L I3) Finset.univ) from by rw [← set_offK 2]; rfl)); iexact Hr2'
      isplitl [Hr3']; · iapply (Entails.of_eq (show ((offL3).view.loc (V d (cV L) (jV L)) ↦[(offL3).view.set]{fullShare} (View.write (Elt F) (sI).view fI (tile_body.sl.dma0 d L I3) Finset.univ) : sProp 𝕄) = (V d (cV L) (jV L)).loc cc0_scratch0 ↦[rowSet 3]{fullShare} (View.write (Elt F) (sI).view fI (tile_body.sl.dma0 d L I3) Finset.univ) from by rw [← set_offK 3]; rfl)); iexact Hr3'
      isplitl [Hr4']; · iapply (Entails.of_eq (show ((offL4).view.loc (V d (cV L) (jV L)) ↦[(offL4).view.set]{fullShare} (View.write (Elt F) (sI).view fI (tile_body.sl.dma0 d L I3) Finset.univ) : sProp 𝕄) = (V d (cV L) (jV L)).loc cc0_scratch0 ↦[rowSet 4]{fullShare} (View.write (Elt F) (sI).view fI (tile_body.sl.dma0 d L I3) Finset.univ) from by rw [← set_offK 4]; rfl)); iexact Hr4'
      isplitl [Hr5']; · iapply (Entails.of_eq (show ((offL5).view.loc (V d (cV L) (jV L)) ↦[(offL5).view.set]{fullShare} (View.write (Elt F) (sI).view fI (tile_body.sl.dma0 d L I3) Finset.univ) : sProp 𝕄) = (V d (cV L) (jV L)).loc cc0_scratch0 ↦[rowSet 5]{fullShare} (View.write (Elt F) (sI).view fI (tile_body.sl.dma0 d L I3) Finset.univ) from by rw [← set_offK 5]; rfl)); iexact Hr5'
      isplitl [Hr6']; · iapply (Entails.of_eq (show ((offL6).view.loc (V d (cV L) (jV L)) ↦[(offL6).view.set]{fullShare} (View.write (Elt F) (sI).view fI (tile_body.sl.dma0 d L I3) Finset.univ) : sProp 𝕄) = (V d (cV L) (jV L)).loc cc0_scratch0 ↦[rowSet 6]{fullShare} (View.write (Elt F) (sI).view fI (tile_body.sl.dma0 d L I3) Finset.univ) from by rw [← set_offK 6]; rfl)); iexact Hr6'
      isplitl [Hr7']; · iapply (Entails.of_eq (show ((offL7).view.loc (V d (cV L) (jV L)) ↦[(offL7).view.set]{fullShare} (View.write (Elt F) (sI).view fI (tile_body.sl.dma0 d L I3) Finset.univ) : sProp 𝕄) = (V d (cV L) (jV L)).loc cc0_scratch0 ↦[rowSet 7]{fullShare} (View.write (Elt F) (sI).view fI (tile_body.sl.dma0 d L I3) Finset.univ) from by rw [← set_offK 7]; rfl)); iexact Hr7'
      isplitl [Hr8']; · iapply (Entails.of_eq (show ((offL8).view.loc (V d (cV L) (jV L)) ↦[(offL8).view.set]{fullShare} (View.write (Elt F) (sI).view fI (tile_body.sl.dma0 d L I3) Finset.univ) : sProp 𝕄) = (V d (cV L) (jV L)).loc cc0_scratch0 ↦[rowSet 8]{fullShare} (View.write (Elt F) (sI).view fI (tile_body.sl.dma0 d L I3) Finset.univ) from by rw [← set_offK 8]; rfl)); iexact Hr8'
      isplitl [Hr9']; · iapply (Entails.of_eq (show ((offL9).view.loc (V d (cV L) (jV L)) ↦[(offL9).view.set]{fullShare} (View.write (Elt F) (sI).view fI (tile_body.sl.dma0 d L I3) Finset.univ) : sProp 𝕄) = (V d (cV L) (jV L)).loc cc0_scratch0 ↦[rowSet 9]{fullShare} (View.write (Elt F) (sI).view fI (tile_body.sl.dma0 d L I3) Finset.univ) from by rw [← set_offK 9]; rfl)); iexact Hr9'
      isplitl [Hr10']; · iapply (Entails.of_eq (show ((offL10).view.loc (V d (cV L) (jV L)) ↦[(offL10).view.set]{fullShare} (View.write (Elt F) (sI).view fI (tile_body.sl.dma0 d L I3) Finset.univ) : sProp 𝕄) = (V d (cV L) (jV L)).loc cc0_scratch0 ↦[rowSet 10]{fullShare} (View.write (Elt F) (sI).view fI (tile_body.sl.dma0 d L I3) Finset.univ) from by rw [← set_offK 10]; rfl)); iexact Hr10'
      isplitl [Hr11']; · iapply (Entails.of_eq (show ((offL11).view.loc (V d (cV L) (jV L)) ↦[(offL11).view.set]{fullShare} (View.write (Elt F) (sI).view fI (tile_body.sl.dma0 d L I3) Finset.univ) : sProp 𝕄) = (V d (cV L) (jV L)).loc cc0_scratch0 ↦[rowSet 11]{fullShare} (View.write (Elt F) (sI).view fI (tile_body.sl.dma0 d L I3) Finset.univ) from by rw [← set_offK 11]; rfl)); iexact Hr11'
      isplitl [Hr12']; · iapply (Entails.of_eq (show ((offL12).view.loc (V d (cV L) (jV L)) ↦[(offL12).view.set]{fullShare} (View.write (Elt F) (sI).view fI (tile_body.sl.dma0 d L I3) Finset.univ) : sProp 𝕄) = (V d (cV L) (jV L)).loc cc0_scratch0 ↦[rowSet 12]{fullShare} (View.write (Elt F) (sI).view fI (tile_body.sl.dma0 d L I3) Finset.univ) from by rw [← set_offK 12]; rfl)); iexact Hr12'
      isplitl [Hr13']; · iapply (Entails.of_eq (show ((offL13).view.loc (V d (cV L) (jV L)) ↦[(offL13).view.set]{fullShare} (View.write (Elt F) (sI).view fI (tile_body.sl.dma0 d L I3) Finset.univ) : sProp 𝕄) = (V d (cV L) (jV L)).loc cc0_scratch0 ↦[rowSet 13]{fullShare} (View.write (Elt F) (sI).view fI (tile_body.sl.dma0 d L I3) Finset.univ) from by rw [← set_offK 13]; rfl)); iexact Hr13'
      isplitl [Hr14']; · iapply (Entails.of_eq (show ((offL14).view.loc (V d (cV L) (jV L)) ↦[(offL14).view.set]{fullShare} (View.write (Elt F) (sI).view fI (tile_body.sl.dma0 d L I3) Finset.univ) : sProp 𝕄) = (V d (cV L) (jV L)).loc cc0_scratch0 ↦[rowSet 14]{fullShare} (View.write (Elt F) (sI).view fI (tile_body.sl.dma0 d L I3) Finset.univ) from by rw [← set_offK 14]; rfl)); iexact Hr14'
      isplitl [Hr15']; · iapply (Entails.of_eq (show ((offL15).view.loc (V d (cV L) (jV L)) ↦[(offL15).view.set]{fullShare} (View.write (Elt F) (sI).view fI (tile_body.sl.dma0 d L I3) Finset.univ) : sProp 𝕄) = (V d (cV L) (jV L)).loc cc0_scratch0 ↦[rowSet 15]{fullShare} (View.write (Elt F) (sI).view fI (tile_body.sl.dma0 d L I3) Finset.univ) from by rw [← set_offK 15]; rfl)); iexact Hr15'
      isplitl [Hr16']; · iapply (Entails.of_eq (show ((offL16).view.loc (V d (cV L) (jV L)) ↦[(offL16).view.set]{fullShare} (View.write (Elt F) (sI).view fI (tile_body.sl.dma0 d L I3) Finset.univ) : sProp 𝕄) = (V d (cV L) (jV L)).loc cc0_scratch0 ↦[rowSet 16]{fullShare} (View.write (Elt F) (sI).view fI (tile_body.sl.dma0 d L I3) Finset.univ) from by rw [← set_offK 16]; rfl)); iexact Hr16'
      isplitl [Hr17']; · iapply (Entails.of_eq (show ((offL17).view.loc (V d (cV L) (jV L)) ↦[(offL17).view.set]{fullShare} (View.write (Elt F) (sI).view fI (tile_body.sl.dma0 d L I3) Finset.univ) : sProp 𝕄) = (V d (cV L) (jV L)).loc cc0_scratch0 ↦[rowSet 17]{fullShare} (View.write (Elt F) (sI).view fI (tile_body.sl.dma0 d L I3) Finset.univ) from by rw [← set_offK 17]; rfl)); iexact Hr17'
      isplitl [Hr18']; · iapply (Entails.of_eq (show ((offL18).view.loc (V d (cV L) (jV L)) ↦[(offL18).view.set]{fullShare} (View.write (Elt F) (sI).view fI (tile_body.sl.dma0 d L I3) Finset.univ) : sProp 𝕄) = (V d (cV L) (jV L)).loc cc0_scratch0 ↦[rowSet 18]{fullShare} (View.write (Elt F) (sI).view fI (tile_body.sl.dma0 d L I3) Finset.univ) from by rw [← set_offK 18]; rfl)); iexact Hr18'
      isplitl [Hr19']; · iapply (Entails.of_eq (show ((offL19).view.loc (V d (cV L) (jV L)) ↦[(offL19).view.set]{fullShare} (View.write (Elt F) (sI).view fI (tile_body.sl.dma0 d L I3) Finset.univ) : sProp 𝕄) = (V d (cV L) (jV L)).loc cc0_scratch0 ↦[rowSet 19]{fullShare} (View.write (Elt F) (sI).view fI (tile_body.sl.dma0 d L I3) Finset.univ) from by rw [← set_offK 19]; rfl)); iexact Hr19'
      isplitl [Hr20']; · iapply (Entails.of_eq (show ((offL20).view.loc (V d (cV L) (jV L)) ↦[(offL20).view.set]{fullShare} (View.write (Elt F) (sI).view fI (tile_body.sl.dma0 d L I3) Finset.univ) : sProp 𝕄) = (V d (cV L) (jV L)).loc cc0_scratch0 ↦[rowSet 20]{fullShare} (View.write (Elt F) (sI).view fI (tile_body.sl.dma0 d L I3) Finset.univ) from by rw [← set_offK 20]; rfl)); iexact Hr20'
      isplitl [Hr21']; · iapply (Entails.of_eq (show ((offL21).view.loc (V d (cV L) (jV L)) ↦[(offL21).view.set]{fullShare} (View.write (Elt F) (sI).view fI (tile_body.sl.dma0 d L I3) Finset.univ) : sProp 𝕄) = (V d (cV L) (jV L)).loc cc0_scratch0 ↦[rowSet 21]{fullShare} (View.write (Elt F) (sI).view fI (tile_body.sl.dma0 d L I3) Finset.univ) from by rw [← set_offK 21]; rfl)); iexact Hr21'
      isplitl [Hr22']; · iapply (Entails.of_eq (show ((offL22).view.loc (V d (cV L) (jV L)) ↦[(offL22).view.set]{fullShare} (View.write (Elt F) (sI).view fI (tile_body.sl.dma0 d L I3) Finset.univ) : sProp 𝕄) = (V d (cV L) (jV L)).loc cc0_scratch0 ↦[rowSet 22]{fullShare} (View.write (Elt F) (sI).view fI (tile_body.sl.dma0 d L I3) Finset.univ) from by rw [← set_offK 22]; rfl)); iexact Hr22'
      isplitl [Hr23']; · iapply (Entails.of_eq (show ((offL23).view.loc (V d (cV L) (jV L)) ↦[(offL23).view.set]{fullShare} (View.write (Elt F) (sI).view fI (tile_body.sl.dma0 d L I3) Finset.univ) : sProp 𝕄) = (V d (cV L) (jV L)).loc cc0_scratch0 ↦[rowSet 23]{fullShare} (View.write (Elt F) (sI).view fI (tile_body.sl.dma0 d L I3) Finset.univ) from by rw [← set_offK 23]; rfl)); iexact Hr23'
      isplitl [Hr24']; · iapply (Entails.of_eq (show ((offL24).view.loc (V d (cV L) (jV L)) ↦[(offL24).view.set]{fullShare} (View.write (Elt F) (sI).view fI (tile_body.sl.dma0 d L I3) Finset.univ) : sProp 𝕄) = (V d (cV L) (jV L)).loc cc0_scratch0 ↦[rowSet 24]{fullShare} (View.write (Elt F) (sI).view fI (tile_body.sl.dma0 d L I3) Finset.univ) from by rw [← set_offK 24]; rfl)); iexact Hr24'
      iapply (Entails.of_eq (show ((offL25).view.loc (V d (cV L) (jV L)) ↦[(offL25).view.set]{fullShare} (View.write (Elt F) (sI).view fI (tile_body.sl.dma0 d L I3) Finset.univ) : sProp 𝕄) = (V d (cV L) (jV L)).loc cc0_scratch0 ↦[rowSet 25]{fullShare} (View.write (Elt F) (sI).view fI (tile_body.sl.dma0 d L I3) Finset.univ) from by rw [← set_offK 25]; rfl)); iexact Hr25'
    isplitl [HbA']; · iexists _; iexact HbA'
    isplitl [HbB']; · iexists _; iexact HbB'
    isplitl [HbC']; · iexists _; iexact HbC'
    isplitl [HbD']; · iexists _; iexact HbD'
    iexact Hbufs
  isplitl [Hs0 Hs1 Hs2 Hs3 Hs4 Hs5 Hs6 Hs7 Hs8 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  swap; · iexact HO
  ipureintro; intro p hp
  repeat (rcases Finset.mem_insert.mp hp with hp | hp; · exact .inr (hp ▸ rfl))
  exact .inl hp

end Body

end Cert.Proof.KB

end
-- ==== Proof.KbSplit.lean ====
/-
  The arrays decomposed among the thirty-two tasks. The table is read by every task at once: each holds one leaf of the
  full share halved five times. The re-laid index array `[32, 26, 128]` is cut along its first axis into its slabs:
  task `(c, s)` has slab `2·s + c`, and `(c, s) ↦ 2·s + c` is a bijection onto the slabs. The gathered-rows array
  `[106496, 128]` is cut along its first axis into 832 chunks of 128 rows: chunk `r` of task `(c, s)` begins at row
  `6656·s + 3328·c + 128·r = 128·(26·(2·s + c) + r)`, and `(c, s, r) ↦ 26·(2·s + c) + r` is a bijection onto the chunks.
-/
import proofs.«206664_g71932112273502_cont_9to1_m_983_11_alg».proof.Proof.KbTile

noncomputable section

namespace Cert.Proof.KB

open Cert.Kernel Cert.Kernel.Gen

open Idealize.ShloMosaic
open Idealize.ShloMosaic.ValueIdx (ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S100000x128 EltTy.f32)
local notation "iV" => (Memref.whole Cert.Kernel.main_v2_scv : Memref Cert.Kernel.sig Kind.scVector Space.hbm Cert.Kernel.S32x26x128 EltTy.i32)
local notation "oV" => (Memref.whole Cert.Kernel.main_v3_scv : Memref Cert.Kernel.sig Kind.scVector Space.hbm Cert.Kernel.S106496x128 EltTy.f32)
local notation "sI" => (Memref.whole Cert.Kernel.cc0_scratch0 : Memref Cert.Kernel.sig Kind.scVector Space.vmem Cert.Kernel.S26x128 EltTy.i32)
local notation "bA" => (Memref.whole Cert.Kernel.cc0_scratch1 : Memref Cert.Kernel.sig Kind.scVector Space.vmem Cert.Kernel.S128x128 EltTy.f32)
local notation "bB" => (Memref.whole Cert.Kernel.cc0_scratch2 : Memref Cert.Kernel.sig Kind.scVector Space.vmem Cert.Kernel.S128x128 EltTy.f32)
local notation "bC" => (Memref.whole Cert.Kernel.cc0_scratch3 : Memref Cert.Kernel.sig Kind.scVector Space.vmem Cert.Kernel.S128x128 EltTy.f32)
local notation "bD" => (Memref.whole Cert.Kernel.cc0_scratch4 : Memref Cert.Kernel.sig Kind.scVector Space.vmem Cert.Kernel.S128x128 EltTy.f32)

/-! ## The tasks -/

/-- The grid point of vector subcore s of SparseCore c. -/
def coordsV (c : Fin 2) (s : Fin 16) : grid0.Coords := fun | 0 => c | 1 => s | ⟨_ + 2, h⟩ => absurd h (Nat.not_lt.2 (Nat.le_add_left _ _))

/-- Task (c, s)'s share of the table: a leaf of the full share halved five times. -/
def tq (c : Fin 2) (s : Fin 16) : PosShare TreeShare := leaf 5 fullShare (finProdFinEquiv (m := 2) (n := 16) (c, s))

/-! ## The table: thirty-two shares -/

theorem tLoc_shares (d : Dev nD) (f : Buf (Elt F) (tLoc d)) :
    (tLoc d ↦{fullShare} f : sProp 𝕄) = bigSep Finset.univ fun c : Fin 2 => bigSep Finset.univ fun s : Fin 16 => tLoc d ↦{tq c s} f :=
  (pointsTo_leaves Finset.univ f 5 fullShare).trans
    ((bigSep_univ_equiv (finProdFinEquiv (m := 2) (n := 16))
        (fun i : Fin (2 ^ 5) => (tLoc d ↦{leaf 5 fullShare i} f : sProp 𝕄))).trans
      (bigSep_univ_prod (fun p : Fin 2 × Fin 16 => (tLoc d ↦{leaf 5 fullShare (finProdFinEquiv (m := 2) (n := 16) p)} f : sProp 𝕄))))

/-! ## The re-laid index array: thirty-two slabs -/

/-- The slab's offsets at task `(c, s)`: slab `2·s + c`. -/
theorem off1_coordsV (c : Fin 2) (s : Fin 16) : k0_off1 (coordsV c s) = ![2 * s.val + c.val, 0, 0] := k0_off1_eq (coordsV c s)

/-- The slab as the task names it (sliced, then squeezed) is the rectangle's elements. -/
theorem set_iSlabK (L : grid0.Coords) : (iSlabK L).view.set = (islabK L).set := by
  show (((iV).view.slice (islabK L)).reshape S26x128 squeezes_S1x26x128_S26x128.numel_eq).set = _
  rw [View.set_reshape]
  show ((View.whole (main_v2_scv : Ref sig .scVector)).slice (islabK L)).set = _
  rw [View.set_slice]; exact Finset.map_refl

/-- Different tasks' slabs are disjoint: they differ on the first axis. -/
theorem islabs_disjoint : ∀ p ∈ (Finset.univ : Finset (Fin 2 × Fin 16)), ∀ p' ∈ (Finset.univ : Finset (Fin 2 × Fin 16)), p ≠ p' →
    Disjoint (islabK (coordsV p.1 p.2)).set (islabK (coordsV p'.1 p'.2)).set := by
  rintro ⟨c, s⟩ - ⟨c', s'⟩ - hne
  refine Rect.unit_disjoint (0 : Fin 3) ?_
  rw [off1_coordsV, off1_coordsV]
  show 2 * s.val + c.val + 1 ≤ 2 * s'.val + c'.val ∨ 2 * s'.val + c'.val + 1 ≤ 2 * s.val + c.val
  have hd : c.val ≠ c'.val ∨ s.val ≠ s'.val := by
    by_cases h1 : c.val = c'.val
    · by_cases h2 : s.val = s'.val
      · exact absurd (Prod.ext (Fin.ext h1) (Fin.ext h2)) hne
      · exact .inr h2
    · exact .inl h1
  have hc := c.isLt
  have hc' := c'.isLt
  omega

/-- The slabs cover the array: index `i` is in slab `i 0`, task `(i 0 % 2, i 0 / 2)`. -/
theorem islabs_cover : (Finset.univ : Finset (Fin 2 × Fin 16)).biUnion (fun p => (islabK (coordsV p.1 p.2)).set) = Finset.univ := by
  ext i
  simp only [Finset.mem_biUnion, Finset.mem_univ, true_and, iff_true]
  have h0 : (i 0).val < 32 := (i 0).isLt
  have h1 : (i 1).val < 26 := (i 1).isLt
  have h2 : (i 2).val < 128 := (i 2).isLt
  refine ⟨(⟨(i 0).val % 2, by omega⟩, ⟨(i 0).val / 2, by omega⟩), ?_⟩
  rw [Rect.mem_set_unit, off1_coordsV]
  intro a
  match a with
  | ⟨0, _⟩ =>
    show 2 * ((i 0).val / 2) + (i 0).val % 2 ≤ (i 0).val ∧ (i 0).val < 2 * ((i 0).val / 2) + (i 0).val % 2 + 1
    omega
  | ⟨1, _⟩ =>
    show 0 ≤ (i 1).val ∧ (i 1).val < 0 + 26
    omega
  | ⟨2, _⟩ =>
    show 0 ≤ (i 2).val ∧ (i 2).val < 0 + 128
    omega

theorem iLoc_slabs (d : Dev nD) (f : Buf (Elt F) (iLoc d)) :
    (iLoc d ↦{fullShare} f : sProp 𝕄) = bigSep Finset.univ fun c : Fin 2 => bigSep Finset.univ fun s : Fin 16 => iLoc d ↦[(iSlabK (coordsV c s)).view.set]{fullShare} f := by
  have e : (iLoc d ↦[_]{fullShare} f : sProp 𝕄) = _ :=
    pointsTo_biUnion (Finset.univ : Finset (Fin 2 × Fin 16)) (ℓ := iLoc d)
      (fun p => (islabK (coordsV p.1 p.2)).set) islabs_disjoint
  rw [islabs_cover] at e
  refine e.trans ((bigSep_univ_prod _).trans ?_)
  refine bigSep_congr fun c _ => bigSep_congr fun s _ => ?_
  rw [set_iSlabK]

/-! ## The gathered rows: eight hundred and thirty-two chunks -/

/-- Chunk `r` of task `L`, as a rectangle of the gathered-rows array. -/
abbrev ochK (L : grid0.Coords) (r : Fin 26) : Rect S106496x128 :=
  Rect.unit (s := S106496x128) (k0_off2 L (BitVec.ofNat 32 (128 * r.val))) S128x128.size (k0_off2_inb L r)

/-- The chunk's offsets at task `(c, s)`: 128 rows from `6656·s + 3328·c + 128·r`. -/
theorem off2_coordsV (c : Fin 2) (s : Fin 16) (r : Fin 26) :
    k0_off2 (coordsV c s) (BitVec.ofNat 32 (128 * r.val)) = ![6656 * s.val + 3328 * c.val + 128 * r.val, 0] :=
  k0_off2_eq (coordsV c s) r

/-- The chunk as the task names it is the rectangle's elements. -/
theorem set_oChK (L : grid0.Coords) (r : Fin 26) : (oChK L r).view.set = (ochK L r).set := by
  show ((View.whole (main_v3_scv : Ref sig .scVector)).slice (ochK L r)).set = _
  rw [View.set_slice]; exact Finset.map_refl

/-- Different chunks are disjoint: they differ on the first axis. -/
theorem ochunks_disjoint : ∀ p ∈ (Finset.univ : Finset (Fin 2 × Fin 16 × Fin 26)), ∀ p' ∈ (Finset.univ : Finset (Fin 2 × Fin 16 × Fin 26)), p ≠ p' →
    Disjoint (ochK (coordsV p.1 p.2.1) p.2.2).set (ochK (coordsV p'.1 p'.2.1) p'.2.2).set := by
  rintro ⟨c, s, r⟩ - ⟨c', s', r'⟩ - hne
  refine Rect.unit_disjoint (0 : Fin 2) ?_
  rw [off2_coordsV, off2_coordsV]
  show 6656 * s.val + 3328 * c.val + 128 * r.val + 128 ≤ 6656 * s'.val + 3328 * c'.val + 128 * r'.val
    ∨ 6656 * s'.val + 3328 * c'.val + 128 * r'.val + 128 ≤ 6656 * s.val + 3328 * c.val + 128 * r.val
  have hd : c.val ≠ c'.val ∨ s.val ≠ s'.val ∨ r.val ≠ r'.val := by
    by_cases h1 : c.val = c'.val
    · by_cases h2 : s.val = s'.val
      · by_cases h3 : r.val = r'.val
        · exact absurd (Prod.ext (Fin.ext h1) (Prod.ext (Fin.ext h2) (Fin.ext h3))) hne
        · exact .inr (.inr h3)
      · exact .inr (.inl h2)
    · exact .inl h1
  have hc := c.isLt
  have hc' := c'.isLt
  have hr := r.isLt
  have hr' := r'.isLt
  omega

/-- The chunks cover the array: row `ρ` is in chunk `ρ % 3328 / 128` of task `(ρ / 3328 % 2, ρ / 6656)`. -/
theorem ochunks_cover : (Finset.univ : Finset (Fin 2 × Fin 16 × Fin 26)).biUnion (fun p => (ochK (coordsV p.1 p.2.1) p.2.2).set) = Finset.univ := by
  ext i
  simp only [Finset.mem_biUnion, Finset.mem_univ, true_and, iff_true]
  have h0 : (i 0).val < 106496 := (i 0).isLt
  have h1 : (i 1).val < 128 := (i 1).isLt
  refine ⟨(⟨(i 0).val / 3328 % 2, by omega⟩, ⟨(i 0).val / 6656, by omega⟩, ⟨(i 0).val % 3328 / 128, by omega⟩), ?_⟩
  rw [Rect.mem_set_unit, off2_coordsV]
  intro a
  match a with
  | ⟨0, _⟩ =>
    show 6656 * ((i 0).val / 6656) + 3328 * ((i 0).val / 3328 % 2) + 128 * ((i 0).val % 3328 / 128) ≤ (i 0).val
      ∧ (i 0).val < 6656 * ((i 0).val / 6656) + 3328 * ((i 0).val / 3328 % 2) + 128 * ((i 0).val % 3328 / 128) + 128
    omega
  | ⟨1, _⟩ =>
    show 0 ≤ (i 1).val ∧ (i 1).val < 0 + 128
    omega

theorem oLoc_chunks (d : Dev nD) (f : Buf (Elt F) (oLoc d)) :
    (oLoc d ↦{fullShare} f : sProp 𝕄) = bigSep Finset.univ fun c : Fin 2 => bigSep Finset.univ fun s : Fin 16 => bigSep Finset.univ fun r : Fin 26 => oLoc d ↦[(oChK (coordsV c s) r).view.set]{fullShare} f := by
  have e : (oLoc d ↦[_]{fullShare} f : sProp 𝕄) = _ :=
    pointsTo_biUnion (Finset.univ : Finset (Fin 2 × Fin 16 × Fin 26)) (ℓ := oLoc d)
      (fun p => (ochK (coordsV p.1 p.2.1) p.2.2).set) ochunks_disjoint
  rw [ochunks_cover] at e
  refine e.trans ((bigSep_univ_prod _).trans ?_)
  refine bigSep_congr fun c _ => (bigSep_univ_prod _).trans ?_
  refine bigSep_congr fun s _ => bigSep_congr fun r _ => ?_
  rw [set_oChK]

end Cert.Proof.KB

end
-- ==== Proof.KbPay.lean ====
/-
  What the launch's handshakes carry. The TensorCore hands each SparseCore, and its sequencer each of its sixteen
  tasks, the task's slab of the re-laid index array, its share of the table and its twenty-six chunks of the gathered-rows
  array; each task brings them back with its chunks holding the gathered rows. What the arrays hold is stated by the
  layout's pure functions of the launch memory: the re-laid index array is `idx3Of` of the index array, the gathered
  rows `outOf` of that and the table, the result `resOf` of the gathered rows.
-/
import proofs.«206664_g71932112273502_cont_9to1_m_983_11_alg».proof.Proof.KbSplit

noncomputable section

namespace Cert.Proof.KB

open Cert.Kernel Cert.Kernel.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S100000x128 EltTy.f32)
local notation "iV" => (Memref.whole Cert.Kernel.main_v2_scv : Memref Cert.Kernel.sig Kind.scVector Space.hbm Cert.Kernel.S32x26x128 EltTy.i32)
local notation "oV" => (Memref.whole Cert.Kernel.main_v3_scv : Memref Cert.Kernel.sig Kind.scVector Space.hbm Cert.Kernel.S106496x128 EltTy.f32)
local notation "sI" => (Memref.whole Cert.Kernel.cc0_scratch0 : Memref Cert.Kernel.sig Kind.scVector Space.vmem Cert.Kernel.S26x128 EltTy.i32)
local notation "bA" => (Memref.whole Cert.Kernel.cc0_scratch1 : Memref Cert.Kernel.sig Kind.scVector Space.vmem Cert.Kernel.S128x128 EltTy.f32)
local notation "bB" => (Memref.whole Cert.Kernel.cc0_scratch2 : Memref Cert.Kernel.sig Kind.scVector Space.vmem Cert.Kernel.S128x128 EltTy.f32)
local notation "bC" => (Memref.whole Cert.Kernel.cc0_scratch3 : Memref Cert.Kernel.sig Kind.scVector Space.vmem Cert.Kernel.S128x128 EltTy.f32)
local notation "bD" => (Memref.whole Cert.Kernel.cc0_scratch4 : Memref Cert.Kernel.sig Kind.scVector Space.vmem Cert.Kernel.S128x128 EltTy.f32)

variable (m : (ℓ : Loc nD τ sig) → Buf (Elt F) ℓ) (ρ : Dev nD → PrngReg)

/-- The re-laid index array, the gathered rows and the result, as functions of the launch memory. -/
abbrev I3m (d : Dev nD) : Buf (Elt F) (iLoc d) := idx3Of (m (xLoc d))
abbrev OUTm (d : Dev nD) : Buf (Elt F) (oLoc d) := outOf (I3m m d) (m (tLoc d))
abbrev Rm (d : Dev nD) : Buf (Elt F) (rLoc d) := resOf (OUTm m d)

/-- Task `(c, s)`'s slab, share and chunks, the chunks at contents `f`. -/
abbrev taskPts (d : Dev nD) (c : Fin 2) (s : Fin 16) (f : Buf (Elt F) (oLoc d)) : sProp 𝕄 :=
  iprop((iLoc d ↦[(iSlabK (coordsV c s)).view.set]{fullShare} I3m m d) ∗ (tLoc d ↦{tq c s} m (tLoc d))
    ∗ bigSep Finset.univ fun r : Fin 26 => oLoc d ↦[(oChK (coordsV c s) r).view.set]{fullShare} f)

/-- The one call hands SparseCore `c` its sixteen tasks' pieces, each task its own, and brings them back with the
    chunks at the gathered rows; a task's proof needs nothing from the launch element. -/
def P : (K (F := F)).Pay (nD := nD) (Val := Elt F) (Name := ℕ) (U := UU) where
  st := fun q d c => match q with
    | 0 => bigSep Finset.univ fun s : Fin 16 => taskPts m d (Fin.cast nCore_zero c) s (m (oLoc d))
  dn := fun q d c => match q with
    | 0 => bigSep Finset.univ fun s : Fin 16 => taskPts m d (Fin.cast nCore_zero c) s (OUTm m d)
  go := fun q d c i => match q with
    | 0 => taskPts m d (Fin.cast nCore_zero c) (Fin.cast nSub_zero i) (m (oLoc d))
  td := fun q d c i => match q with
    | 0 => taskPts m d (Fin.cast nCore_zero c) (Fin.cast nSub_zero i) (OUTm m d)
  x := fun _ _ => iprop(emp)

instance P_storable : (P (F := F) m).IsStorable where
  st q d c := match q with
    | 0 => (inferInstance : BI.Storable (upEmb : UEmb _ 𝕄) (bigSep Finset.univ fun s : Fin 16 => taskPts m d (Fin.cast nCore_zero c) s (m (oLoc d))))
  dn q d c := match q with
    | 0 => (inferInstance : BI.Storable (upEmb : UEmb _ 𝕄) (bigSep Finset.univ fun s : Fin 16 => taskPts m d (Fin.cast nCore_zero c) s (OUTm m d)))
  go q d c i := match q with
    | 0 => (inferInstance : BI.Storable (upEmb : UEmb _ 𝕄) (taskPts m d (Fin.cast nCore_zero c) (Fin.cast nSub_zero i) (m (oLoc d))))
  td q d c i := match q with
    | 0 => (inferInstance : BI.Storable (upEmb : UEmb _ 𝕄) (taskPts m d (Fin.cast nCore_zero c) (Fin.cast nSub_zero i) (OUTm m d)))

/-- What @main keeps at its end: the index array and the table as launched, the result at the lookup's layout term. -/
abbrev FIN (d : Dev nD) : sProp 𝕄 :=
  iprop((xLoc d ↦{fullShare} m (xLoc d)) ∗ (tLoc d ↦{fullShare} m (tLoc d)) ∗ rLoc d ↦{fullShare} Rm m d)

end Cert.Proof.KB

end
-- ==== Proof.KbMain.lean ====
/-
  @main on the TensorCore. Three host operations re-lay the index array (transpose, flatten, cut into slabs); the one
  SparseCore call hands the thirty-two tasks the slabs, the table's shares and the gathered-rows array's chunks and
  brings them back with the chunks at the gathered rows; two more host operations re-lay the gathered rows into the
  result (cut into blocks, exchange the first two axes). The index array and the table are kept, and the result holds
  the layout's term of them.
-/
import proofs.«206664_g71932112273502_cont_9to1_m_983_11_alg».proof.Proof.KbPay

noncomputable section

namespace Cert.Proof.KB

open Cert.Kernel Cert.Kernel.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S100000x128 EltTy.f32)
local notation "iV" => (Memref.whole Cert.Kernel.main_v2_scv : Memref Cert.Kernel.sig Kind.scVector Space.hbm Cert.Kernel.S32x26x128 EltTy.i32)
local notation "oV" => (Memref.whole Cert.Kernel.main_v3_scv : Memref Cert.Kernel.sig Kind.scVector Space.hbm Cert.Kernel.S106496x128 EltTy.f32)
local notation "sI" => (Memref.whole Cert.Kernel.cc0_scratch0 : Memref Cert.Kernel.sig Kind.scVector Space.vmem Cert.Kernel.S26x128 EltTy.i32)
local notation "bA" => (Memref.whole Cert.Kernel.cc0_scratch1 : Memref Cert.Kernel.sig Kind.scVector Space.vmem Cert.Kernel.S128x128 EltTy.f32)
local notation "bB" => (Memref.whole Cert.Kernel.cc0_scratch2 : Memref Cert.Kernel.sig Kind.scVector Space.vmem Cert.Kernel.S128x128 EltTy.f32)
local notation "bC" => (Memref.whole Cert.Kernel.cc0_scratch3 : Memref Cert.Kernel.sig Kind.scVector Space.vmem Cert.Kernel.S128x128 EltTy.f32)
local notation "bD" => (Memref.whole Cert.Kernel.cc0_scratch4 : Memref Cert.Kernel.sig Kind.scVector Space.vmem Cert.Kernel.S128x128 EltTy.f32)

variable (m : (ℓ : Loc nD τ sig) → Buf (Elt F) ℓ) (ρ : Dev nD → PrngReg)

variable [FloatOps F]

open Idealize.ShloMosaic.StableHlo (held after launchContents seq wp_seq)

/-! ## @main as two stretches of host operations around the call -/

/-- The five host operations, as @main prints them. -/
abbrev op1 : HloOp τ sig (Elt F) :=
  StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev op2 : HloOp τ sig (Elt F) := StableHlo.reshape main_v0 main_v1 rfl shapeCasts_S26x4096_S106496
abbrev op3 : HloOp τ sig (Elt F) := StableHlo.reshape main_v1 main_v2 rfl shapeCasts_S106496_S32x26x128
abbrev op4 : HloOp τ sig (Elt F) := StableHlo.reshape main_v3 main_v4 rfl shapeCasts_S106496x128_S26x4096x128
abbrev op5 : HloOp τ sig (Elt F) :=
  StableHlo.unary main_v4 main_v5 ((transpose S4096x26x128 [1, 0, 2] · transposes_S26x4096x128_S4096x26x128_1_0_2) : (⟨S26x4096x128, .f32⟩ : BufTy).Contents (Elt F) → (⟨S4096x26x128, .f32⟩ : BufTy).Contents (Elt F))

/-- @main is the first three operations, the call, the last two. -/
theorem main_eq (d : Dev nD) :
    main (F := F) d = (seq [op1, op2, op3] >>= fun _ => ((K (F := F)).run d 0 >>= fun _ => seq [op4, op5])) := by
  simp only [main, seq, bind_assoc, pure_bind]

/-! ## The TensorCore's arrays -/

omit [FloatOps F] in
/-- The TensorCore's unscoped buffers are @main's eight arrays. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (v0Loc d ↦{fullShare} W main_v0)
      ∗ (v1Loc d ↦{fullShare} W main_v1) ∗ (iLoc d ↦{fullShare} W main_v2) ∗ (oLoc d ↦{fullShare} W main_v3) ∗ (v4Loc d ↦{fullShare} W main_v4)
      ∗ rLoc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Those buffers as a set of device buffers. -/
def Sall : Finset (DevRef τ sig) :=
  (Finset.univ.filter fun b : Ref sig .tc => ¬ b.isScoped).map ⟨Proc.devRef (sig := sig) (.tc : Proc τ), Proc.devRef_injective _⟩

theorem mem_Sall (b : Ref sig .tc) (hb : b.isScoped = false) : Proc.devRef (τ := τ) .tc b ∈ Sall :=
  Finset.mem_map_of_mem _ (Finset.mem_filter.mpr ⟨Finset.mem_univ b, by rw [hb]; exact Bool.false_ne_true⟩)

omit [FloatOps F] in
/-- Holding that set at a valuation is holding the unscoped buffers at it. -/
theorem held_unscoped (d : Dev nD) (V : Valuation τ sig (Elt F)) :
    (held (T d) Sall V : sProp 𝕄) = unscopedBufs d (fun b => V (Proc.devRef .tc b)) := by
  unfold StableHlo.held Sall unscopedBufs; rw [bigSep_map]; rfl

/-- Both stretches touch those buffers only. -/
theorem hS1 : ∀ op ∈ ([op1, op2, op3] : List (HloOp τ sig (Elt F))), op.bufs ⊆ Sall := by
  intro op hop
  rcases List.mem_cons.mp hop with rfl | hop
  · exact Finset.insert_subset (mem_Sall _ rfl) (Finset.singleton_subset_iff.mpr (mem_Sall _ rfl))
  rcases List.mem_cons.mp hop with rfl | hop
  · exact Finset.insert_subset (mem_Sall _ rfl) (Finset.singleton_subset_iff.mpr (mem_Sall _ rfl))
  rcases List.mem_cons.mp hop with rfl | hop
  · exact Finset.insert_subset (mem_Sall _ rfl) (Finset.singleton_subset_iff.mpr (mem_Sall _ rfl))
  exact absurd hop List.not_mem_nil
theorem hS2 : ∀ op ∈ ([op4, op5] : List (HloOp τ sig (Elt F))), op.bufs ⊆ Sall := by
  intro op hop
  rcases List.mem_cons.mp hop with rfl | hop
  · exact Finset.insert_subset (mem_Sall _ rfl) (Finset.singleton_subset_iff.mpr (mem_Sall _ rfl))
  rcases List.mem_cons.mp hop with rfl | hop
  · exact Finset.insert_subset (mem_Sall _ rfl) (Finset.singleton_subset_iff.mpr (mem_Sall _ rfl))
  exact absurd hop List.not_mem_nil
theorem hf1 : ∀ op ∈ ([op1, op2, op3] : List (HloOp τ sig (Elt F))), op.fresh = ∅ := by
  intro _ h; (repeat (cases h with | head => rfl | tail _ h => ?_)); exact nomatch h
theorem hf2 : ∀ op ∈ ([op4, op5] : List (HloOp τ sig (Elt F))), op.fresh = ∅ := by
  intro _ h; (repeat (cases h with | head => rfl | tail _ h => ?_)); exact nomatch h

/-! ## The call's operands are the tasks' pieces -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The three arrays, whole, are the thirty-two tasks' slabs, shares and chunks (the chunks at any contents `f`). -/
theorem tasks_eq (d : Dev nD) (f : Buf (Elt F) (oLoc d)) :
    (bigSep Finset.univ fun c : Fin 2 => bigSep Finset.univ fun s : Fin 16 => taskPts m d c s f)
      = iprop((iLoc d ↦{fullShare} I3m m d) ∗ (tLoc d ↦{fullShare} m (tLoc d)) ∗ oLoc d ↦{fullShare} f) := by
  rw [iLoc_slabs d (I3m m d), tLoc_shares d (m (tLoc d)), oLoc_chunks d f]
  simp only [taskPts, bigSep_sep']

omit [FloatOps F] in
theorem st0_eq (d : Dev nD) : (bigSep Finset.univ fun c : Fin ((K (F := F)).nCore 0) => (P m).st 0 d c)
    = iprop((iLoc d ↦{fullShare} I3m m d) ∗ (tLoc d ↦{fullShare} m (tLoc d)) ∗ oLoc d ↦{fullShare} m (oLoc d)) :=
  (bigSep_cores (F := F) (fun c => bigSep Finset.univ fun s : Fin 16 => taskPts m d c s (m (oLoc d)))).trans (tasks_eq m d (m (oLoc d)))
omit [FloatOps F] in
theorem dn0_eq (d : Dev nD) : (bigSep Finset.univ fun c : Fin ((K (F := F)).nCore 0) => (P m).dn 0 d c)
    = iprop((iLoc d ↦{fullShare} I3m m d) ∗ (tLoc d ↦{fullShare} m (tLoc d)) ∗ oLoc d ↦{fullShare} OUTm m d) :=
  (bigSep_cores (F := F) (fun c => bigSep Finset.univ fun s : Fin 16 => taskPts m d c s (OUTm m d))).trans (tasks_eq m d (OUTm m d))

/-! ## What the arrays hold along @main -/

/-- The valuation after the first stretch, and the one with the gathered rows in place after the call. -/
abbrev V1 (d : Dev nD) : Valuation τ sig (Elt F) := after [op1, op2, op3] (launchContents m d)
abbrev V2 (d : Dev nD) : Valuation τ sig (Elt F) := (StableHlo.nullary main_v3 (OUTm m d)).result (V1 m d)
abbrev V3 (d : Dev nD) : Valuation τ sig (Elt F) := after [op4, op5] (V2 m d)

open Idealize.ShloMosaic.StableHlo in
theorem V1_arg0 (d : Dev nD) : V1 m d (Proc.devRef .tc main_arg0) = m (xLoc d) := by
  show after [op1, op2, op3] (launchContents m d) (Proc.devRef .tc main_arg0) = _
  after_results
open Idealize.ShloMosaic.StableHlo in
theorem V1_arg1 (d : Dev nD) : V1 m d (Proc.devRef .tc main_arg1) = m (tLoc d) := by
  show after [op1, op2, op3] (launchContents m d) (Proc.devRef .tc main_arg1) = _
  after_results
open Idealize.ShloMosaic.StableHlo in
theorem V1_v2 (d : Dev nD) : V1 m d (Proc.devRef .tc main_v2) = I3m m d := by
  show after [op1, op2, op3] (launchContents m d) (Proc.devRef .tc main_v2) = _
  after_results
  rfl
open Idealize.ShloMosaic.StableHlo in
theorem V1_v3 (d : Dev nD) : V1 m d (Proc.devRef .tc main_v3) = m (oLoc d) := by
  show after [op1, op2, op3] (launchContents m d) (Proc.devRef .tc main_v3) = _
  after_results
open Idealize.ShloMosaic.StableHlo in
theorem V1_v4 (d : Dev nD) : V1 m d (Proc.devRef .tc main_v4) = m (v4Loc d) := by
  show after [op1, op2, op3] (launchContents m d) (Proc.devRef .tc main_v4) = _
  after_results
open Idealize.ShloMosaic.StableHlo in
theorem V1_v5 (d : Dev nD) : V1 m d (Proc.devRef .tc main_v5) = m (rLoc d) := by
  show after [op1, op2, op3] (launchContents m d) (Proc.devRef .tc main_v5) = _
  after_results

/-- After the call's return the gathered rows are in place; every other array is as the first stretch left it. -/
theorem V2_v3 (d : Dev nD) : V2 m d (Proc.devRef .tc main_v3) = OUTm m d := StableHlo.nullary_result _ _ _ _
theorem V2_arg0 (d : Dev nD) : V2 m d (Proc.devRef .tc main_arg0) = V1 m d (Proc.devRef .tc main_arg0) :=
  StableHlo.nullary_result_ne _ _ _ _ (by decide)
theorem V2_arg1 (d : Dev nD) : V2 m d (Proc.devRef .tc main_arg1) = V1 m d (Proc.devRef .tc main_arg1) :=
  StableHlo.nullary_result_ne _ _ _ _ (by decide)
theorem V2_v0 (d : Dev nD) : V2 m d (Proc.devRef .tc main_v0) = V1 m d (Proc.devRef .tc main_v0) :=
  StableHlo.nullary_result_ne _ _ _ _ (by decide)
theorem V2_v1 (d : Dev nD) : V2 m d (Proc.devRef .tc main_v1) = V1 m d (Proc.devRef .tc main_v1) :=
  StableHlo.nullary_result_ne _ _ _ _ (by decide)
theorem V2_v2 (d : Dev nD) : V2 m d (Proc.devRef .tc main_v2) = V1 m d (Proc.devRef .tc main_v2) :=
  StableHlo.nullary_result_ne _ _ _ _ (by decide)
theorem V2_v4 (d : Dev nD) : V2 m d (Proc.devRef .tc main_v4) = V1 m d (Proc.devRef .tc main_v4) :=
  StableHlo.nullary_result_ne _ _ _ _ (by decide)
theorem V2_v5 (d : Dev nD) : V2 m d (Proc.devRef .tc main_v5) = V1 m d (Proc.devRef .tc main_v5) :=
  StableHlo.nullary_result_ne _ _ _ _ (by decide)

open Idealize.ShloMosaic.StableHlo in
theorem V3_arg0 (d : Dev nD) : V3 m d (Proc.devRef .tc main_arg0) = m (xLoc d) := by
  show after [op1, op2, op3, StableHlo.nullary main_v3 (OUTm m d), op4, op5] (launchContents m d) (Proc.devRef .tc main_arg0) = _
  after_results
open Idealize.ShloMosaic.StableHlo in
theorem V3_arg1 (d : Dev nD) : V3 m d (Proc.devRef .tc main_arg1) = m (tLoc d) := by
  show after [op1, op2, op3, StableHlo.nullary main_v3 (OUTm m d), op4, op5] (launchContents m d) (Proc.devRef .tc main_arg1) = _
  after_results
open Idealize.ShloMosaic.StableHlo in
/-- The result buffer ends at the layout's term: the gathered rows cut into blocks, the first two axes exchanged. -/
theorem V3_v5 (d : Dev nD) : V3 m d (Proc.devRef .tc main_v5) = Rm m d := by
  show after [op1, op2, op3, StableHlo.nullary main_v3 (OUTm m d), op4, op5] (launchContents m d) (Proc.devRef .tc main_v5) = _
  after_results
  rfl

/-! ## The eight arrays at the three valuations -/

theorem held_V1 (d : Dev nD) : (held (T d) Sall (V1 m d) : sProp 𝕄)
    = iprop((xLoc d ↦{fullShare} m (xLoc d)) ∗ (tLoc d ↦{fullShare} m (tLoc d)) ∗ (v0Loc d ↦{fullShare} V1 m d (Proc.devRef .tc main_v0)) ∗ (v1Loc d ↦{fullShare} V1 m d (Proc.devRef .tc main_v1)) ∗ (iLoc d ↦{fullShare} I3m m d) ∗ (oLoc d ↦{fullShare} m (oLoc d)) ∗ (v4Loc d ↦{fullShare} m (v4Loc d)) ∗ rLoc d ↦{fullShare} m (rLoc d)) := by
  rw [held_unscoped, unscopedBufs_eq]
  rw [V1_arg0, V1_arg1, V1_v2, V1_v3, V1_v4, V1_v5]

theorem held_V2 (d : Dev nD) : (held (T d) Sall (V2 m d) : sProp 𝕄)
    = iprop((xLoc d ↦{fullShare} m (xLoc d)) ∗ (tLoc d ↦{fullShare} m (tLoc d)) ∗ (v0Loc d ↦{fullShare} V1 m d (Proc.devRef .tc main_v0)) ∗ (v1Loc d ↦{fullShare} V1 m d (Proc.devRef .tc main_v1)) ∗ (iLoc d ↦{fullShare} I3m m d) ∗ (oLoc d ↦{fullShare} OUTm m d) ∗ (v4Loc d ↦{fullShare} m (v4Loc d)) ∗ rLoc d ↦{fullShare} m (rLoc d)) := by
  rw [held_unscoped, unscopedBufs_eq]
  rw [V2_arg0, V2_arg1, V2_v0, V2_v1, V2_v2, V2_v3, V2_v4, V2_v5, V1_arg0, V1_arg1, V1_v2, V1_v4, V1_v5]

theorem held_V3 (d : Dev nD) : (held (T d) Sall (V3 m d) : sProp 𝕄)
    = iprop((xLoc d ↦{fullShare} m (xLoc d)) ∗ (tLoc d ↦{fullShare} m (tLoc d)) ∗ (v0Loc d ↦{fullShare} V3 m d (Proc.devRef .tc main_v0)) ∗ (v1Loc d ↦{fullShare} V3 m d (Proc.devRef .tc main_v1)) ∗ (iLoc d ↦{fullShare} V3 m d (Proc.devRef .tc main_v2)) ∗ (oLoc d ↦{fullShare} V3 m d (Proc.devRef .tc main_v3)) ∗ (v4Loc d ↦{fullShare} V3 m d (Proc.devRef .tc main_v4)) ∗ rLoc d ↦{fullShare} Rm m d) := by
  rw [held_unscoped, unscopedBufs_eq]
  rw [V3_arg0, V3_arg1, V3_v5]

/-! ## @main -/

/-- @main on device `d`'s TensorCore: the index array re-laid, the one call, the gathered rows re-laid into the result;
    the index array and the table kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq]
  iintro ⟨#Hctx, Hst, ⟨Hb, Hbufs, -, -⟩, -⟩
  ihave Hheld := (Entails.of_eq (held_unscoped d (launchContents m d)).symm) $$ Hbufs
  iapply (wp_seq 𝒱 none Set.univ d Sall (fun _ => ((K (F := F)).run d 0 >>= fun _ => seq [op4, op5])) [op1, op2, op3] hS1 hf1 (launchContents m d)) $$ [Hb Hheld]
  · isplitl [Hb]; · iexact Hb
    iexact Hheld
  iintro ⟨Hb, Hheld⟩
  ihave H8 := (Entails.of_eq (held_V1 m d)) $$ Hheld
  icases H8 with ⟨Hx, Ht, H0, H1, Hi, Ho, H4, Hr⟩
  rw [wp_bind]
  iapply ((K (F := F)).wp_run (D (F := F)) 𝒱 (EH := EH) (P := P m) κ d 0) $$ [Hst Hb Hx Ht H0 H1 Hi Ho H4 Hr]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  ihave Hheld := (Entails.of_eq (held_V2 m d).symm) $$ [Hx Ht H0 H1 Hi Ho H4 Hr]
  · isplitl [Hx]; · iexact Hx
    isplitl [Ht]; · iexact Ht
    isplitl [H0]; · iexact H0
    isplitl [H1]; · iexact H1
    isplitl [Hi]; · iexact Hi
    isplitl [Ho]; · iexact Ho
    isplitl [H4]; · iexact H4
    iexact Hr
  rw [show (seq [op4, op5] : Prog (TpuEff nD τ sig (Elt F) (SparseCore.Sig (ΛP (F := F)) 1) .tc) PUnit)
      = (seq [op4, op5] >>= fun u => Pure.pure u) from (bind_pure _).symm]
  iapply (wp_seq 𝒱 none Set.univ d Sall (fun u => Pure.pure u) [op4, op5] hS2 hf2 (V2 m d)) $$ [Hb Hheld]
  · isplitl [Hb]; · iexact Hb
    iexact Hheld
  iintro ⟨-, Hheld⟩
  ihave H8 := (Entails.of_eq (held_V3 m d)) $$ Hheld
  icases H8 with ⟨Hx, Ht, -, -, -, -, -, Hr⟩
  rw [wp_pure]; imodintro
  isplitl [Hst]; · iexact Hst
  isplitl [Hx]; · iexact Hx
  isplitl [Ht]; · iexact Ht
  iexact Hr

end Cert.Proof.KB

end
-- ==== Proof.KbLaunch.lean ====
/-
  The launch: each task's obligation from the body run at its grid point, the split of a SparseCore's operands
  among its tasks (the handshake already carries them task by task), the launch element, what the final memory
  holds, and the program's run with the result named.
-/
import proofs.«206664_g71932112273502_cont_9to1_m_983_11_alg».proof.Proof.KbBody
import proofs.«206664_g71932112273502_cont_9to1_m_983_11_alg».proof.Proof.KbMain
import proofs.«206664_g71932112273502_cont_9to1_m_983_11_alg».proof.Proof.LayoutValue

noncomputable section

namespace Cert.Proof.KB

open Cert.Kernel Cert.Kernel.Gen

open Idealize.ShloMosaic
open Idealize.ShloMosaic.ValueIdx (ix2 ix3)
open Cert.Layout (idx3Of outOf resOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S100000x128 EltTy.f32)
local notation "iV" => (Memref.whole Cert.Kernel.main_v2_scv : Memref Cert.Kernel.sig Kind.scVector Space.hbm Cert.Kernel.S32x26x128 EltTy.i32)
local notation "oV" => (Memref.whole Cert.Kernel.main_v3_scv : Memref Cert.Kernel.sig Kind.scVector Space.hbm Cert.Kernel.S106496x128 EltTy.f32)
local notation "sI" => (Memref.whole Cert.Kernel.cc0_scratch0 : Memref Cert.Kernel.sig Kind.scVector Space.vmem Cert.Kernel.S26x128 EltTy.i32)
local notation "bA" => (Memref.whole Cert.Kernel.cc0_scratch1 : Memref Cert.Kernel.sig Kind.scVector Space.vmem Cert.Kernel.S128x128 EltTy.f32)
local notation "bB" => (Memref.whole Cert.Kernel.cc0_scratch2 : Memref Cert.Kernel.sig Kind.scVector Space.vmem Cert.Kernel.S128x128 EltTy.f32)
local notation "bC" => (Memref.whole Cert.Kernel.cc0_scratch3 : Memref Cert.Kernel.sig Kind.scVector Space.vmem Cert.Kernel.S128x128 EltTy.f32)
local notation "bD" => (Memref.whole Cert.Kernel.cc0_scratch4 : Memref Cert.Kernel.sig Kind.scVector Space.vmem Cert.Kernel.S128x128 EltTy.f32)

variable (m : (ℓ : Loc nD τ sig) → Buf (Elt F) ℓ) (ρ : Dev nD → PrngReg)

/-- What the proof asks of the launch memory: every index word names a row of the table. -/
def PreOK : Prop := ∀ d : Dev nD, Cert.Spec.InRange (m (xLoc d))

variable [FloatOps F]

/-! ## The obligation -/

theorem defs₀_vector (c : Fin τ.nSC) (s : Fin τ.nSub) :
    defs₀ (F := F) (.scVector c s) 0 ()
      = SparseCore.onTile hcore0 hsub0 (fun c s => cc0__emb_body (coordsV c s)
          tV (Memref.isWhole_whole _) iV (Memref.isWhole_whole _) oV (Memref.isWhole_whole _)
          sI (Memref.isWhole_whole _) bA (Memref.isWhole_whole _) bB (Memref.isWhole_whole _) bC (Memref.isWhole_whole _) bD (Memref.isWhole_whole _)
          cc0_scratch5 cc0_scratch6 cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (tLoc d)) (I3m m d) (m (oLoc d)) hF (tq ⟨_, hci.1⟩ ⟨_, hci.2⟩)
    (Cert.Layout.idx3Of_lt (hpre d)) O W hO).trans (wp_mono frame _ _ fun _ => obl_post)

/-! ## A SparseCore's operands are its tasks' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => taskPts m d (Fin.cast nCore_zero c) s (m (oLoc d))) ⊢ |={Set.univ}=> iprop(
      (bigSep Finset.univ fun i : Fin ((K (F := F)).nSub 0) => taskPts m d (Fin.cast nCore_zero c) (Fin.cast nSub_zero i) (m (oLoc d)))
      ∗ ((bigSep Finset.univ fun i : Fin ((K (F := F)).nSub 0) => taskPts m d (Fin.cast nCore_zero c) (Fin.cast nSub_zero i) (OUTm m d))
          -∗ bigSep Finset.univ fun s : Fin 16 => taskPts m d (Fin.cast nCore_zero c) s (OUTm m d)))
  rw [bigSep_tasks (F := F) (fun s => taskPts m d (Fin.cast nCore_zero c) s (m (oLoc d))),
    bigSep_tasks (F := F) (fun s => taskPts m d (Fin.cast nCore_zero c) s (OUTm m d))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What the final memory holds -/

def fq (d : Dev nD) (s' : Phys nD τ sig (Elt F)) : Prop :=
  s'.mem.mem (xLoc d) = m (xLoc d) ∧ s'.mem.mem (tLoc d) = m (tLoc d) ∧ s'.mem.mem (rLoc d) = Rm m d

set_option maxRecDepth 16384 in
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := Rm m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Every weakly fair execution ends with the index array and the table as launched and the result at the
    layout's term of them. -/
def QC : PUnit × MemSt nD τ sig (Elt F) → Prop := fun r =>
  ∀ c : Dev nD, r.2.mem (xLoc c) = m (xLoc c) ∧ r.2.mem (tLoc c) = m (tLoc c) ∧ r.2.mem (rLoc c) = Rm m c

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefTerm.lean ====
/-
  The value the reference program computes, as one term of its two arguments: the index wrapped where negative, the
  in-range mask, the gathered rows, and the select between the rows and the word `0x7FC00000`.
-/
import proofs.«206664_g71932112273502_cont_9to1_m_983_11_alg».proof.ReferenceIdeal

noncomputable section

namespace Cert.RefSide

open Cert.ReferenceIdeal Cert.ReferenceIdeal.Facts₀ Idealize.ShloMosaic

variable {F : FTy → Type} [FloatOps F] [Cert.ReferenceIdeal.Facts]

/-- The index after the wrap of negative values: `x + 100000` where `x < 0` (signed), else `x`. -/
def wrapped (x : IVec S4096x26 32) : IVec S4096x26 32 :=
  select (cmpi .slt x (broadcastInDim S4096x26 ![] bcast_S_S4096x26 (constantI S_ 32 0#32)))
    (addi x (broadcastInDim S4096x26 ![] bcast_S_S4096x26 (constantI S_ 32 100000#32))) x

/-- The same as the gather's start indices: a trailing axis of size one. -/
def starts (x : IVec S4096x26 32) : IVec S4096x26x1 32 :=
  broadcastInDim S4096x26x1 ![0, 1] bcast_S4096x26_S4096x26x1_0_1 (wrapped x)

/-- The in-range mask: `0 ≤ start ≤ 99999` (signed), reduced by `and` over the trailing axis. -/
def inBounds (x : IVec S4096x26 32) : IVec S4096x26 1 :=
  Host.reduce IntOp.andi
    (andi
      (cmpi .sge (starts x) (broadcastInDim S4096x26x1 ![] bcast_S_S4096x26x1 (constantI S_ 32 0#32)))
      (cmpi .sle (starts x)
        (broadcastInDim S4096x26x1 ![0, 1, 2] bcast_S1x1x1_S4096x26x1_0_1_2
          (broadcastInDim S1x1x1 ![2] bcast_S1_S1x1x1_2 (constantI S1 32 99999#32)))))
    (constantI S_ 1 1#1) reducesTo_S4096x26x1_S4096x26_d2 h_S_

/-- What the program leaves in its result buffer: the gathered rows where the mask holds, else the word
    `0x7FC00000`. -/
def out (x : IVec S4096x26 32) (t : FVec F S100000x128 .f32) : FVec F S4096x26x128 .f32 :=
  select (broadcastInDim S4096x26x128 ![0, 1] bcast_S4096x26_S4096x26x128_0_1 (inBounds x))
    (Host.gather gather_S100000x128_S4096x26x1_S4096x26x128_2_0_n_n_0_2_1128 t (starts x))
    (broadcastInDim S4096x26x128 ![] bcast_S_S4096x26x128 (constant S_ .f32 0x7FC00000#32))

end Cert.RefSide

end
-- ==== Proof.RefOps.lean ====
/-
  The reference program as a straight line. `@main` calls `_take`, which calls `_where`; with the two bodies unfolded
  at their call sites it is a list of twenty-three host operations over the call's buffers. Every weakly fair execution
  ends with each buffer at the operations' composed value of the launch contents: the result buffer at `out x t`,
  the two arguments unchanged.
-/
import proofs.«206664_g71932112273502_cont_9to1_m_983_11_alg».proof.Proof.RefTerm
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## The operations -/

/-- `@main`'s operations in order, the calls unfolded: `_take`'s twenty-two, with `_where`'s one select in the place of
    its call. -/
abbrev ops : List (HloOp τ sig (Elt F)) :=
  [ TRef.nullary main_call0.c (constantI S_ 32 0#32),
    TRef.unary main_call0.c main_call0.v0 (broadcastInDim S4096x26 ![] bcast_S_S4096x26),
    TRef.binary (.of main_arg0) main_call0.v0 main_call0.v1 (cmpi .slt),
    TRef.nullary main_call0.c_0 (constantI S_ 32 100000#32),
    TRef.unary main_call0.c_0 main_call0.v2 (broadcastInDim S4096x26 ![] bcast_S_S4096x26),
    TRef.binary (.of main_arg0) main_call0.v2 main_call0.v3 addi,
    TRef.ternary main_call0.v1 main_call0.v3 (.of main_arg0) main_call0.call0.v0 select,
    TRef.unary main_call0.call0.v0 main_call0.v5 (broadcastInDim S4096x26x1 ![0, 1] bcast_S4096x26_S4096x26x1_0_1),
    TRef.nullary main_call0.c_1 (constantI S1 32 99999#32),
    TRef.nullary main_call0.c_2 (constantI S_ 32 0#32),
    TRef.unary main_call0.c_2 main_call0.v6 (broadcastInDim S4096x26x1 ![] bcast_S_S4096x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x26x1 ![0, 1, 2] bcast_S1x1x1_S4096x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x26x1_S4096x26_d2 h_S_),
    TRef.binary (.of main_arg1) main_call0.v5 main_call0.v13 (fun x i => Host.gather gather_S100000x128_S4096x26x1_S4096x26x128_2_0_n_n_0_2_1128 x i),
    TRef.unary main_call0.v12 main_call0.v14 (broadcastInDim S4096x26x128 ![0, 1] bcast_S4096x26_S4096x26x128_0_1),
    TRef.nullary main_call0.cst (constant S_ .f32 0x7FC00000#32),
    TRef.unary main_call0.cst main_call0.v15 (broadcastInDim S4096x26x128 ![] bcast_S_S4096x26x128),
    TRef.ternary main_call0.v14 main_call0.v13 main_call0.v15 main_call0.v16 select ]

set_option maxRecDepth 1024 in
/-- `@main` is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The fold at the result buffer is `out` of the two arguments' contents: each operation's result is read at its own
    buffer and any other buffer is left as it was; the typed references' casts are the identity at these literal
    references. -/
theorem out_eq (V : Valuation τ sig (Elt F)) :
    after ops V (main_v0 : DevRef τ sig) = out (V (main_arg0 : DevRef τ sig)) (V (main_arg1 : DevRef τ sig)) := by
  after_results
  simp only [TRef.ofBuf, TRef.toBuf, cast_eq]
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- From any memory with zero counters every weakly fair execution of `@main` terminates with the result buffer at
    `out` of the arguments' launch contents and the arguments unchanged. -/
theorem run_out (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.RefSide

end
-- ==== Proof.LibGatherRows.lean ====
/-
  A general lemma about the host's gather, read at an index: the row gather that `table[idx]` of a rank-2 table at a
  rank-2 array of row numbers lowers to.
-/
import Idealize.ShloMosaic.Lib.ValueIdx
import Idealize.ShloMosaic.Lib.StableHlo.Run

noncomputable section

namespace Cert.LibGatherRows

open Idealize.ShloMosaic Idealize.ShloMosaic.ValueIdx

variable {α : Type}

/-- The dimension numbers of a row gather: operand `[N, K]`, start indices `[R, C, 1]` (one row number per result
    row), result `[R, C, K]`; the operand's axis 0 is collapsed and named by the start index, its axis 1 is the
    result's offset axis 2, taken whole (slice sizes `[1, K]`). The conditions `wf` are decided on literal shapes. -/
abbrev rowDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The start-indices index `[r, c, 0]` of result index `(r, c, k)`. -/
abbrev rowIdx {R C K : Nat} (y : (⟨3, ![R, C, K]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- THE ROW GATHER READ AT `(r, c, k)`: entry `k` of the operand's row whose number is the start index `idx[r, c, 0]`,
    read signed and clamped into `[0, N − 1]`. -/
theorem gather_rows_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (y : (⟨3, ![R, C, K]⟩ : Shape).Idx) :
    Host.gather (rowDims N K R C wf) x idx y
      = x (ix2 ⟨min (idx (rowIdx y)).toInt.toNat (N - 1), by omega⟩ ⟨(y 2).val, (y 2).isLt⟩) := by
  have h0 : (rowDims N K R C wf).start y idx (0 : Fin 2) + (rowDims N K R C wf).batchCoord y (0 : Fin 2)
      + (rowDims N K R C wf).offCoord y (0 : Fin 2) = min (idx (rowIdx y)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K R C wf).startIndexMap from List.mem_singleton.mpr rfl)]
    have hsi : (rowDims N K R C wf).siIdx y ⟨List.idxOf (0 : Fin 2) (rowDims N K R C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  have h1 : (rowDims N K R C wf).start y idx (1 : Fin 2) + (rowDims N K R C wf).batchCoord y (1 : Fin 2)
      + (rowDims N K R C wf).offCoord y (1 : Fin 2) = (y 2).val := by
    have hne : (1 : Fin 2) ∉ ([0] : List (Fin 2)) := by decide
    have hk : (1 : Fin 2) ∈ (rowDims N K R C wf).sKept :=
      ((rowDims N K R C wf).mem_sKept 1).mpr ⟨hne, List.not_mem_nil⟩
    rw [GatherDims.batchCoord_eq_zero _ _ _ List.not_mem_nil]
    unfold GatherDims.start GatherDims.offCoord
    rw [dif_neg (show (1 : Fin 2) ∉ (rowDims N K R C wf).startIndexMap from hne), dif_pos hk]
    simp only [Nat.add_zero, Nat.zero_add]
    rfl
  unfold Host.gather
  congr 1
  funext a
  refine Fin.ext ?_
  match a with
  | ⟨0, _⟩ => exact h0
  | ⟨1, _⟩ => exact h1

end Cert.LibGatherRows

end
-- ==== Proof.RefRead.lean ====
/-
  The reference's value read at an index. Where every index word is below 100000 the wrap of negative values is the
  identity, the in-range mask is all ones and the gather's clamp is the identity, so entry `(b, f, k)` of the value is
  entry `k` of the table row the word `x[b, f]` names: the lookup of the specification.
-/
import proofs.«206664_g71932112273502_cont_9to1_m_983_11_alg».proof.Proof.RefTerm
import proofs.«206664_g71932112273502_cont_9to1_m_983_11_alg».proof.Proof.Spec
import proofs.«206664_g71932112273502_cont_9to1_m_983_11_alg».proof.Proof.LibGatherRows
import Idealize.ShloMosaic.Lib.Affine
import Idealize.ShloMosaic.PureOps.Reduce

noncomputable section

namespace Cert.RefSide

open Cert.ReferenceIdeal Cert.ReferenceIdeal.Facts₀ Idealize.ShloMosaic Idealize.ShloMosaic.ValueIdx

variable {F : FTy → Type} [FloatOps F] [Cert.ReferenceIdeal.Facts]

/-! ## Words -/

/-- A 32-bit word below 100000 reads the same signed and unsigned. -/
theorem toInt_of_lt (v : BitVec 32) (h : v.toNat < 100000) : v.toInt = (v.toNat : Int) :=
  BitVec.toInt_eq_toNat_of_lt (by omega)

/-- Such a word is not negative … -/
theorem slt_zero_of_lt (v : BitVec 32) (h : v.toNat < 100000) : IntOp.cmpi .slt v 0#32 = 0#1 := by
  refine eq_zero_of_ne_one fun e => ?_
  rw [IntOp.cmpi_slt, toInt_of_lt v h, show (0#32 : BitVec 32).toInt = 0 from by decide] at e
  omega

/-- … it is at least 0 … -/
theorem sge_zero_of_lt (v : BitVec 32) (h : v.toNat < 100000) : IntOp.cmpi .sge v 0#32 = 1#1 := by
  rw [IntOp.cmpi_sge, toInt_of_lt v h, show (0#32 : BitVec 32).toInt = 0 from by decide]
  omega

/-- … and at most 99999. -/
theorem sle_max_of_lt (v : BitVec 32) (h : v.toNat < 100000) : IntOp.cmpi .sle v 99999#32 = 1#1 := by
  rw [IntOp.cmpi_sle, toInt_of_lt v h, show (99999#32 : BitVec 32).toInt = 99999 from by decide]
  omega

/-- A left fold by `and` from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf => by
    rw [List.foldl_cons]
    exact foldl_andi_ones f l _ (IntOp.andi_eq_one.2 ⟨hi, hf a List.mem_cons_self⟩)
      (fun n hn => hf n (List.mem_cons_of_mem _ hn))

/-! ## The value's parts at an index -/

/-- The wrap at an index: the select between the word plus 100000 and the word, on the word's sign. -/
theorem wrapped_apply (x : IVec S4096x26 32) (i : S4096x26.Idx) :
    wrapped x i = Scalar.select (IntOp.cmpi .slt (x i) 0#32) (IntOp.addi (x i) 100000#32) (x i) := rfl

/-- In range, the wrap is the identity. -/
theorem wrapped_of_inRange {x : IVec S4096x26 32} (h : Cert.Spec.InRange x) (i : S4096x26.Idx) : wrapped x i = x i := by
  rw [wrapped_apply, slt_zero_of_lt _ (h i), select_zero]

/-- The start indices at `(b, f, 0)` are the wrapped index at `(b, f)`. -/
theorem starts_apply (x : IVec S4096x26 32) (j : S4096x26x1.Idx) :
    starts x j = wrapped x (ix2 (n0 := 4096) (n1 := 26) (j 0) (j 1)) := by
  show wrapped x _ = wrapped x _
  congr 1
  funext a
  match a with
  | ⟨0, _⟩ => rfl
  | ⟨1, _⟩ => rfl

/-- In range, the mask is 1 everywhere: both comparisons hold at every start index. -/
theorem inBounds_of_inRange {x : IVec S4096x26 32} (h : Cert.Spec.InRange x) (i : S4096x26.Idx) : inBounds x i = 1#1 := by
  unfold inBounds
  rw [Host.reduce_eq_foldl]
  refine foldl_andi_ones _ _ _ rfl fun n _ => ?_
  show IntOp.andi (IntOp.cmpi .sge (starts x n) 0#32) (IntOp.cmpi .sle (starts x n) 99999#32) = 1#1
  rw [starts_apply, wrapped_of_inRange h]
  exact IntOp.andi_eq_one.2 ⟨sge_zero_of_lt _ (h _), sle_max_of_lt _ (h _)⟩

/-! ## The value -/

/-- In range, the reference's value is the lookup. -/
theorem out_eq_lookup {x : IVec S4096x26 32} (t : FVec F S100000x128 .f32) (h : Cert.Spec.InRange x) :
    out x t = Cert.Spec.lookup x t := by
  funext j
  have hm : broadcastInDim S4096x26x128 ![0, 1] bcast_S4096x26_S4096x26x128_0_1 (inBounds x) j = 1#1 :=
    inBounds_of_inRange h _
  have hw := h (ix2 (n0 := 4096) (n1 := 26) ⟨(j 0).val, (j 0).isLt⟩ ⟨(j 1).val, (j 1).isLt⟩)
  have hs : starts x (Cert.LibGatherRows.rowIdx j)
      = x (ix2 (n0 := 4096) (n1 := 26) ⟨(j 0).val, (j 0).isLt⟩ ⟨(j 1).val, (j 1).isLt⟩) := by
    rw [starts_apply, wrapped_of_inRange h]
    rfl
  have e : min (starts x (Cert.LibGatherRows.rowIdx j)).toInt.toNat (100000 - 1)
      = (x (ix2 (n0 := 4096) (n1 := 26) ⟨(j 0).val, (j 0).isLt⟩ ⟨(j 1).val, (j 1).isLt⟩)).toNat % 100000 := by
    rw [hs, toInt_of_lt _ hw, Int.toNat_natCast]
    omega
  unfold out
  rw [select_apply, hm, select_one]
  refine (Cert.LibGatherRows.gather_rows_apply (by decide)
    gather_S100000x128_S4096x26x1_S4096x26x128_2_0_n_n_0_2_1128_wf t (starts x) j).trans ?_
  exact congrArg (fun r : Fin 100000 => t (ix2 r ⟨(j 2).val, (j 2).isLt⟩)) (Fin.ext e)

end Cert.RefSide

end
-- ==== Proof.RefRun.lean ====
/-
  The reference's run against the specification. Every weakly fair execution of the reference program from a memory
  with zero counters terminates; where every index word of the launch memory is below 100000 the result buffer ends at
  the lookup of the two arguments' launch contents, and the arguments are unchanged.
-/
import proofs.«206664_g71932112273502_cont_9to1_m_983_11_alg».proof.ReferenceIdeal
import proofs.«206664_g71932112273502_cont_9to1_m_983_11_alg».proof.Proof.Spec
import proofs.«206664_g71932112273502_cont_9to1_m_983_11_alg».proof.Proof.RefOps
import proofs.«206664_g71932112273502_cont_9to1_m_983_11_alg».proof.Proof.RefRead

noncomputable section

namespace Cert.RefSide

open Idealize.ShloMosaic Idealize.SL.Sem

/-- The run of the reference at the ideal instance: the result is the lookup, the arguments are kept. -/
theorem run [Cert.ReferenceIdeal.Facts]
    (m' : (ℓ : Loc Cert.ReferenceIdeal.nD Cert.ReferenceIdeal.τ Cert.ReferenceIdeal.sig) → Buf (Elt Ideal) ℓ) (g' : Dev Cert.ReferenceIdeal.nD → PrngReg)
    (hin : ∀ c : Dev Cert.ReferenceIdeal.nD, Cert.Spec.InRange (m' ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v0)
            = Cert.Spec.lookup (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (out_eq_lookup (F := Ideal) _ (hin c)), (h c).2⟩)
    (run_out (F := Ideal) m' g')

end Cert.RefSide

end
-- ==== Proof.PreRange.lean ====
/-
  The precondition read back. The predicate is the conjunction of two `all`s; the second says that every index word,
  read as a signed integer, lies in `[0, 99999]`. Such a word is its own unsigned value, below 100000.
-/
import proofs.«206664_g71932112273502_cont_9to1_m_983_11_alg».proof.Pre_input_domain
import proofs.«206664_g71932112273502_cont_9to1_m_983_11_alg».proof.Proof.Spec
import Idealize.ShloMosaic.Lib.ReduceAll

namespace Cert.PreRange

open Idealize.ShloMosaic Idealize.ShloMosaic.ValueIdx

/-- A 32-bit word that is at least 0 and at most 99999 as a signed integer is below 100000 as an unsigned one. -/
theorem toNat_lt_of_signed_range (v : BitVec 32)
    (e : IntOp.andi (IntOp.cmpi .sge v 0#32) (IntOp.cmpi .sle v 99999#32) = 1#1) : v.toNat < 100000 := by
  obtain ⟨h0, h1⟩ := IntOp.andi_eq_one.1 e
  rw [IntOp.cmpi_sge, show (0#32 : BitVec 32).toInt = 0 from by decide] at h0
  rw [IntOp.cmpi_sle, show (99999#32 : BitVec 32).toInt = 99999 from by decide] at h1
  have hv := v.isLt
  by_cases hc : 2 * v.toNat < 2 ^ 32
  · rw [BitVec.toInt_eq_toNat_of_lt hc] at h1
    omega
  · rw [BitVec.toInt_eq_toNat_cond, if_neg hc] at h0
    omega

/-- Where the precondition holds, every index word names a row of the table. -/
theorem inRange_of_pre {F : FTy → Type} [FloatOps F] [Cert.Pre_input_domain.Facts]
    (x : IVec Cert.Pre_input_domain.S4096x26 32) (t : FVec F Cert.Pre_input_domain.S100000x128 .f32)
    (h : Cert.Pre_input_domain.fn (F := F) x t = fun _ => 1#1) : Cert.Spec.InRange x := by
  haveI : Subsingleton Cert.Pre_input_domain.S_.Idx := ⟨fun a b => funext fun d => d.elim0⟩
  intro i
  have e := congrFun h ix0
  dsimp only [Cert.Pre_input_domain.fn] at e
  obtain ⟨-, e9⟩ := IntOp.andi_eq_one.1 e
  have ei := Host.reduce_andi_all _ _ _ _ _ e9 i
  exact toNat_lt_of_signed_range (x i) ei

end Cert.PreRange
-- ==== Proof.lean ====
/-
  The certificate's five conjuncts. Both printed kernels are one program read at two float instances; its run is
  proved once per instance with the result named: every weakly fair execution of the thirty-five threads ends with
  the index array and the table unchanged and the result at `resOf (outOf (idx3Of x) table)` — the gathered rows of
  the re-laid index array, re-laid back. The frames are that run (and the reference's) with the value dropped. At the
  ideal instance the reference's run ends at the lookup `table[x[b, f], k]` of Spec.lean (its fill-mode wrap, mask
  and clamp are the identity where every index word is in range, which the precondition says), and the layout term
  is that same lookup (an index equation: row 4096·f + b of the gathered rows is word (b, f) of the index array), so the
  two results are equal element by element. The ideal pass rewrote nothing: `preserves` has no conjunct.
-/
import proofs.«206664_g71932112273502_cont_9to1_m_983_11_alg».proof.Defs
import proofs.«206664_g71932112273502_cont_9to1_m_983_11_alg».proof.Proof.Gen.Kernel
import proofs.«206664_g71932112273502_cont_9to1_m_983_11_alg».proof.Proof.Gen.Kernel.Skeleton
import proofs.«206664_g71932112273502_cont_9to1_m_983_11_alg».proof.Proof.Gen.KernelIdeal
import proofs.«206664_g71932112273502_cont_9to1_m_983_11_alg».proof.Proof.Gen.KernelIdeal.Skeleton
import proofs.«206664_g71932112273502_cont_9to1_m_983_11_alg».proof.Proof.Gen.ReferenceIdeal
import proofs.«206664_g71932112273502_cont_9to1_m_983_11_alg».proof.Proof.Gen.Pre_input_domain
import proofs.«206664_g71932112273502_cont_9to1_m_983_11_alg».proof.Proof.KiLaunch
import proofs.«206664_g71932112273502_cont_9to1_m_983_11_alg».proof.Proof.KbLaunch
import proofs.«206664_g71932112273502_cont_9to1_m_983_11_alg».proof.Proof.RefRun
import proofs.«206664_g71932112273502_cont_9to1_m_983_11_alg».proof.Proof.PreRange
import proofs.«206664_g71932112273502_cont_9to1_m_983_11_alg».proof.Proof.LayoutValue
import Idealize.ShloMosaic.Adequacy
import Idealize.ShloMosaic.Init

noncomputable section

namespace Cert.Proof

open Idealize.ShloMosaic Idealize.SL.Sem

/-- The word-level kernel runs, and leaves its arguments as they were. -/
theorem frame_k : Cert.frame_Kernel := fun m ρ hpre =>
  (θ_run Cert.Kernel.defs _ _).mono (fun _ h c => ⟨(h c).1, (h c).2.1⟩)
    (Cert.Proof.KB.run_main (F := Bits) m ρ fun d => Cert.PreRange.inRange_of_pre _ _ (hpre d))

/-- So does the idealized kernel. -/
theorem frame_ki : Cert.frame_KernelIdeal := fun m ρ hpre =>
  (θ_run Cert.KernelIdeal.defs _ _).mono (fun _ h c => ⟨(h c).1, (h c).2.1⟩)
    (Cert.Proof.KI.run_main (F := Ideal) m ρ fun d => Cert.PreRange.inRange_of_pre _ _ (hpre d))

/-- The reference's frame is its run with the value dropped. -/
theorem frame_ri : Cert.frame_ReferenceIdeal := fun m ρ hpre =>
  (θ_run Cert.ReferenceIdeal.defs _ _).mono (fun _ h c => (h c).2)
    (Cert.RefSide.run m ρ fun c => Cert.PreRange.inRange_of_pre _ _ (hpre c))

/-- At the ideal instance both programs end at the lookup of the index array in the table. -/
theorem algebraic : Cert.algebraic_KernelIdeal_ReferenceIdeal := by
  intro m g m' g' hpre hagree
  have hx : ∀ d, Cert.Spec.InRange (m (Cert.Proof.KI.xLoc d)) := fun d => Cert.PreRange.inRange_of_pre _ _ (hpre d)
  refine ⟨fun c => Cert.Proof.KI.Rm m c,
    (θ_run Cert.KernelIdeal.defs _ _).mono (fun _ h c => ⟨(h c).2.2, (h c).1, (h c).2.1⟩) (Cert.Proof.KI.run_main (F := Ideal) m g hx), ?_⟩
  refine (θ_run Cert.ReferenceIdeal.defs _ _).mono (fun _ h c => ⟨(h c).1.trans ?_, (h c).2⟩)
    (Cert.RefSide.run m' g' fun c => by rw [(hagree c).1]; exact hx c)
  rw [(hagree c).1, (hagree c).2]
  exact (Cert.Layout.resOf_outOf (hx c) _).symm

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
